-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 53
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x128, .bf16⟩
  | .hbm, ⟨37, _⟩ => ⟨S128x128, .bf16⟩
  | .hbm, ⟨38, _⟩ => ⟨S128x128, .bf16⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S_, .f32⟩
  | .hbm, ⟨45, _⟩ => ⟨S1x128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .bf16⟩
  | .local _ .vmem, ⟨3, _⟩ => ⟨S5000x128, .bf16⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .bf16⟩
  | .local _ .vmem, ⟨12, _⟩ => ⟨S5000x128, .bf16⟩
  | .local _ .vmem, ⟨13, _⟩ => ⟨S128x128, .bf16⟩
  | .local _ .vmem, ⟨14, _⟩ => ⟨S128x128, .bf16⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .bf16 = 32 ∨ (Rect.block (s := S50000x128) S5000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .bf16 = 32 ∨ (Rect.block (s := S50000x128) S5000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29_0) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29_1) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v28) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v36) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 95
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S_, .f32⟩
  | .hbm, ⟨44, _⟩ => ⟨S50000x128, .f32⟩
  | .hbm, ⟨45, _⟩ => ⟨S50000x128, .i1⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S_, .i32⟩
  | .hbm, ⟨56, _⟩ => ⟨S_, .f32⟩
  | .hbm, ⟨57, _⟩ => ⟨S128, .f32⟩
  | .hbm, ⟨58, _⟩ => ⟨S1x128, .f32⟩
  | .hbm, ⟨59, _⟩ => ⟨S_, .f32⟩
  | .hbm, ⟨60, _⟩ => ⟨S1x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S128, .f32⟩
  | .hbm, ⟨72, _⟩ => ⟨S_, .f32⟩
  | .hbm, ⟨73, _⟩ => ⟨S_, .i1⟩
  | .hbm, ⟨74, _⟩ => ⟨S_, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_call1_cst : Ref sig .tc := ⟨.hbm, 56, rfl⟩
abbrev main_call1_v0 : Ref sig .tc := ⟨.hbm, 57, rfl⟩
abbrev main_call1_v1 : Ref sig .tc := ⟨.hbm, 58, rfl⟩
abbrev main_call1_cst_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_cst_1 : Ref sig .tc := ⟨.hbm, 66, rfl⟩
abbrev main_call1_v8 : Ref sig .tc := ⟨.hbm, 67, rfl⟩
abbrev main_call1_cst_2 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_cst_3 : Ref sig .tc := ⟨.hbm, 72, rfl⟩
abbrev main_call1_v12 : Ref sig .tc := ⟨.hbm, 73, rfl⟩
abbrev main_call1_cst_4 : Ref sig .tc := ⟨.hbm, 74, rfl⟩
abbrev main_call1_call0_v0 : Ref sig .tc := ⟨.hbm, 75, rfl⟩
abbrev main_call1_call0_v1 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_cst_8 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Neigh.lean ====
/-
  THE NEIGHBOUR MEANS, as one function of the node features and the edge list, at the ideal values.

  Row 0 of the edge list holds each edge's source node, row 1 its destination.  A negative source is wrapped by the
  number of nodes, the source rows of the features are gathered, and every gathered row is added into the row of its
  edge's destination (`agg`); a one per edge added the same way counts each node's incoming edges (`deg`); each
  summed row is divided by the larger of that count and one.  Both programs apply exactly these operations to the
  same two arguments, so the result is carried as one function `hneigh` and opened only where its entries are shown
  to be real numbers.
-/
import proofs.«146067_j47725676593247_1_alg».proof.ReferenceIdeal
import proofs.«146067_j47725676593247_1_alg».proof.Proof.Gen.ReferenceIdeal
import Idealize.ShloMosaic.PureOps.Ideal

noncomputable section

namespace Cert.Neigh

open Idealize.ShloMosaic Cert.ReferenceIdeal Cert.ReferenceIdeal.Facts₀

/-- Row `r` of the edge list as a vector. -/
def edgeRow0 (ei : IVec S2x800000 32) : IVec S800000 32 :=
  shapeCast S800000 (extractStridedSlice S1x800000 ![0, 0] ei slices_S2x800000_S1x800000_0_0) shapeCasts_S1x800000_S800000

def edgeRow1 (ei : IVec S2x800000 32) : IVec S800000 32 :=
  shapeCast S800000 (extractStridedSlice S1x800000 ![1, 0] ei slices_S2x800000_S1x800000_1_0) shapeCasts_S1x800000_S800000

/-- The sources, a negative one wrapped by the number of nodes, as a column of start indices. -/
def srcIdx (ei : IVec S2x800000 32) : IVec S800000x1 32 :=
  broadcastInDim S800000x1 ![0] bcast_S800000_S800000x1_0
    (select (cmpi .slt (edgeRow0 ei) (broadcastInDim S800000 ![] bcast_S_S800000 (constantI S_ 32 0#32)))
      (addi (edgeRow0 ei) (broadcastInDim S800000 ![] bcast_S_S800000 (constantI S_ 32 50000#32)))
      (edgeRow0 ei))

/-- The destinations as a column of scatter indices. -/
def dstIdx (ei : IVec S2x800000 32) : IVec S800000x1 32 :=
  broadcastInDim S800000x1 ![0] bcast_S800000_S800000x1_0 (edgeRow1 ei)

/-- The gathered source rows. -/
def gathered (h : FVec Ideal S50000x128 .f32) (ei : IVec S2x800000 32) : FVec Ideal S800000x128 .f32 :=
  Host.gather gather_S50000x128_S800000x1_S800000x128_1_0_n_n_0_1_1128 h (srcIdx ei)

/-- The gathered rows summed into their destinations' rows. -/
def agg (h : FVec Ideal S50000x128 .f32) (ei : IVec S2x800000 32) : FVec Ideal S50000x128 .f32 :=
  Host.scatterAdd scatter_S50000x128_S800000x1_S800000x128_1_0_0_1
    (broadcastInDim S50000x128 ![] bcast_S_S50000x128 (constant (F := Ideal) S_ .f32 0x00000000#32)) (dstIdx ei) (gathered h ei)

/-- The number of incoming edges of every node. -/
def deg (ei : IVec S2x800000 32) : FVec Ideal S50000 .f32 :=
  Host.scatterAdd scatter_S50000_S800000x1_S800000_n_0_0_1
    (broadcastInDim S50000 ![] bcast_S_S50000 (constant (F := Ideal) S_ .f32 0x00000000#32)) (dstIdx ei)
    (broadcastInDim S800000 ![] bcast_S_S800000 (constant (F := Ideal) S_ .f32 0x3F800000#32))

/-- The divisor: the larger of the count and one, repeated across the columns. -/
def divisor (ei : IVec S2x800000 32) : FVec Ideal S50000x128 .f32 :=
  broadcastInDim S50000x128 ![0, 1] bcast_S50000x1_S50000x128_0_1
    (broadcastInDim S50000x1 ![0] bcast_S50000_S50000x1_0
      (maximumf (deg ei) (broadcastInDim S50000 ![] bcast_S_S50000 (constant (F := Ideal) S_ .f32 0x3F800000#32))))

/-- The neighbour means. -/
def hneigh (h : FVec Ideal S50000x128 .f32) (ei : IVec S2x800000 32) : FVec Ideal S50000x128 .f32 :=
  Host.divf (agg h ei) (divisor ei)

end Cert.Neigh

end
-- ==== Proof.LibStraightLine.lean ====
/-
  A straight-line host program cut into lines: three general facts, for writing by hand the run of a program whose
  operations come as a list of lists (one list per stretch of @main or per function written out at its call).

  * `after_append` — the contents after two lists of operations run one after the other is the fold over the second
    from the fold over the first;
  * `chain_seq` — lines run one after another are their concatenation run as one line, so an @main proved equal to
    the chain of its lines is `seq` of the flattened list, the form `StableHlo.run_seq` takes;
  * `forall_flatten` — a property of every operation of every line holds of every operation of the flattened list
    (the side conditions `run_seq` asks: each operation touches TensorCore references only, and fixes its results).
-/
import Idealize.ShloMosaic.Lib.StableHlo.Run
import Idealize.ShloMosaic.Lib.Pipeline.Regions

noncomputable section

namespace Cert.StraightLine

open Idealize.ShloMosaic Idealize.SL.Sem Idealize.ShloMosaic.StableHlo

variable {nD : Nat} {τ : Topo} {sig : RefSig} {Val : EltTy → Type} {Λ : Labels}

/-- Operations run one list after another: the fold over a concatenation is the fold over the second list from the
    fold over the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Lines run one after another are their concatenation run as one line. -/
theorem chain_seq (L : List (List (HloOp τ sig Val))) :
    Pipeline.chain (L.map fun l => (seq l : Prog (TpuEff nD τ sig Val Λ .tc) PUnit)) = seq L.flatten := by
  induction L with
  | nil => rfl
  | cons l L ih =>
    rw [List.map_cons, Pipeline.chain_cons, ih, List.flatten_cons, StableHlo.seq_append]

/-- A property of every element of every list holds of every element of their concatenation. -/
theorem forall_flatten {α : Type} {p : α → Prop} (L : List (List α)) (h : L.Forall fun l => l.Forall p) : L.flatten.Forall p :=
  List.forall_iff_forall_mem.mpr fun x hx => by
    obtain ⟨l, hl, hxl⟩ := List.mem_flatten.mp hx
    exact List.forall_iff_forall_mem.mp (List.forall_iff_forall_mem.mp h l hl) x hxl

end Cert.StraightLine

end
-- ==== Proof.LibTypedRef.lean ====
/-
  CONTENTS AT A TYPED REFERENCE'S VALUE TYPE AND AT ITS BUFFER'S OWN TYPE.

  A host function whose operations are listed inside its caller names its buffers by typed references: a buffer together with
  the equation that the buffer's type is the value type `T` it is used at. Such an operation reads a buffer's contents
  moved along that equation to `T` (`ofBuf`) and writes its result moved back (`toBuf`). Both moves are the identity up
  to the equation. Stated here for every typed reference:
  • moved to the buffer's type and back, contents are what they were (`ofBuf_toBuf`);
  • contents moved either way are equal to whatever they are heterogeneously equal to (`ofBuf_eq`, `toBuf_eq`) — for a
    literal reference the two types are the same by computation, so the side condition is then reflexivity.
  The proofs take the reference apart and substitute the equation, which is possible because `T` is a variable here;
  nothing about any particular buffer table is evaluated.
-/
import Idealize.ShloMosaic.Lib.StableHlo

noncomputable section

namespace Cert.TypedRef

open Idealize.ShloMosaic Idealize.ShloMosaic.StableHlo

variable {sig : RefSig} {Val : EltTy → Type} {T : BufTy}

/-- Contents moved to the buffer's own type and back are what they were. -/
theorem ofBuf_toBuf (x : TRef sig T) (v : T.Contents Val) : x.ofBuf (x.toBuf v) = v := by
  obtain ⟨r, te, od, us⟩ := x
  subst te
  rfl

/-- The buffer's contents read at the value type are any value of that type they are heterogeneously equal to. -/
theorem ofBuf_eq (x : TRef sig T) (w' : x.ref.ty.Contents Val) (w : T.Contents Val) (h : HEq w' w) : x.ofBuf w' = w :=
  eq_of_heq ((cast_heq _ w').trans h)

/-- A value written at the buffer's own type is any contents of the buffer it is heterogeneously equal to. -/
theorem toBuf_eq (x : TRef sig T) (v : T.Contents Val) (w' : x.ref.ty.Contents Val) (h : HEq v w') : x.toBuf v = w' :=
  eq_of_heq ((cast_heq _ v).trans h)

end Cert.TypedRef

end
-- ==== Proof.RefRun.lean ====
/-
  THE REFERENCE PROGRAM AS A STRAIGHT LINE, AND ITS RUN.

  The reference's entry function is a sequence of whole-array operations with two calls of outlined functions (the
  leaky rectifier, which itself calls a three-way select, and the variance, which calls a select with a scalar
  predicate).  A call executes the callee's body on the operands, so the whole program is one straight line: the
  callees' operations written out where they are called, over the buffers each call names.  The line is cut into six
  stretches at the calls:
    A  the neighbour means (edge rows, wrapped sources, gather, the two scatter-adds, the division);
    B  the two products, their sum, the bias, and the slope constant;
    C  the leaky rectifier's body;
    D  the column means and the integer zero the variance takes;
    E  the variance's body;
    F  the normalisation, scale, shift and residual sum.
  Each stretch's effect on the buffers is stated as one whole-array function of the buffers it reads, and the six
  are composed into `outT`, a function of the seven arguments.  The run: from any memory with zero counters every
  weakly fair execution terminates with the result buffer at `outT` of the arguments' launch contents and the
  arguments unchanged.
-/
import proofs.«146067_j47725676593247_1_alg».proof.Proof.Gen.ReferenceIdeal
import proofs.«146067_j47725676593247_1_alg».proof.Proof.Neigh
import proofs.«146067_j47725676593247_1_alg».proof.Proof.LibStraightLine
import proofs.«146067_j47725676593247_1_alg».proof.Proof.LibTypedRef
import Idealize.ShloMosaic.Lib.StableHlo.Run
import Idealize.ShloMosaic.Lib.Pipeline.Regions

noncomputable section

namespace Cert.ReferenceIdeal.RefValue

open Cert.ReferenceIdeal Cert.ReferenceIdeal.Facts₀ Idealize.ShloMosaic Idealize.ShloMosaic.TcCoe Idealize.SL.Sem
  Idealize.ShloMosaic.StableHlo

variable {F : FTy → Type} [FloatOps F]

/-- Stretch A: 29 operations. -/
def opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)) ]

/-- Stretch B: 7 operations. -/
def opsB : List (HloOp τ sig (Elt F)) :=
  [ binary main_arg0 main_arg2 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v22 main_arg3 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v23 main_v24 main_v25 (addf : (⟨S50000x128, .f32⟩ : BufTy).Contents (Elt F) → (⟨S50000x128, .f32⟩ : BufTy).Contents (Elt F) → (⟨S50000x128, .f32⟩ : BufTy).Contents (Elt F)),
    unary main_arg4 main_v26 (broadcastInDim S1x128 ![1] bcast_S128_S1x128_1 : (⟨S128, .f32⟩ : BufTy).Contents (Elt F) → (⟨S1x128, .f32⟩ : BufTy).Contents (Elt F)),
    unary main_v26 main_v27 (broadcastInDim S50000x128 ![0, 1] bcast_S1x128_S50000x128_0_1 : (⟨S1x128, .f32⟩ : BufTy).Contents (Elt F) → (⟨S50000x128, .f32⟩ : BufTy).Contents (Elt F)),
    binary main_v25 main_v27 main_v28 (addf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x3C23D70A#32) ]

/-- Stretch C: 7 operations. -/
def opsC : List (HloOp τ sig (Elt F)) :=
  [ TRef.nullary main_call0.cst (constant S_ .f32 0x00000000#32),
    TRef.unary main_call0.cst main_call0.v0 (broadcastInDim S50000x128 ![] bcast_S_S50000x128),
    TRef.binary (.of main_v28) main_call0.v0 main_call0.v1 (cmpf .oge),
    TRef.unary (.of main_cst_4) main_call0.v2 id,
    TRef.unary main_call0.v2 main_call0.v3 (broadcastInDim S50000x128 ![] bcast_S_S50000x128),
    TRef.binary main_call0.v3 (.of main_v28) main_call0.v4 mulf,
    TRef.ternary main_call0.v1 (.of main_v28) main_call0.v4 main_call0.call0.v0 select ]

/-- Stretch D: 6 operations. -/
def opsD : List (HloOp τ sig (Elt F)) :=
  [ nullary main_cst_5 (constant S_ .f32 0x00000000#32),
    binary main_v29 main_cst_5 main_v30 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_6 (constant S_ .f32 0x47435000#32),
    unary main_cst_6 main_v31 (broadcastInDim S128 ![] bcast_S_S128 : (⟨S_, .f32⟩ : BufTy).Contents (Elt F) → (⟨S128, .f32⟩ : BufTy).Contents (Elt F)),
    binary main_v30 main_v31 main_v32 (Host.divf : (⟨S128, .f32⟩ : BufTy).Contents (Elt F) → (⟨S128, .f32⟩ : BufTy).Contents (Elt F) → (⟨S128, .f32⟩ : BufTy).Contents (Elt F)),
    nullary main_c_7 (constantI S_ 32 0#32) ]

/-- Stretch E: 22 operations. -/
def opsE : List (HloOp τ sig (Elt F)) :=
  [ TRef.nullary main_call1.cst (constant S_ .f32 0x00000000#32),
    TRef.binary (.of main_v29) main_call1.cst main_call1.v0 (fun x v => Host.reduceAdd x v reducesTo_S50000x128_S128_d0 h_S_),
    TRef.unary main_call1.v0 main_call1.v1 (broadcastInDim S1x128 ![1] bcast_S128_S1x128_1),
    TRef.nullary main_call1.cst_0 (constant S_ .f32 0x47435000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S50000x128 ![0, 1] bcast_S1x128_S50000x128_0_1),
    TRef.binary (.of main_v29) main_call1.v4 main_call1.v5 subf,
    TRef.binary main_call1.v5 main_call1.v5 main_call1.v6 mulf,
    TRef.unary (.of main_c_7) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b) ]

/-- Stretch F: 17 operations. -/
def opsF : List (HloOp τ sig (Elt F)) :=
  [ unary main_v32 main_v34 (broadcastInDim S1x128 ![1] bcast_S128_S1x128_1 : (⟨S128, .f32⟩ : BufTy).Contents (Elt F) → (⟨S1x128, .f32⟩ : BufTy).Contents (Elt F)),
    unary main_v34 main_v35 (broadcastInDim S50000x128 ![0, 1] bcast_S1x128_S50000x128_0_1 : (⟨S1x128, .f32⟩ : BufTy).Contents (Elt F) → (⟨S50000x128, .f32⟩ : BufTy).Contents (Elt F)),
    binary main_v29 main_v35 main_v36 (subf : (⟨S50000x128, .f32⟩ : BufTy).Contents (Elt F) → (⟨S50000x128, .f32⟩ : BufTy).Contents (Elt F) → (⟨S50000x128, .f32⟩ : BufTy).Contents (Elt F)),
    unary main_arg5 main_v37 (broadcastInDim S1x128 ![1] bcast_S128_S1x128_1 : (⟨S128, .f32⟩ : BufTy).Contents (Elt F) → (⟨S1x128, .f32⟩ : BufTy).Contents (Elt F)),
    unary main_v37 main_v38 (broadcastInDim S50000x128 ![0, 1] bcast_S1x128_S50000x128_0_1 : (⟨S1x128, .f32⟩ : BufTy).Contents (Elt F) → (⟨S50000x128, .f32⟩ : BufTy).Contents (Elt F)),
    binary main_v38 main_v36 main_v39 (mulf : (⟨S50000x128, .f32⟩ : BufTy).Contents (Elt F) → (⟨S50000x128, .f32⟩ : BufTy).Contents (Elt F) → (⟨S50000x128, .f32⟩ : BufTy).Contents (Elt F)),
    nullary main_cst_8 (constant S_ .f32 0x3727C5AC#32),
    unary main_cst_8 main_v40 (broadcastInDim S128 ![] bcast_S_S128 : (⟨S_, .f32⟩ : BufTy).Contents (Elt F) → (⟨S128, .f32⟩ : BufTy).Contents (Elt F)),
    binary main_v33 main_v40 main_v41 (addf : (⟨S128, .f32⟩ : BufTy).Contents (Elt F) → (⟨S128, .f32⟩ : BufTy).Contents (Elt F) → (⟨S128, .f32⟩ : BufTy).Contents (Elt F)),
    unary main_v41 main_v42 (Host.rsqrt : (⟨S128, .f32⟩ : BufTy).Contents (Elt F) → (⟨S128, .f32⟩ : BufTy).Contents (Elt F)),
    unary main_v42 main_v43 (broadcastInDim S1x128 ![1] bcast_S128_S1x128_1 : (⟨S128, .f32⟩ : BufTy).Contents (Elt F) → (⟨S1x128, .f32⟩ : BufTy).Contents (Elt F)),
    unary main_v43 main_v44 (broadcastInDim S50000x128 ![0, 1] bcast_S1x128_S50000x128_0_1 : (⟨S1x128, .f32⟩ : BufTy).Contents (Elt F) → (⟨S50000x128, .f32⟩ : BufTy).Contents (Elt F)),
    binary main_v39 main_v44 main_v45 (mulf : (⟨S50000x128, .f32⟩ : BufTy).Contents (Elt F) → (⟨S50000x128, .f32⟩ : BufTy).Contents (Elt F) → (⟨S50000x128, .f32⟩ : BufTy).Contents (Elt F)),
    unary main_arg6 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (addf : (⟨S50000x128, .f32⟩ : BufTy).Contents (Elt F) → (⟨S50000x128, .f32⟩ : BufTy).Contents (Elt F) → (⟨S50000x128, .f32⟩ : BufTy).Contents (Elt F)),
    binary main_arg0 main_v48 main_v49 (addf : (⟨S50000x128, .f32⟩ : BufTy).Contents (Elt F) → (⟨S50000x128, .f32⟩ : BufTy).Contents (Elt F) → (⟨S50000x128, .f32⟩ : BufTy).Contents (Elt F)) ]

theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

theorem opsB_sub : (opsB : List (HloOp τ sig (Elt F))).Forall fun op => op.bufs ⊆ tcRefs τ sig :=
  ⟨binary_bufs_sub .., binary_bufs_sub .., binary_bufs_sub .., unary_bufs_sub .., unary_bufs_sub .., binary_bufs_sub .., nullary_bufs_sub ..⟩

theorem opsC_sub : (opsC : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub ..⟩

theorem opsD_sub : (opsD : List (HloOp τ sig (Elt F))).Forall fun op => op.bufs ⊆ tcRefs τ sig :=
  ⟨nullary_bufs_sub .., binary_bufs_sub .., nullary_bufs_sub .., unary_bufs_sub .., binary_bufs_sub .., nullary_bufs_sub ..⟩

theorem opsE_sub : (opsE : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem opsF_sub : (opsF : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., binary_bufs_sub ..⟩

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

theorem opsB_fresh : (opsB : List (HloOp τ sig (Elt F))).Forall fun op => op.fresh = ∅ :=
  ⟨rfl, rfl, rfl, rfl, rfl, rfl, rfl⟩

theorem opsC_fresh : (opsC : List (HloOp τ sig (Elt F))).Forall fun op => op.fresh = ∅ :=
  ⟨rfl, rfl, rfl, rfl, rfl, rfl, rfl⟩

theorem opsD_fresh : (opsD : List (HloOp τ sig (Elt F))).Forall fun op => op.fresh = ∅ :=
  ⟨rfl, rfl, rfl, rfl, rfl, rfl⟩

theorem opsE_fresh : (opsE : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem opsF_fresh : (opsF : List (HloOp τ sig (Elt F))).Forall fun op => op.fresh = ∅ :=
  ⟨rfl, rfl, rfl, rfl, rfl, rfl, rfl, rfl, rfl, rfl, rfl, rfl, rfl, rfl, rfl, rfl, rfl⟩

/-- The six stretches. -/
def lines : List (List (HloOp τ sig (Elt F))) := [opsA, opsB, opsC, opsD, opsE, opsF]

/-- The whole line. -/
def ops : List (HloOp τ sig (Elt F)) := (lines (F := F)).flatten

/-- The entry function is the chain of the six stretches: both sides are the same sequence of steps once the
    callees' bodies are unfolded at their calls and sequencing is re-associated, which is by computation. -/
theorem main_chain (c : Dev nD) :
    main (F := F) c = Pipeline.chain ((lines (F := F)).map fun l => (seq l : Prog (TpuEff nD τ sig (Elt F) (Pipeline.Sig Λ₀ (Fin 0) fun p => (pcfgs (F := F) p).Adm) .tc) PUnit)) := by
  chain_rfl

theorem main_eq (c : Dev nD) : main (F := F) c = seq (ops (F := F)) :=
  (main_chain c).trans (Cert.StraightLine.chain_seq _)

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  Cert.StraightLine.forall_flatten _ ⟨opsA_sub, opsB_sub, opsC_sub, opsD_sub, opsE_sub, opsF_sub⟩

/-- Every operation of the line determines its results. -/
theorem ops_fresh : (ops : List (HloOp τ sig (Elt F))).Forall fun op => op.fresh = ∅ :=
  Cert.StraightLine.forall_flatten _ ⟨opsA_fresh, opsB_fresh, opsC_fresh, opsD_fresh, opsE_fresh, opsF_fresh⟩

/-- The fold over the whole line is the fold over the stretches in turn. -/
theorem after_ops (V : Valuation τ sig (Elt F)) :
    after (ops (F := F)) V = after opsF (after opsE (after opsD (after opsC (after opsB (after opsA V))))) := by
  show after (opsA ++ (opsB ++ (opsC ++ (opsD ++ (opsE ++ (opsF ++ [])))))) V = _
  simp only [Cert.StraightLine.after_append, after_nil]

/-- From any memory with zero counters every weakly fair execution of the entry function terminates, and every
    final state has each buffer at the fold of the line's operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (ops (F := F)) (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.RefValue

end
-- ==== Proof.RefStage.lean ====
/-
  WHAT EACH STRETCH OF THE REFERENCE'S LINE LEAVES IN THE BUFFERS, at the ideal values.

  For each of the six stretches A … F of the line: the buffer it computes holds a whole-array function (`preT`, `rstT`,
  `meanT`, `varT`, `normT`, and for A the neighbour means) of the buffers it reads, and every buffer a later stretch
  still reads is left as it was.  Composed, the result buffer after the whole line holds `outT` of the seven arguments.
-/
import proofs.«146067_j47725676593247_1_alg».proof.Proof.RefRun

noncomputable section

namespace Cert.ReferenceIdeal.RefValue

open Cert.ReferenceIdeal Cert.ReferenceIdeal.Facts₀ Idealize.ShloMosaic Idealize.ShloMosaic.TcCoe Idealize.SL.Sem
  Idealize.ShloMosaic.StableHlo

/-- A vector of 128 repeated down the 50000 rows. -/
def rowB (v : FVec Ideal S128 .f32) : FVec Ideal S50000x128 .f32 :=
  broadcastInDim S50000x128 ![0, 1] bcast_S1x128_S50000x128_0_1 (broadcastInDim S1x128 ![1] bcast_S128_S1x128_1 v)

/-- A scalar word as a scalar array. -/
def word (w : BitVec 32) : FVec Ideal S_ .f32 := constant (F := Ideal) S_ .f32 w

/-- Stretch B: the two products, their sum, and the bias. -/
def preT (h hn : FVec Ideal S50000x128 .f32) (ws wn : FVec Ideal S128x128 .f32) (b : FVec Ideal S128 .f32) :
    FVec Ideal S50000x128 .f32 :=
  addf (addf (Host.dotGeneral dot_S50000x128_S128x128_S50000x128_1_0_0_1_n_n none h ws)
    (Host.dotGeneral dot_S50000x128_S128x128_S50000x128_1_0_0_1_n_n none hn wn)) (rowB b)

/-- Stretch C: the leaky rectifier with slope `s`. -/
def rstT (x : FVec Ideal S50000x128 .f32) (s : FVec Ideal S_ .f32) : FVec Ideal S50000x128 .f32 :=
  select (cmpf .oge x (broadcastInDim S50000x128 ![] bcast_S_S50000x128 (word 0x00000000#32))) x
    (mulf (broadcastInDim S50000x128 ![] bcast_S_S50000x128 (id s)) x)

/-- The sum down the rows from the zero word. -/
def sumT (x : FVec Ideal S50000x128 .f32) : FVec Ideal S128 .f32 :=
  Host.reduceAdd x (word 0x00000000#32) reducesTo_S50000x128_S128_d0 h_S_

/-- Stretch D: the column means. -/
def meanT (x : FVec Ideal S50000x128 .f32) : FVec Ideal S128 .f32 :=
  Host.divf (sumT x) (broadcastInDim S128 ![] bcast_S_S128 (word 0x47435000#32))

/-- The variance's own copy of the column means, repeated down the rows. -/
def muT (x : FVec Ideal S50000x128 .f32) : FVec Ideal S50000x128 .f32 :=
  broadcastInDim S50000x128 ![0, 1] bcast_S1x128_S50000x128_0_1
    (Host.divf (broadcastInDim S1x128 ![1] bcast_S128_S1x128_1 (sumT x))
      (broadcastInDim S1x128 ![] bcast_S_S1x128 (word 0x47435000#32)))

/-- The deviations from the column means. -/
def devT (x : FVec Ideal S50000x128 .f32) : FVec Ideal S50000x128 .f32 := subf x (muT x)

/-- The variance's divisor: the count less the correction `z` converted to a float. -/
def cntT (z : IVec S_ 32) : FVec Ideal S_ .f32 := subf (word 0x47435000#32) (sitofp .f32 z)

/-- Stretch E: the mean of the squared deviations where the divisor is positive, the not-a-number word elsewhere. -/
def varT (x : FVec Ideal S50000x128 .f32) (z : IVec S_ 32) : FVec Ideal S128 .f32 :=
  select (broadcastInDim S128 ![] bcast_S_S128 (cmpf .ogt (cntT z) (word 0x00000000#32)))
    (Host.divf (sumT (mulf (devT x) (devT x))) (broadcastInDim S128 ![] bcast_S_S128 (cntT z)))
    (broadcastInDim S128 ![] bcast_S_S128 (id (word 0x7FC00000#32)))

/-- Stretch F: normalise, scale, shift, add the residual. -/
def normT (h x : FVec Ideal S50000x128 .f32) (mu var gamma beta : FVec Ideal S128 .f32) : FVec Ideal S50000x128 .f32 :=
  addf h (addf (mulf (mulf (rowB gamma) (subf x (rowB mu)))
    (rowB (Host.rsqrt (addf var (broadcastInDim S128 ![] bcast_S_S128 (word 0x3727C5AC#32)))))) (rowB beta))

/-- The integer zero the variance is called with. -/
def zeroI : IVec S_ 32 := constantI S_ 32 0#32

/-- The whole line as a function of the seven arguments. -/
def outT (h : FVec Ideal S50000x128 .f32) (ei : IVec S2x800000 32) (ws wn : FVec Ideal S128x128 .f32)
    (b gamma beta : FVec Ideal S128 .f32) : FVec Ideal S50000x128 .f32 :=
  normT h (rstT (preT h (Cert.Neigh.hneigh h ei) ws wn b) (word 0x3C23D70A#32))
    (meanT (rstT (preT h (Cert.Neigh.hneigh h ei) ws wn b) (word 0x3C23D70A#32)))
    (varT (rstT (preT h (Cert.Neigh.hneigh h ei) ws wn b) (word 0x3C23D70A#32)) zeroI) gamma beta

variable (V : Valuation τ sig (Elt Ideal))

/-! ## Stretch A -/

theorem A_v22 : after (opsA (F := Ideal)) V (Proc.devRef .tc main_v22)
    = Cert.Neigh.hneigh (V (Proc.devRef .tc main_arg0)) (V (Proc.devRef .tc main_arg1)) := by
  unfold opsA
  after_results_simp
  rfl

theorem A_arg0 : after (opsA (F := Ideal)) V (Proc.devRef .tc main_arg0) = V (Proc.devRef .tc main_arg0) := by
  unfold opsA
  after_results_simp

theorem A_arg1 : after (opsA (F := Ideal)) V (Proc.devRef .tc main_arg1) = V (Proc.devRef .tc main_arg1) := by
  unfold opsA
  after_results_simp

theorem A_arg2 : after (opsA (F := Ideal)) V (Proc.devRef .tc main_arg2) = V (Proc.devRef .tc main_arg2) := by
  unfold opsA
  after_results_simp

theorem A_arg3 : after (opsA (F := Ideal)) V (Proc.devRef .tc main_arg3) = V (Proc.devRef .tc main_arg3) := by
  unfold opsA
  after_results_simp

theorem A_arg4 : after (opsA (F := Ideal)) V (Proc.devRef .tc main_arg4) = V (Proc.devRef .tc main_arg4) := by
  unfold opsA
  after_results_simp

theorem A_arg5 : after (opsA (F := Ideal)) V (Proc.devRef .tc main_arg5) = V (Proc.devRef .tc main_arg5) := by
  unfold opsA
  after_results_simp

theorem A_arg6 : after (opsA (F := Ideal)) V (Proc.devRef .tc main_arg6) = V (Proc.devRef .tc main_arg6) := by
  unfold opsA
  after_results_simp

/-! ## Stretch B -/

theorem B_v28 : after (opsB (F := Ideal)) V (Proc.devRef .tc main_v28)
    = preT (V (Proc.devRef .tc main_arg0)) (V (Proc.devRef .tc main_v22)) (V (Proc.devRef .tc main_arg2)) (V (Proc.devRef .tc main_arg3)) (V (Proc.devRef .tc main_arg4)) := by
  unfold opsB
  after_results_simp
  rfl

theorem B_cst_4 : after (opsB (F := Ideal)) V (Proc.devRef .tc main_cst_4) = word 0x3C23D70A#32 := by
  unfold opsB
  after_results_simp
  rfl

theorem B_arg0 : after (opsB (F := Ideal)) V (Proc.devRef .tc main_arg0) = V (Proc.devRef .tc main_arg0) := by
  unfold opsB
  after_results_simp

theorem B_arg1 : after (opsB (F := Ideal)) V (Proc.devRef .tc main_arg1) = V (Proc.devRef .tc main_arg1) := by
  unfold opsB
  after_results_simp

theorem B_arg2 : after (opsB (F := Ideal)) V (Proc.devRef .tc main_arg2) = V (Proc.devRef .tc main_arg2) := by
  unfold opsB
  after_results_simp

theorem B_arg3 : after (opsB (F := Ideal)) V (Proc.devRef .tc main_arg3) = V (Proc.devRef .tc main_arg3) := by
  unfold opsB
  after_results_simp

theorem B_arg4 : after (opsB (F := Ideal)) V (Proc.devRef .tc main_arg4) = V (Proc.devRef .tc main_arg4) := by
  unfold opsB
  after_results_simp

theorem B_arg5 : after (opsB (F := Ideal)) V (Proc.devRef .tc main_arg5) = V (Proc.devRef .tc main_arg5) := by
  unfold opsB
  after_results_simp

theorem B_arg6 : after (opsB (F := Ideal)) V (Proc.devRef .tc main_arg6) = V (Proc.devRef .tc main_arg6) := by
  unfold opsB
  after_results_simp

/-! ## Stretch C -/

theorem C_v29 : after (opsC (F := Ideal)) V (Proc.devRef .tc main_v29) = rstT (V (Proc.devRef .tc main_v28)) (V (Proc.devRef .tc main_cst_4)) := by
  unfold opsC
  after_results_simp
  rfl

theorem C_arg0 : after (opsC (F := Ideal)) V (Proc.devRef .tc main_arg0) = V (Proc.devRef .tc main_arg0) := by
  unfold opsC
  after_results_simp

theorem C_arg1 : after (opsC (F := Ideal)) V (Proc.devRef .tc main_arg1) = V (Proc.devRef .tc main_arg1) := by
  unfold opsC
  after_results_simp

theorem C_arg2 : after (opsC (F := Ideal)) V (Proc.devRef .tc main_arg2) = V (Proc.devRef .tc main_arg2) := by
  unfold opsC
  after_results_simp

theorem C_arg3 : after (opsC (F := Ideal)) V (Proc.devRef .tc main_arg3) = V (Proc.devRef .tc main_arg3) := by
  unfold opsC
  after_results_simp

theorem C_arg4 : after (opsC (F := Ideal)) V (Proc.devRef .tc main_arg4) = V (Proc.devRef .tc main_arg4) := by
  unfold opsC
  after_results_simp

theorem C_arg5 : after (opsC (F := Ideal)) V (Proc.devRef .tc main_arg5) = V (Proc.devRef .tc main_arg5) := by
  unfold opsC
  after_results_simp

theorem C_arg6 : after (opsC (F := Ideal)) V (Proc.devRef .tc main_arg6) = V (Proc.devRef .tc main_arg6) := by
  unfold opsC
  after_results_simp

/-! ## Stretch D -/

theorem D_v32 : after (opsD (F := Ideal)) V (Proc.devRef .tc main_v32) = meanT (V (Proc.devRef .tc main_v29)) := by
  unfold opsD
  after_results_simp
  rfl

theorem D_c_7 : after (opsD (F := Ideal)) V (Proc.devRef .tc main_c_7) = zeroI := by
  unfold opsD
  after_results_simp
  rfl

theorem D_arg0 : after (opsD (F := Ideal)) V (Proc.devRef .tc main_arg0) = V (Proc.devRef .tc main_arg0) := by
  unfold opsD
  after_results_simp

theorem D_arg1 : after (opsD (F := Ideal)) V (Proc.devRef .tc main_arg1) = V (Proc.devRef .tc main_arg1) := by
  unfold opsD
  after_results_simp

theorem D_arg2 : after (opsD (F := Ideal)) V (Proc.devRef .tc main_arg2) = V (Proc.devRef .tc main_arg2) := by
  unfold opsD
  after_results_simp

theorem D_arg3 : after (opsD (F := Ideal)) V (Proc.devRef .tc main_arg3) = V (Proc.devRef .tc main_arg3) := by
  unfold opsD
  after_results_simp

theorem D_arg4 : after (opsD (F := Ideal)) V (Proc.devRef .tc main_arg4) = V (Proc.devRef .tc main_arg4) := by
  unfold opsD
  after_results_simp

theorem D_arg5 : after (opsD (F := Ideal)) V (Proc.devRef .tc main_arg5) = V (Proc.devRef .tc main_arg5) := by
  unfold opsD
  after_results_simp

theorem D_arg6 : after (opsD (F := Ideal)) V (Proc.devRef .tc main_arg6) = V (Proc.devRef .tc main_arg6) := by
  unfold opsD
  after_results_simp

theorem D_v29 : after (opsD (F := Ideal)) V (Proc.devRef .tc main_v29) = V (Proc.devRef .tc main_v29) := by
  unfold opsD
  after_results_simp

/-! ## Stretch E -/

theorem E_v33 : after (opsE (F := Ideal)) V (Proc.devRef .tc main_v33) = varT (V (Proc.devRef .tc main_v29)) (V (Proc.devRef .tc main_c_7)) := by
  unfold opsE
  after_results_simp
  rfl

theorem E_arg0 : after (opsE (F := Ideal)) V (Proc.devRef .tc main_arg0) = V (Proc.devRef .tc main_arg0) := by
  unfold opsE
  after_results_simp

theorem E_arg1 : after (opsE (F := Ideal)) V (Proc.devRef .tc main_arg1) = V (Proc.devRef .tc main_arg1) := by
  unfold opsE
  after_results_simp

theorem E_arg2 : after (opsE (F := Ideal)) V (Proc.devRef .tc main_arg2) = V (Proc.devRef .tc main_arg2) := by
  unfold opsE
  after_results_simp

theorem E_arg3 : after (opsE (F := Ideal)) V (Proc.devRef .tc main_arg3) = V (Proc.devRef .tc main_arg3) := by
  unfold opsE
  after_results_simp

theorem E_arg4 : after (opsE (F := Ideal)) V (Proc.devRef .tc main_arg4) = V (Proc.devRef .tc main_arg4) := by
  unfold opsE
  after_results_simp

theorem E_arg5 : after (opsE (F := Ideal)) V (Proc.devRef .tc main_arg5) = V (Proc.devRef .tc main_arg5) := by
  unfold opsE
  after_results_simp

theorem E_arg6 : after (opsE (F := Ideal)) V (Proc.devRef .tc main_arg6) = V (Proc.devRef .tc main_arg6) := by
  unfold opsE
  after_results_simp

theorem E_v29 : after (opsE (F := Ideal)) V (Proc.devRef .tc main_v29) = V (Proc.devRef .tc main_v29) := by
  unfold opsE
  after_results_simp

theorem E_v32 : after (opsE (F := Ideal)) V (Proc.devRef .tc main_v32) = V (Proc.devRef .tc main_v32) := by
  unfold opsE
  after_results_simp

/-! ## Stretch F -/

theorem F_v49 : after (opsF (F := Ideal)) V (Proc.devRef .tc main_v49)
    = normT (V (Proc.devRef .tc main_arg0)) (V (Proc.devRef .tc main_v29)) (V (Proc.devRef .tc main_v32)) (V (Proc.devRef .tc main_v33)) (V (Proc.devRef .tc main_arg5)) (V (Proc.devRef .tc main_arg6)) := by
  unfold opsF
  after_results_simp
  rfl

theorem F_arg0 : after (opsF (F := Ideal)) V (Proc.devRef .tc main_arg0) = V (Proc.devRef .tc main_arg0) := by
  unfold opsF
  after_results_simp

theorem F_arg1 : after (opsF (F := Ideal)) V (Proc.devRef .tc main_arg1) = V (Proc.devRef .tc main_arg1) := by
  unfold opsF
  after_results_simp

theorem F_arg2 : after (opsF (F := Ideal)) V (Proc.devRef .tc main_arg2) = V (Proc.devRef .tc main_arg2) := by
  unfold opsF
  after_results_simp

theorem F_arg3 : after (opsF (F := Ideal)) V (Proc.devRef .tc main_arg3) = V (Proc.devRef .tc main_arg3) := by
  unfold opsF
  after_results_simp

theorem F_arg4 : after (opsF (F := Ideal)) V (Proc.devRef .tc main_arg4) = V (Proc.devRef .tc main_arg4) := by
  unfold opsF
  after_results_simp

theorem F_arg5 : after (opsF (F := Ideal)) V (Proc.devRef .tc main_arg5) = V (Proc.devRef .tc main_arg5) := by
  unfold opsF
  after_results_simp

theorem F_arg6 : after (opsF (F := Ideal)) V (Proc.devRef .tc main_arg6) = V (Proc.devRef .tc main_arg6) := by
  unfold opsF
  after_results_simp

/-! ## The whole line -/

/-- The result buffer after the whole line. -/
theorem out_eq : after (ops (F := Ideal)) V (Proc.devRef .tc main_v49)
    = outT (V (Proc.devRef .tc main_arg0)) (V (Proc.devRef .tc main_arg1)) (V (Proc.devRef .tc main_arg2)) (V (Proc.devRef .tc main_arg3)) (V (Proc.devRef .tc main_arg4))
        (V (Proc.devRef .tc main_arg5)) (V (Proc.devRef .tc main_arg6)) := by
  rw [after_ops, F_v49, E_arg0, E_v29, E_v32, E_v33, E_arg5, E_arg6, D_arg0, D_v29, D_v32, D_c_7, D_arg5, D_arg6,
    C_arg0, C_v29, C_arg5, C_arg6, B_arg0, B_v28, B_cst_4, B_arg5, B_arg6, A_arg0, A_v22, A_arg2, A_arg3, A_arg4, A_arg5, A_arg6]
  rfl

theorem arg0_eq : after (ops (F := Ideal)) V (Proc.devRef .tc main_arg0) = V (Proc.devRef .tc main_arg0) := by
  rw [after_ops, F_arg0, E_arg0, D_arg0, C_arg0, B_arg0, A_arg0]

theorem arg1_eq : after (ops (F := Ideal)) V (Proc.devRef .tc main_arg1) = V (Proc.devRef .tc main_arg1) := by
  rw [after_ops, F_arg1, E_arg1, D_arg1, C_arg1, B_arg1, A_arg1]

theorem arg2_eq : after (ops (F := Ideal)) V (Proc.devRef .tc main_arg2) = V (Proc.devRef .tc main_arg2) := by
  rw [after_ops, F_arg2, E_arg2, D_arg2, C_arg2, B_arg2, A_arg2]

theorem arg3_eq : after (ops (F := Ideal)) V (Proc.devRef .tc main_arg3) = V (Proc.devRef .tc main_arg3) := by
  rw [after_ops, F_arg3, E_arg3, D_arg3, C_arg3, B_arg3, A_arg3]

theorem arg4_eq : after (ops (F := Ideal)) V (Proc.devRef .tc main_arg4) = V (Proc.devRef .tc main_arg4) := by
  rw [after_ops, F_arg4, E_arg4, D_arg4, C_arg4, B_arg4, A_arg4]

theorem arg5_eq : after (ops (F := Ideal)) V (Proc.devRef .tc main_arg5) = V (Proc.devRef .tc main_arg5) := by
  rw [after_ops, F_arg5, E_arg5, D_arg5, C_arg5, B_arg5, A_arg5]

theorem arg6_eq : after (ops (F := Ideal)) V (Proc.devRef .tc main_arg6) = V (Proc.devRef .tc main_arg6) := by
  rw [after_ops, F_arg6, E_arg6, D_arg6, C_arg6, B_arg6, A_arg6]

/-- From any memory with zero counters every weakly fair execution of the reference terminates with the result
    buffer at `outT` of the arguments' launch contents and the seven arguments unchanged. -/
theorem run_outT (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v49)
        = outT (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v49).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_after m ρ)

end Cert.ReferenceIdeal.RefValue

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«146067_j47725676593247_1_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«146067_j47725676593247_1_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibRegionRows.lean ====
/-
  ROWS OF A MATRIX PRODUCT, read off a block of rows, at the ideal values.

  A grid of blocks of rows computes a matrix product block by block: the block at offset `off` holds rows
  `off, off + 1, …` of the tall left operand, the right operand is whole at every block.  Entry `(p, c)` of the block's
  product is then entry `(off + p, c)` of the product of the whole arrays, `∑ k, A (off + p, k) · W (k, c)`.  Stated
  here once for every extent, over the plain dimension record, with the block and the arrays as variables and the
  relation between them as hypotheses on coordinates; the whole-array product is the function `prodArr A W`.  The sums are
  compared term by term: no algebra of the extended reals is used.
-/
import proofs.«146067_j47725676593247_1_alg».proof.Proof.LibBlockDot

noncomputable section

open scoped BigOperators

namespace Cert.KernelIdeal.RegionValue

open Idealize.ShloMosaic Idealize.ShloMosaic.ValueIdx

/-- The offsets `(0, 0)` of a whole-buffer access are the zero function. -/
theorem off2_zero : (![0, 0] : Fin 2 → Nat) = fun _ => 0 := funext fun a => by fin_cases a <;> rfl

/-- The contents of an array of reals, as a function from its indices to the extended reals.  The identity: it only names
    the type, for a buffer whose element type is known by unfolding only. -/
abbrev realArr (s : Shape) (f : s.Idx → EReal) : s.Idx → EReal := f

/-- The product of an `[R, K]` array and a `[K, N]` array, index by index. -/
def prodArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0) k) * W (ix2 k (i 1))

theorem prodArr_apply {R K N : ℕ} (A : (⟨2, ![R, K]⟩ : Shape).Idx → EReal) (W : (⟨2, ![K, N]⟩ : Shape).Idx → EReal)
    (p : Fin R) (c : Fin N) : prodArr A W (ix2 p c) = ∑ k : Fin K, A (ix2 p k) * W (ix2 k c) := rfl

/-- The vector unit's product of a block `a` of rows and `w`, at the block's index `y`, is the whole product at the
    array's index `i`, when `i` is `y` moved down by `off` rows, `a` is `A` read `off` rows down, and `w` is `W`. -/
theorem block_prod {R R' K N : ℕ} {φ₁ φ₂ : FTy} (prec : Option ContractPrecision)
    (a : FVec Ideal ⟨2, ![R, K]⟩ φ₁) (w : FVec Ideal ⟨2, ![K, N]⟩ φ₂)
    (A : (⟨2, ![R', K]⟩ : Shape).Idx → EReal) (W : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → (a u : EReal) = A z)
    (hw : ∀ u : (⟨2, ![K, N]⟩ : Shape).Idx, (w u : EReal) = W u) :
    (matmul (DotDims.plain R K N) prec a w (constant ⟨2, ![R, N]⟩ .f32 0x00000000#32) y : EReal) = prodArr A W i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [Cert.BlockDot.kdot_apply, prodArr_apply]
  exact Finset.sum_congr rfl fun k _ => by rw [ha (ix2 p k) (ix2 p' k) hi0 rfl, hw (ix2 k c')]

end Cert.KernelIdeal.RegionValue

end
-- ==== Proof.LibProdRows.lean ====
/-
  A MATRIX PRODUCT AS A WHOLE ARRAY, AND SUMS OF ARRAYS, ROW BY ROW, at the ideal values.

  Over LibRegionRows' `prodArr A W` (the product of an `[R, K]` and a `[K, N]` array, entry `(p, c)` being
  `∑ k, A (p, k) · W (k, c)`), generic in every extent:
  • `kprod`: on the vector unit, the matrix product into a zero accumulator over the plain dimension record IS `prodArr`;
  • `hprod`: on the host, `dot_general` over the plain record IS `prodArr`;
  • `prodArr_rows`: row `p` of a product depends on row `p` of the left operand and on nothing else of it;
  • `addArr`, `addArr_rows`: two arrays added entry by entry, and the same locality.
  Together with LibDenseRow's `layerArr_rows` and `actArr_rows` these say that a network of products, dense layers,
  rectifiers and residual sums computed on a block of rows is that block of rows of the network computed on the whole.
  Sums are compared term by term in the same order: no algebra of the extended reals is used.
-/
import proofs.«146067_j47725676593247_1_alg».proof.Proof.LibRegionRows

noncomputable section

open scoped BigOperators

namespace Cert.ProdRows

open Idealize.ShloMosaic Idealize.ShloMosaic.ValueIdx Cert.DenseRow
open Cert.KernelIdeal.RegionValue (prodArr prodArr_apply)

/-- The vector unit's product into the zero accumulator, as a whole array. -/
theorem kprod {R K N : ℕ} {φ₁ φ₂ : FTy} (prec : Option ContractPrecision)
    (a : FVec Ideal ⟨2, ![R, K]⟩ φ₁) (w : FVec Ideal ⟨2, ![K, N]⟩ φ₂) :
    matmul (DotDims.plain R K N) prec a w (constant ⟨2, ![R, N]⟩ .f32 0x00000000#32) = prodArr a w := by
  funext i
  obtain ⟨p, c, rfl⟩ : ∃ (p : Fin R) (c : Fin N), i = ix2 p c := ⟨i 0, i 1, eq_ix2 i⟩
  exact Cert.BlockDot.kdot_apply prec a w p c

/-- The host's `dot_general`, as a whole array. -/
theorem hprod {R K N : ℕ} {φ₁ φ₂ : FTy} (prec : Option ContractPrecision)
    (a : FVec Ideal ⟨2, ![R, K]⟩ φ₁) (w : FVec Ideal ⟨2, ![K, N]⟩ φ₂) :
    Host.dotGeneral (DotDims.plain R K N) prec a w = prodArr a w := by
  funext i
  obtain ⟨p, c, rfl⟩ : ∃ (p : Fin R) (c : Fin N), i = ix2 p c := ⟨i 0, i 1, eq_ix2 i⟩
  exact Cert.BlockDot.hdot_apply prec a w p c

/-- Row `p` of a product depends on row `p` of the left operand only. -/
theorem prodArr_rows {R R' K N : ℕ} (a : (⟨2, ![R, K]⟩ : Shape).Idx → EReal) (A : (⟨2, ![R', K]⟩ : Shape).Idx → EReal)
    (w : (⟨2, ![K, N]⟩ : Shape).Idx → EReal) (p : Fin R) (p' : Fin R')
    (h : ∀ k : Fin K, a (ix2 p k) = A (ix2 p' k)) (c : Fin N) : prodArr a w (ix2 p c) = prodArr A w (ix2 p' c) := by
  rw [prodArr_apply, prodArr_apply]
  exact Finset.sum_congr rfl fun k _ => by rw [h k]

/-- Two arrays added entry by entry. -/
def addArr {s : Shape} (x y : s.Idx → EReal) : s.Idx → EReal := fun i => x i + y i

/-- On either unit, the float sum of two arrays at the ideal values. -/
theorem addf_eq {s : Shape} {φ : FTy} (x y : FVec Ideal s φ) : addf x y = addArr x y := rfl

theorem addArr_rows {R R' N : ℕ} (x y : (⟨2, ![R, N]⟩ : Shape).Idx → EReal) (X Y : (⟨2, ![R', N]⟩ : Shape).Idx → EReal)
    (p : Fin R) (p' : Fin R') (hx : ∀ k : Fin N, x (ix2 p k) = X (ix2 p' k)) (hy : ∀ k : Fin N, y (ix2 p k) = Y (ix2 p' k))
    (c : Fin N) : addArr x y (ix2 p c) = addArr X Y (ix2 p' c) := by
  show x (ix2 p c) + y (ix2 p c) = X (ix2 p' c) + Y (ix2 p' c)
  rw [hx c, hy c]

end Cert.ProdRows

end
-- ==== Proof.Spec.lean ====
/-
  THE LAYER AS WHOLE-ARRAY FUNCTIONS, at the ideal values: a mean-aggregation graph layer followed by a leaky rectifier,
  a normalisation of every column by that column's mean and variance over the rows, and the residual sum.

  With `h` the node features, `hn` the neighbour means, `ws`, `wn` the two weight matrices and `b` the bias:
    pre (p, j)  = (∑ k, h (p, k) · ws (k, j) + ∑ k, hn (p, k) · wn (k, j)) + b j
    rst (p, j)  = leaky (pre (p, j))                     leaky v = v when v ≥ 0, slope · v otherwise
    mean j      = (∑ p, rst (p, j)) / count
    out (p, j)  = h (p, j) + (gamma j · (rst (p, j) − mean j)) · rsqrt (var j + eps) + beta j
  The variance has two spellings: the mean of the squares minus the square of the mean (`varK`), and the mean of the
  squared deviations from the mean (`varR`).  They agree when every entry of `rst` is a real number (Variance.lean);
  at an infinite entry they need not, which is why the finiteness of the inputs is used.  The constants stay as the
  single-precision words the programs carry; no program appears in this module.
-/
import Idealize.ShloMosaic.PureOps.Ideal
import Idealize.ShloMosaic.PureOps.Ideal.Laws
import Idealize.ShloMosaic.Lib.ValueIdx
import proofs.«146067_j47725676593247_1_alg».proof.Proof.LibProdRows

noncomputable section

open scoped BigOperators

namespace Cert.Spec

open Idealize.ShloMosaic Idealize.ShloMosaic.ValueIdx
open Cert.KernelIdeal.RegionValue (prodArr prodArr_apply)

/-- An `a`-by-`b` array of extended reals. -/
abbrev Mat (a b : ℕ) : Type := (⟨2, ![a, b]⟩ : Shape).Idx → EReal
/-- A vector of `a` extended reals. -/
abbrev Row (a : ℕ) : Type := (⟨1, ![a]⟩ : Shape).Idx → EReal

/-- The zero word. -/
def zero : EReal := Ideal.ofBits .f32 0x00000000#32
/-- The rectifier's slope on the negative side (the word of 0.01). -/
def slope : EReal := Ideal.ofBits .f32 0x3C23D70A#32
/-- The variance's guard (the word of 1e-5). -/
def eps : EReal := Ideal.ofBits .f32 0x3727C5AC#32
/-- The number of rows as a float (the word of 50000). -/
def cnt : EReal := Ideal.ofBits .f32 0x47435000#32

/-- The leaky rectifier on one extended real: `v` where `v ≥ 0`, `slope · v` elsewhere. -/
def leaky (v : EReal) : EReal := Scalar.select (Ideal.cmp .oge v zero) v (slope * v)

variable {R K N : ℕ}

/-- The two products and the bias. -/
def pre (h hn : Mat R K) (ws wn : Mat K N) (b : Row N) : Mat R N :=
  fun i => (prodArr h ws i + prodArr hn wn i) + b (ix1 (i 1))

theorem pre_apply (h hn : Mat R K) (ws wn : Mat K N) (b : Row N) (p : Fin R) (j : Fin N) :
    pre h hn ws wn b (ix2 p j)
      = ((∑ k : Fin K, h (ix2 p k) * ws (ix2 k j)) + ∑ k : Fin K, hn (ix2 p k) * wn (ix2 k j)) + b (ix1 j) := rfl

/-- The rectified layer. -/
def rst (h hn : Mat R K) (ws wn : Mat K N) (b : Row N) : Mat R N := fun i => leaky (pre h hn ws wn b i)

/-- Row `p` of the rectified layer depends only on row `p` of the features and of the neighbour means. -/
theorem rst_rows {R' : ℕ} (h hn : Mat R K) (H Hn : Mat R' K) (ws wn : Mat K N) (b : Row N) (p : Fin R) (p' : Fin R')
    (h1 : ∀ k : Fin K, h (ix2 p k) = H (ix2 p' k)) (h2 : ∀ k : Fin K, hn (ix2 p k) = Hn (ix2 p' k)) (j : Fin N) :
    rst h hn ws wn b (ix2 p j) = rst H Hn ws wn b (ix2 p' j) := by
  show leaky (pre h hn ws wn b (ix2 p j)) = leaky (pre H Hn ws wn b (ix2 p' j))
  rw [pre_apply, pre_apply]
  congr 3
  · exact Finset.sum_congr rfl fun k _ => by rw [h1 k]
  · exact Finset.sum_congr rfl fun k _ => by rw [h2 k]

/-- The sum down the rows, column by column. -/
def colSum (x : Mat R N) : Row N := fun j => ∑ p : Fin R, x (ix2 p (j 0))

theorem colSum_apply (x : Mat R N) (j : Fin N) : colSum x (ix1 j) = ∑ p : Fin R, x (ix2 p j) := rfl

/-- The entrywise square. -/
def sq (x : Mat R N) : Mat R N := fun i => x i * x i

/-- The column means. -/
def mean (x : Mat R N) : Row N := fun j => Ideal.div (colSum x j) cnt

/-- The deviations from the column means, squared. -/
def dev2 (x : Mat R N) : Mat R N := fun i => (x i - mean x (ix1 (i 1))) * (x i - mean x (ix1 (i 1)))

/-- The variance as the mean of the squares minus the square of the mean. -/
def varK (x : Mat R N) : Row N := fun j => Ideal.div (colSum (sq x) j) cnt - mean x j * mean x j

/-- The variance as the mean of the squared deviations. -/
def varR (x : Mat R N) : Row N := fun j => Ideal.div (colSum (dev2 x) j) cnt

/-- Normalise, scale, shift and add the residual. -/
def norm (h x : Mat R N) (mu var gamma beta : Row N) : Mat R N := fun i =>
  h i + ((gamma (ix1 (i 1)) * (x i - mu (ix1 (i 1)))) * Ideal.rsqrt (var (ix1 (i 1)) + eps) + beta (ix1 (i 1)))

theorem norm_apply (h x : Mat R N) (mu var gamma beta : Row N) (p : Fin R) (j : Fin N) :
    norm h x mu var gamma beta (ix2 p j)
      = h (ix2 p j) + ((gamma (ix1 j) * (x (ix2 p j) - mu (ix1 j))) * Ideal.rsqrt (var (ix1 j) + eps) + beta (ix1 j)) := rfl

/-- The whole layer with the variance spelt as the mean of squares minus the squared mean. -/
def outK (h hn : Mat R N) (ws wn : Mat N N) (b gamma beta : Row N) : Mat R N :=
  norm h (rst h hn ws wn b) (mean (rst h hn ws wn b)) (varK (rst h hn ws wn b)) gamma beta

/-- The whole layer with the variance spelt as the mean of the squared deviations. -/
def outR (h hn : Mat R N) (ws wn : Mat N N) (b gamma beta : Row N) : Mat R N :=
  norm h (rst h hn ws wn b) (mean (rst h hn ws wn b)) (varR (rst h hn ws wn b)) gamma beta

end Cert.Spec

end
-- ==== Proof.LibNormSum.lean ====
/-
  Extended-real algebra for a normalised neighbour sum. A graph convolution scales each neighbour's contribution by
  the factors `1 / sqrt (degree)` of both end points. One way of computing it multiplies every summand by both
  factors and then sums; another sums first and multiplies the total by the destination's factor afterwards. On the
  extended reals multiplication does not distribute over addition in general (`⊤ + ⊥ = ⊥`), but it does for a
  multiplier that is NON-NEGATIVE and FINITE, whatever the summands are (they may be `±∞`). The factor
  `1 / sqrt (1 + number of neighbours)` is such a multiplier. No program appears in this module.
-/
import Idealize.ShloMosaic.PureOps.Ideal.Laws

noncomputable section

namespace Cert.NormSum

open Idealize.ShloMosaic
open scoped BigOperators

/-- A non-negative finite extended real `cv` distributes over any finite sum of extended reals, infinite summands
    included: `cv * Σ f = Σ cv * f`. Induction on the index set; the step is distributivity of such a multiplier
    over one addition. -/
theorem mul_sum_of_nonneg_ne_top {ι : Type*} (S : Finset ι) (f : ι → EReal) (cv : EReal) (h0 : 0 ≤ cv)
    (ht : cv ≠ ⊤) : cv * ∑ e ∈ S, f e = ∑ e ∈ S, cv * f e := by
  classical
  induction S using Finset.induction_on with
  | empty => simp
  | insert a s ha ih =>
    rw [Finset.sum_insert ha, Finset.sum_insert ha, EReal.left_distrib_of_nonneg_of_ne_top h0 ht, ih]

/-- Pulling the destination's factor out of a normalised sum. With every destination factor `dd e` equal to the one
    non-negative finite `cv`: `cv * ((0 + Σ a·ds) + hp·cv) = (0 + Σ a·(ds·dd)) + hp·(cv·cv)`. The left side
    distributes `cv` over the outer sum and then over the inner one; each term then agrees by commutativity and
    associativity of the extended reals' multiplication. -/
theorem norm_pull {ι : Type*} (S : Finset ι) (a ds dd : ι → EReal) (hp cv : EReal) (h0 : 0 ≤ cv) (ht : cv ≠ ⊤)
    (hdd : ∀ e ∈ S, dd e = cv) :
    cv * ((0 + ∑ e ∈ S, a e * ds e) + hp * cv) = (0 + ∑ e ∈ S, a e * (ds e * dd e)) + hp * (cv * cv) := by
  rw [EReal.left_distrib_of_nonneg_of_ne_top h0 ht, zero_add, zero_add,
    mul_sum_of_nonneg_ne_top S (fun e => a e * ds e) cv h0 ht]
  congr 1
  · refine Finset.sum_congr rfl fun e he => ?_
    rw [hdd e he, mul_comm cv (a e * ds e), mul_assoc]
  · exact mul_left_comm cv hp cv

/-- The single-precision pattern `0x3F800000` (sign 0, biased exponent 127, fraction 0) denotes the extended real
    one: `2 ^ 23 * 2 ^ (127 - 127 - 23) = 1`. -/
theorem one_word : Ideal.ofBits .f32 0x3F800000#32 = (1 : EReal) := by
  rw [show (1 : EReal) = ((1 : ℝ) : EReal) by norm_cast]
  simp [Ideal.ofBits, Ideal.ieee, -EReal.coe_mul]; norm_num

/-- At a positive real the reciprocal square root is the real `(sqrt r)⁻¹`: neither of its corners (a negative
    argument, a zero argument) applies. -/
theorem rsqrt_coe_pos (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- A sum of ones over a finite set, plus one, is the real number `card S + 1`. -/
theorem count_add_one {ι : Type*} (S : Finset ι) :
    (0 + ∑ _e ∈ S, (1 : EReal)) + 1 = (((S.card : ℝ) + 1 : ℝ) : EReal) := by
  rw [zero_add, Finset.sum_const, EReal.nsmul_eq_mul, mul_one, EReal.coe_add, EReal.coe_natCast, EReal.coe_one]

/-- The normalising factor `1 / sqrt (1 + number of neighbours)` is a non-negative finite extended real: its
    argument is the positive real `card S + 1`, where the reciprocal square root is the real `(sqrt _)⁻¹ ≥ 0`. -/
theorem rsqrt_count_nonneg_ne_top {ι : Type*} (S : Finset ι) :
    0 ≤ Ideal.rsqrt ((0 + ∑ _e ∈ S, (1 : EReal)) + 1) ∧ Ideal.rsqrt ((0 + ∑ _e ∈ S, (1 : EReal)) + 1) ≠ ⊤ := by
  have hpos : (0 : ℝ) < (S.card : ℝ) + 1 := by positivity
  rw [count_add_one, rsqrt_coe_pos _ hpos]
  exact ⟨EReal.coe_nonneg.mpr (inv_nonneg.mpr (Real.sqrt_nonneg _)), EReal.coe_ne_top _⟩

end Cert.NormSum

end
-- ==== Proof.LibSiluMask.lean ====
/-
  THE ACTIVATION `v · σ(v)` IN ITS TWO SPELLINGS, AND A SIGN MASK IN ITS TWO SPELLINGS, at the ideal values.

  `σ(v) = 1 / (1 + e^(-v))` is the logistic function; `v ↦ v · σ(v)` is the activation often called silu or swish.  Two
  spellings of it occur in printed programs and both are read here at an index where the operand's value is known:
  • on the vector unit, `y · logistic y` entry by entry (`ksilu_at`);
  • on the host, `y · (1 / (1 + e^(-y)))` with the ones the single-precision word of 1.0 broadcast from a scalar, the
    quotient the host's division and the exponential the host's (`hsilu_at`).
  They agree on every extended real, the infinities included, because the library's logistic function is defined as that
  quotient (`silu1_quotient`).
  A mask on integer labels also has two spellings: the label compared, signed, with zero; or the label converted to a
  float and compared with `-1/2`.  An integer is either at least `0` or at most `-1`, so both give the same bit
  (`mask_bit`).  Also: a constant broadcast from a scalar read at an index (`splat_apply`) and a selection read at an index
  (`select_at`).  No program appears in this module; no sum is regrouped and nothing needs to be finite.
-/
import Idealize.ShloMosaic.PureOps.Ideal.Laws
import Idealize.ShloMosaic.Lib.ValueIdx
import Idealize.ShloMosaic.Lib.Pipeline.Value
import proofs.«146067_j47725676593247_1_alg».proof.Proof.LibNormSum

noncomputable section

namespace Cert.SiluMask

open Idealize.ShloMosaic Idealize.ShloMosaic.ValueIdx

/-! ## One number, one row -/

/-- The activation on one number: `v · σ(v)`. -/
def silu1 (v : EReal) : EReal := v * Ideal.logistic v

/-- The activation on every entry of a row. -/
def siluRow {N : ℕ} (x : Fin N → EReal) (j : Fin N) : EReal := silu1 (x j)

/-! ## The activation spelt as a quotient -/

/-- `x · (1 / (1 + e^(-x)))` with the host's division and exponential is `x · σ(x)`: the logistic function is that
    quotient by definition, on every extended real. -/
theorem silu1_quotient (v : EReal) :
    FloatOps.mulf (F := Ideal) (φ := .f32) v
        (FloatOps.hostDivf (1 : EReal) (FloatOps.addf (1 : EReal) (FloatOps.hostUnary .exp (FloatOps.hostNegf v))))
      = silu1 v := rfl

/-- A constant broadcast from a scalar reads the constant's value at every index. -/
theorem splat_apply {s : Shape} {φ : FTy} (w : BitVec φ.bits) (h : (⟨0, ![]⟩ : Shape).BroadcastsInDim s ![]) (i : s.Idx) :
    broadcastInDim s ![] h (constant (F := Ideal) ⟨0, ![]⟩ φ w) i = Ideal.ofBits φ w := by
  rw [broadcastInDim_apply _ h _ i ix0 (fun a => a.elim0)]
  rfl

/-- The host's spelling of the activation, read at an index where the operand's value is known. -/
theorem hsilu_at {s : Shape} (y : FVec Ideal s .f32) (h : (⟨0, ![]⟩ : Shape).BroadcastsInDim s ![]) (i : s.Idx)
    (v : EReal) (hy : y i = v) :
    mulf y (Host.divf (broadcastInDim s ![] h (constant (F := Ideal) ⟨0, ![]⟩ .f32 0x3F800000#32))
        (addf (broadcastInDim s ![] h (constant (F := Ideal) ⟨0, ![]⟩ .f32 0x3F800000#32)) (Host.exp (Host.negf y)))) i
      = silu1 v := by
  show FloatOps.mulf (F := Ideal) (φ := .f32) (y i)
      (FloatOps.hostDivf (broadcastInDim s ![] h (constant (F := Ideal) ⟨0, ![]⟩ .f32 0x3F800000#32) i)
        (FloatOps.addf (broadcastInDim s ![] h (constant (F := Ideal) ⟨0, ![]⟩ .f32 0x3F800000#32) i)
          (FloatOps.hostUnary .exp (FloatOps.hostNegf (y i))))) = _
  rw [splat_apply, Cert.NormSum.one_word, hy]
  exact silu1_quotient v

/-- The vector unit's spelling, `y · logistic y` entry by entry, read at an index where the operand's value is known. -/
theorem ksilu_at {s : Shape} (y : FVec Ideal s .f32) (i : s.Idx) (v : EReal) (hy : y i = v) :
    mulf y (logistic y) i = silu1 v := by
  show FloatOps.mulf (F := Ideal) (φ := .f32) (y i) (FloatOps.logistic (y i)) = _
  rw [hy]
  rfl

/-! ## A selection read at an index -/

/-- `select` at an index where its three operands' values are known. -/
theorem select_at {s : Shape} {α : Type} (c : IVec s 1) (a b : s.Idx → α) (i : s.Idx) (cv : BitVec 1) (av bv : α)
    (hc : c i = cv) (ha : a i = av) (hb : b i = bv) : select c a b i = Scalar.select cv av bv := by
  show Scalar.select (c i) (a i) (b i) = _
  rw [hc, ha, hb]

/-! ## The mask's two spellings -/

/-- The single-precision pattern `0xBF000000` (sign 1, biased exponent 126, fraction 0) denotes `-1/2`:
    `-(2 ^ 23) · 2 ^ (126 - 127 - 23)`. -/
theorem neg_half_word : Ideal.ofBits .f32 0xBF000000#32 = ((-(1 / 2) : ℝ) : EReal) := by
  simp [Ideal.ofBits, Ideal.ieee, -EReal.coe_mul]; norm_num

/-- An integer exceeds `-1/2` exactly when it is at least zero. -/
theorem int_gt_neg_half (n : ℤ) : ((-(1 / 2) : ℝ) : EReal) < ((n : ℝ) : EReal) ↔ 0 ≤ n := by
  rw [EReal.coe_lt_coe_iff]
  constructor
  · intro h
    by_contra hn
    have h1 : n ≤ -1 := by omega
    have h2 : (n : ℝ) ≤ -1 := by exact_mod_cast h1
    linarith
  · intro h
    have h2 : (0 : ℝ) ≤ (n : ℝ) := by exact_mod_cast h
    linarith

/-- The label converted to a float and compared with `-1/2` gives the same bit as the label compared, signed, with
    zero. -/
theorem mask_bit (s : BitVec 32) :
    Ideal.cmp .ogt (((s.toInt : ℝ)) : EReal) (Ideal.ofBits .f32 0xBF000000#32) = IntOp.cmpi .sge s 0#32 := by
  rw [neg_half_word]
  show BitVec.ofBool (decide (((-(1 / 2) : ℝ) : EReal) < ((s.toInt : ℝ) : EReal))) = BitVec.ofBool ((0#32).sle s)
  congr 1
  rw [BitVec.sle, decide_eq_decide]
  exact (int_gt_neg_half s.toInt).trans (by simp)

end Cert.SiluMask

end
-- ==== Proof.LibColumnSum.lean ====
/-
  The sum down the rows of a matrix, read at a column (a general lemma file: it imports only the library and is
  generic in the extents).

  A reduction of an [a, b] array along its first axis leaves a vector of length b; at column j it is the plain finite sum
  over the rows r of the entry (r, j), with every index spelt by its coordinates.
-/
import Idealize.ShloMosaic.Lib.ValueIdx
import Idealize.ShloMosaic.PureOps.Ideal.Laws

open scoped BigOperators

namespace Cert.LibColumnSum

open Idealize.ShloMosaic Idealize.ShloMosaic.ValueIdx

/-- Over [a, b] reduced along its rows, the index above column j with coordinate r is (r, j). -/
theorem lift_ab_first {a b : ℕ} (h : Shape.Reduces ⟨2, ![a, b]⟩ [0] ⟨1, ![b]⟩) (j : Fin b) (r : Fin a) :
    h.lift (ix1 j) r = ix2 r j := by
  funext x
  match x with
  | ⟨0, _⟩ => exact Fin.ext rfl
  | ⟨1, _⟩ => exact Fin.ext rfl

/-- The sum down the rows of an [a, b] array of extended reals, at column j. -/
theorem sum_ab_first {a b : ℕ} (src : FVec Ideal ⟨2, ![a, b]⟩ .f32)
    (h : Shape.Reduces ⟨2, ![a, b]⟩ [0] ⟨1, ![b]⟩) (hacc : (0x00000000#32 : BitVec 32) = 0x00000000#32) (j : Fin b) :
    multiReduction (s := ⟨2, ![a, b]⟩) .add ([0] : List (Fin 2)) ⟨1, ![b]⟩ src 0x00000000#32 h (.inl rfl) hacc (ix1 j)
      = ∑ r : Fin a, src (ix2 r j) :=
  (Ideal.multiReduction_add_single src 0x00000000#32 h (.inl rfl) hacc (ix1 j)).trans
    (Finset.sum_congr rfl fun r _ => congrArg src (lift_ab_first h j r))

end Cert.LibColumnSum
-- ==== Proof.RefRead.lean ====
/-
  THE REFERENCE'S LINE IS THE LAYER, at the ideal values.

  The whole-array function `outT` the reference's line computes is read entry by entry and found to be the layer with
  the variance spelt as the mean of the squared deviations:
  • a vector repeated down the rows reads, at `(p, j)`, the vector at `j`; a scalar repeated over any shape reads the scalar;
  • the host's product over the printed dimension record is the plain product, so the two products, their sum and the
    bias are `pre`;
  • the select on `v ≥ 0` between `v` and `slope · v` is the leaky rectifier;
  • the host's sum along the rows from the zero word is `0 +` the plain sum over the rows, the column sum;
  • the variance's divisor is the count less the integer zero converted to a float, which is the count; the count is
    the positive real 50000, so the guard of the outer select holds and the not-a-number branch is never taken;
  • the last lines are the normalisation, scale, shift and residual sum.
  No sum is regrouped and nothing needs to be finite.
-/
import proofs.«146067_j47725676593247_1_alg».proof.Proof.RefStage
import proofs.«146067_j47725676593247_1_alg».proof.Proof.Spec
import proofs.«146067_j47725676593247_1_alg».proof.Proof.LibSiluMask
import proofs.«146067_j47725676593247_1_alg».proof.Proof.LibColumnSum
import proofs.«146067_j47725676593247_1_alg».proof.Proof.LibProdRows
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Facts₀ Idealize.ShloMosaic Idealize.ShloMosaic.ValueIdx Idealize.ShloMosaic.TcCoe
  Idealize.SL.Sem Idealize.ShloMosaic.StableHlo
open Cert.KernelIdeal.RegionValue (prodArr prodArr_apply)

/-! ## Layout -/

/-- A scalar repeated over any shape reads the scalar. -/
theorem scalar_apply {α : Type} {s : Shape} (h : S_.BroadcastsInDim s ![]) (x : S_.Idx → α) (i : s.Idx) :
    broadcastInDim s ![] h x i = x ix0 :=
  broadcastInDim_apply _ h _ i ix0 (fun a => a.elim0)

/-- A vector laid out as one row reads, at `(u, j)`, the vector at `j`. -/
theorem row1_apply {α : Type} (v : S128.Idx → α) (u : Fin 1) (j : Fin 128) :
    broadcastInDim S1x128 ![1] bcast_S128_S1x128_1 v (ix2 u j) = v (ix1 j) :=
  broadcastInDim_apply _ bcast_S128_S1x128_1 _ (ix2 u j) (ix1 j) fun a => match a with | ⟨0, _⟩ => rfl

/-- One row repeated down the rows reads, at `(p, j)`, the row at `j`. -/
theorem rows_apply {α : Type} (w : S1x128.Idx → α) (p : Fin 50000) (j : Fin 128) :
    broadcastInDim S50000x128 ![0, 1] bcast_S1x128_S50000x128_0_1 w (ix2 p j) = w (ix2 (0 : Fin 1) j) :=
  broadcastInDim_apply _ bcast_S1x128_S50000x128_0_1 _ (ix2 p j) (ix2 (0 : Fin 1) j) fun a => match a with
    | ⟨0, _⟩ => rfl
    | ⟨1, _⟩ => rfl

theorem rowB_apply (v : FVec Ideal S128 .f32) (p : Fin 50000) (j : Fin 128) : rowB v (ix2 p j) = v (ix1 j) := by
  unfold rowB
  rw [rows_apply, row1_apply]

/-! ## The products and the bias -/

/-- The printed dimension record is the plain one. -/
theorem dot_plain : dot_S50000x128_S128x128_S50000x128_1_0_0_1_n_n = DotDims.plain 50000 128 128 := rfl

theorem preT_eq (h hn : FVec Ideal S50000x128 .f32) (ws wn : FVec Ideal S128x128 .f32) (b : FVec Ideal S128 .f32) :
    preT h hn ws wn b = Cert.Spec.pre h hn ws wn b := by
  funext i
  obtain ⟨p, j, rfl⟩ : ∃ (p : Fin 50000) (j : Fin 128), i = ix2 p j := ⟨i 0, i 1, eq_ix2 i⟩
  show (Host.dotGeneral dot_S50000x128_S128x128_S50000x128_1_0_0_1_n_n none h ws (ix2 p j)
      + Host.dotGeneral dot_S50000x128_S128x128_S50000x128_1_0_0_1_n_n none hn wn (ix2 p j)) + rowB b (ix2 p j) = _
  rw [dot_plain, Cert.ProdRows.hprod, Cert.ProdRows.hprod, rowB_apply]
  rfl

/-! ## The rectifier -/

theorem rstT_eq (x : FVec Ideal S50000x128 .f32) :
    rstT x (word 0x3C23D70A#32) = fun i => Cert.Spec.leaky (x i) := by
  funext i
  show Scalar.select (FloatOps.cmpf .oge (x i) (broadcastInDim S50000x128 ![] bcast_S_S50000x128 (word 0x00000000#32) i)) (x i)
      (broadcastInDim S50000x128 ![] bcast_S_S50000x128 (id (word 0x3C23D70A#32)) i * x i) = _
  rw [scalar_apply, scalar_apply]
  rfl

/-! ## The column sums and means -/

theorem sumT_apply (x : FVec Ideal S50000x128 .f32) (j : Fin 128) : sumT x (ix1 j) = ∑ p : Fin 50000, x (ix2 p j) := by
  have h : S50000x128.Reduces [0] S128 := by decide
  show Ideal.hostReduceAdd reducesTo_S50000x128_S128_d0 x (word 0x00000000#32 (Shape.Idx.first h_S_)) (ix1 j) = _
  rw [Ideal.hostReduceAdd_single _ h]
  show Ideal.ofBits .f32 0x00000000#32 + _ = _
  rw [Ideal.ofBits_zero_f32, zero_add]
  exact Finset.sum_congr rfl fun p _ => congrArg x (Cert.LibColumnSum.lift_ab_first h j p)

theorem meanT_eq (x : FVec Ideal S50000x128 .f32) : meanT x = Cert.Spec.mean x := by
  funext i
  obtain ⟨j, rfl⟩ : ∃ j : Fin 128, i = ix1 j := ⟨i 0, eq_ix1 i⟩
  show Ideal.div (sumT x (ix1 j)) (broadcastInDim S128 ![] bcast_S_S128 (word 0x47435000#32) (ix1 j)) = _
  rw [sumT_apply, scalar_apply]
  rfl

theorem muT_apply (x : FVec Ideal S50000x128 .f32) (p : Fin 50000) (j : Fin 128) :
    muT x (ix2 p j) = Cert.Spec.mean x (ix1 j) := by
  unfold muT
  rw [rows_apply]
  show Ideal.div (broadcastInDim S1x128 ![1] bcast_S128_S1x128_1 (sumT x) (ix2 (0 : Fin 1) j))
      (broadcastInDim S1x128 ![] bcast_S_S1x128 (word 0x47435000#32) (ix2 (0 : Fin 1) j)) = _
  rw [row1_apply, scalar_apply, sumT_apply]
  rfl

/-! ## The count -/

/-- The single-precision pattern `0x47435000` (sign 0, biased exponent 142, fraction `0x435000`) denotes 50000. -/
theorem cnt_word : Ideal.ofBits .f32 0x47435000#32 = ((50000 : ℝ) : EReal) := by
  simp [Ideal.ofBits, Ideal.ieee, -EReal.coe_mul]; norm_num

/-- The count less the integer zero converted to a float is the count. -/
theorem cntT_zero : cntT zeroI ix0 = Cert.Spec.cnt := by
  show Ideal.ofBits .f32 0x47435000#32 - (((0#32 : BitVec 32).toInt : ℝ) : EReal) = _
  rw [show ((0#32 : BitVec 32).toInt : ℝ) = 0 by simp, EReal.coe_zero, sub_zero]
  rfl

/-- The count is positive: the guard of the variance's select holds. -/
theorem cnt_guard : cmpf .ogt (cntT zeroI) (word 0x00000000#32) ix0 = 1#1 := by
  show Ideal.cmp .ogt (cntT zeroI ix0) (Ideal.ofBits .f32 0x00000000#32) = 1#1
  rw [cntT_zero, Ideal.ofBits_zero_f32]
  show BitVec.ofBool (decide ((0 : EReal) < Ideal.ofBits .f32 0x47435000#32)) = 1#1
  rw [cnt_word, decide_eq_true (by exact_mod_cast (by norm_num : (0 : ℝ) < 50000))]
  rfl

/-! ## The variance -/

theorem varT_eq (x : FVec Ideal S50000x128 .f32) : varT x zeroI = Cert.Spec.varR x := by
  funext i
  obtain ⟨j, rfl⟩ : ∃ j : Fin 128, i = ix1 j := ⟨i 0, eq_ix1 i⟩
  unfold varT
  rw [select_apply, scalar_apply, cnt_guard, select_one]
  show Ideal.div (sumT (mulf (devT x) (devT x)) (ix1 j)) (broadcastInDim S128 ![] bcast_S_S128 (cntT zeroI) (ix1 j))
      = Ideal.div (Cert.Spec.colSum (Cert.Spec.dev2 x) (ix1 j)) Cert.Spec.cnt
  rw [sumT_apply, scalar_apply, cntT_zero, Cert.Spec.colSum_apply]
  refine congrArg (fun s => Ideal.div s Cert.Spec.cnt) (Finset.sum_congr rfl fun p _ => ?_)
  show (x (ix2 p j) - muT x (ix2 p j)) * (x (ix2 p j) - muT x (ix2 p j)) = _
  rw [muT_apply]
  rfl

/-! ## The normalisation -/

theorem normT_eq (h x : FVec Ideal S50000x128 .f32) (mu var gamma beta : FVec Ideal S128 .f32) :
    normT h x mu var gamma beta = Cert.Spec.norm h x mu var gamma beta := by
  funext i
  obtain ⟨p, j, rfl⟩ : ∃ (p : Fin 50000) (j : Fin 128), i = ix2 p j := ⟨i 0, i 1, eq_ix2 i⟩
  show h (ix2 p j) + ((rowB gamma (ix2 p j) * (x (ix2 p j) - rowB mu (ix2 p j)))
      * rowB (Host.rsqrt (addf var (broadcastInDim S128 ![] bcast_S_S128 (word 0x3727C5AC#32)))) (ix2 p j) + rowB beta (ix2 p j)) = _
  rw [rowB_apply, rowB_apply, rowB_apply, rowB_apply]
  show _ + (_ * Ideal.rsqrt (var (ix1 j) + broadcastInDim S128 ![] bcast_S_S128 (word 0x3727C5AC#32) (ix1 j)) + _) = _
  rw [scalar_apply]
  rfl

/-! ## The whole line -/

/-- The reference's line computes the layer with the variance as the mean of the squared deviations. -/
theorem outT_eq (h : FVec Ideal S50000x128 .f32) (ei : IVec S2x800000 32) (ws wn : FVec Ideal S128x128 .f32)
    (b gamma beta : FVec Ideal S128 .f32) :
    outT h ei ws wn b gamma beta = Cert.Spec.outR h (Cert.Neigh.hneigh h ei) ws wn b gamma beta := by
  have hr : rstT (preT h (Cert.Neigh.hneigh h ei) ws wn b) (word 0x3C23D70A#32)
      = Cert.Spec.rst h (Cert.Neigh.hneigh h ei) ws wn b := by
    rw [preT_eq]; exact rstT_eq _
  show normT h (rstT (preT h (Cert.Neigh.hneigh h ei) ws wn b) (word 0x3C23D70A#32))
      (meanT (rstT (preT h (Cert.Neigh.hneigh h ei) ws wn b) (word 0x3C23D70A#32)))
      (varT (rstT (preT h (Cert.Neigh.hneigh h ei) ws wn b) (word 0x3C23D70A#32)) zeroI) gamma beta
    = Cert.Spec.norm h (Cert.Spec.rst h (Cert.Neigh.hneigh h ei) ws wn b)
        (Cert.Spec.mean (Cert.Spec.rst h (Cert.Neigh.hneigh h ei) ws wn b))
        (Cert.Spec.varR (Cert.Spec.rst h (Cert.Neigh.hneigh h ei) ws wn b)) gamma beta
  rw [hr, meanT_eq, varT_eq, normT_eq]

/-- From any memory with zero counters every weakly fair execution of the reference terminates with the result buffer
    at the layer (variance as the mean of the squared deviations) of the arguments' launch contents, the neighbour
    means being `hneigh` of the features and the edge list, and the seven arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v49)
        = Cert.Spec.outR (m ((c.tc : Thread nD τ).loc main_arg0))
            (Cert.Neigh.hneigh (m ((c.tc : Thread nD τ).loc main_arg0)) (m ((c.tc : Thread nD τ).loc main_arg1)))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (outT_eq _ _ _ _ _ _ _), (h c).2⟩) (run_outT m ρ)

end Cert.ReferenceIdeal.RefValue

end
-- ==== Proof.LibRealEntries.lean ====
/-
  EXTENDED REALS THAT ARE REAL NUMBERS, and the one place a graph Laplacian needs them.

  Over the extended reals a product does not distribute over a difference at the infinities: `(1 - a) · y` and
  `y - a · y` differ when `y` is infinite.  A program that applies `I - A` to a vector as `y - A · y` and one that builds
  the matrix `I - A` and multiplies therefore agree only where the entries are real numbers.  Proved here, free of any
  program:
  • `IsR x` — the extended real `x` is a real number — is closed under sum, difference, product, maximum, the
    exponential and finite sums (`IsR.add` … `IsR.sum`), and holds of the reciprocal square root of a positive real;
  • `coe_sum`: the coercion of a finite real sum is the sum of the coercions;
  • `sum_sub_mul`: `∑ j, (d j - a j) · y j = ∑ j, d j · y j - ∑ j, a j · y j` over real entries;
  • `sum_ind_mul`, `sum_ind_sub_mul`: with `d` the indicator of `i` (the identity matrix's row), the left side is
    `y i - ∑ j, a j · y j`: row `i` of `(I - A) y` is row `i` of `y - A y`;
  • `one_div_sqrt`: at a positive real, `1 / sqrt` is the reciprocal square root;
  • `two_word`: the single-precision pattern `0x40000000` denotes the real number two.
-/
import Idealize.ShloMosaic.PureOps.Ideal
import Idealize.ShloMosaic.PureOps.Ideal.Laws
import proofs.«146067_j47725676593247_1_alg».proof.Proof.LibNormSum

noncomputable section

open scoped BigOperators

namespace Cert.RealEntries

open Idealize.ShloMosaic

/-- The extended real is a real number. -/
def IsR (x : EReal) : Prop := ∃ r : ℝ, x = (r : EReal)

theorem IsR.coe (r : ℝ) : IsR (r : EReal) := ⟨r, rfl⟩

theorem IsR.zero : IsR 0 := ⟨0, rfl⟩

theorem IsR.one : IsR 1 := ⟨1, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.max {a b : EReal} (ha : IsR a) (hb : IsR b) : IsR (max a b) := by
  rcases le_total a b with h | h
  · rwa [max_eq_right h]
  · rwa [max_eq_left h]

theorem IsR.exp {a : EReal} (ha : IsR a) : IsR (Ideal.exp a) := by
  obtain ⟨r, rfl⟩ := ha; exact ⟨Real.exp r, rfl⟩

theorem IsR.sum {ι : Type*} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h _ (Finset.mem_insert_self _ _)).add (ih fun i hi => h i (Finset.mem_insert_of_mem hi))

/-- The coercion of a real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real numbers is the coercion of a real family. -/
theorem exists_real_family {ι : Type*} (f : ι → EReal) (h : ∀ i, IsR (f i)) : ∃ g : ι → ℝ, f = fun i => (g i : EReal) :=
  ⟨fun i => (h i).choose, funext fun i => (h i).choose_spec⟩

/-- Over real numbers, `∑ j, (d j - a j) · y j = ∑ j, d j · y j - ∑ j, a j · y j`. -/
theorem sum_sub_mul {ι : Type*} (s : Finset ι) (d a y : ι → EReal) (hd : ∀ j, IsR (d j)) (ha : ∀ j, IsR (a j))
    (hy : ∀ j, IsR (y j)) : ∑ j ∈ s, (d j - a j) * y j = ∑ j ∈ s, d j * y j - ∑ j ∈ s, a j * y j := by
  obtain ⟨d', rfl⟩ := exists_real_family d hd
  obtain ⟨a', rfl⟩ := exists_real_family a ha
  obtain ⟨y', rfl⟩ := exists_real_family y hy
  simp only [← EReal.coe_sub, ← EReal.coe_mul, ← coe_sum]
  congr 1
  rw [← Finset.sum_sub_distrib]
  exact Finset.sum_congr rfl fun j _ => sub_mul _ _ _

/-- The indicator of `i` picks the `i`-th entry. -/
theorem sum_ind_mul {n : ℕ} (i : Fin n) (y : Fin n → EReal) :
    ∑ j : Fin n, (if i = j then (1 : EReal) else 0) * y j = y i := by
  rw [Finset.sum_eq_single i]
  · rw [if_pos rfl, one_mul]
  · intro j _ hj; rw [if_neg (Ne.symm hj), zero_mul]
  · intro h; exact absurd (Finset.mem_univ i) h

/-- The matrix `I - a` applied to `y`, at row `i`, is `y i - ∑ j, a j · y j` when the entries are real numbers. -/
theorem sum_ind_sub_mul {n : ℕ} (i : Fin n) (a y : Fin n → EReal) (ha : ∀ j, IsR (a j)) (hy : ∀ j, IsR (y j)) :
    ∑ j : Fin n, ((if i = j then (1 : EReal) else 0) - a j) * y j = y i - ∑ j : Fin n, a j * y j := by
  rw [sum_sub_mul Finset.univ _ a y (fun j => by split_ifs; exact IsR.one; exact IsR.zero) ha hy, sum_ind_mul]

/-- At a positive real number `1 / sqrt` is the reciprocal square root. -/
theorem one_div_sqrt (r : ℝ) (hr : 0 < r) : Ideal.div 1 (Ideal.sqrt (r : EReal)) = Ideal.rsqrt (r : EReal) := by
  rw [Cert.NormSum.rsqrt_coe_pos r hr]
  show Ideal.div 1 (if r < 0 then (⊥ : EReal) else (Real.sqrt r : EReal)) = _
  rw [if_neg (not_lt.mpr hr.le), Ideal.div_coe (Real.sqrt_pos.mpr hr).ne', one_mul, one_div]

/-- The reciprocal square root of a positive real number is a real number. -/
theorem IsR.rsqrt_pos (r : ℝ) (hr : 0 < r) : IsR (Ideal.rsqrt (r : EReal)) :=
  ⟨_, Cert.NormSum.rsqrt_coe_pos r hr⟩

/-- The single-precision pattern `0x40000000` denotes the real number two. -/
theorem two_word : Ideal.ofBits .f32 0x40000000#32 = ((2 : ℝ) : EReal) := by
  simp [Ideal.ofBits, Ideal.ieee, -EReal.coe_mul]; norm_num

end Cert.RealEntries

end
-- ==== Proof.Variance.lean ====
/-
  THE TWO SPELLINGS OF THE VARIANCE AGREE ON REAL ENTRIES.

  For a column of real numbers g 0, …, g (R-1) with total S and n the count:
    (∑ g²) / n − (S / n)²   and   (∑ (g − S / n)²) / n
  are the same real number as soon as R / n = 1, because
    ∑ (g − μ)² = ∑ g² − 2 μ S + R μ²   with μ = S / n.
  Over the extended reals the identity fails at an infinite entry (the left side may be ⊤ − ⊤), so the entries are
  assumed to be real numbers; the division by the count is then the product with the real 1 / n.  The count is the
  single-precision word of fifty thousand, read here as that real number.
-/
import proofs.«146067_j47725676593247_1_alg».proof.Proof.Spec
import proofs.«146067_j47725676593247_1_alg».proof.Proof.LibRealEntries

noncomputable section

open scoped BigOperators

namespace Cert.Spec

open Idealize.ShloMosaic Idealize.ShloMosaic.ValueIdx
open Cert.RealEntries

/-- The count word (sign 0, biased exponent 142, fraction 0x435000) is fifty thousand. -/
theorem cnt_word : cnt = ((50000 : ℝ) : EReal) := by
  unfold cnt
  simp [Ideal.ofBits, Ideal.ieee, -EReal.coe_mul]; norm_num

/-- The identity over the reals: the count `n` is fifty thousand and so is the number of summands. -/
theorem real_var {R : ℕ} (hR : (R : ℝ) = 50000) (g : Fin R → ℝ) :
    (∑ p, g p * g p) * (1 / 50000) - ((∑ p, g p) * (1 / 50000)) * ((∑ p, g p) * (1 / 50000))
      = (∑ p, (g p - (∑ q, g q) * (1 / 50000)) * (g p - (∑ q, g q) * (1 / 50000))) * (1 / 50000) := by
  generalize hS : (∑ q, g q) = S
  have h1 : ∀ p, (g p - S * (1 / 50000)) * (g p - S * (1 / 50000))
      = g p * g p - 2 * (S * (1 / 50000)) * g p + (S * (1 / 50000)) * (S * (1 / 50000)) := fun p => by ring
  have h2 : ∑ p, (g p - S * (1 / 50000)) * (g p - S * (1 / 50000))
      = (∑ p, g p * g p) - 2 * (S * (1 / 50000)) * S + (R : ℝ) * ((S * (1 / 50000)) * (S * (1 / 50000))) := by
    simp only [h1]
    rw [Finset.sum_add_distrib, Finset.sum_sub_distrib, ← Finset.mul_sum, hS, Finset.sum_const, Finset.card_univ,
      Fintype.card_fin, nsmul_eq_mul]
  rw [h2, hR]; ring

/-- On real entries the mean of the squares minus the squared mean is the mean of the squared deviations. -/
theorem varK_eq_varR {R N : ℕ} (hR : (R : ℝ) = 50000) (x : Mat R N) (hx : ∀ i, IsR (x i)) : varK x = varR x := by
  funext j
  rw [eq_ix1 j]
  generalize j 0 = j0
  obtain ⟨g, hg⟩ := exists_real_family (fun p : Fin R => x (ix2 p j0)) (fun p => hx _)
  have hg' : ∀ p, x (ix2 p j0) = (g p : EReal) := fun p => congrFun hg p
  have hne : (50000 : ℝ) ≠ 0 := by norm_num
  show Ideal.div (∑ p : Fin R, x (ix2 p j0) * x (ix2 p j0)) cnt
        - Ideal.div (∑ p : Fin R, x (ix2 p j0)) cnt * Ideal.div (∑ p : Fin R, x (ix2 p j0)) cnt
      = Ideal.div (∑ p : Fin R, (x (ix2 p j0) - Ideal.div (∑ q : Fin R, x (ix2 q j0)) cnt)
          * (x (ix2 p j0) - Ideal.div (∑ q : Fin R, x (ix2 q j0)) cnt)) cnt
  simp only [hg', cnt_word, Ideal.div_coe hne, ← EReal.coe_mul, ← EReal.coe_sub, ← coe_sum]
  exact congrArg _ (real_var hR g)

/-- The two spellings of the whole layer agree when every entry of the rectified layer is a real number. -/
theorem outK_eq_outR {R N : ℕ} (hR : (R : ℝ) = 50000) (h hn : Mat R N) (ws wn : Mat N N) (b gamma beta : Row N)
    (hx : ∀ i, IsR (rst h hn ws wn b i)) : outK h hn ws wn b gamma beta = outR h hn ws wn b gamma beta := by
  unfold outK outR
  rw [varK_eq_varR hR _ hx]

end Cert.Spec

end
-- ==== Proof.RstReal.lean ====
/-
  THE RECTIFIED LAYER OF REAL INPUTS IS REAL.

  A single-precision word whose exponent field is not all ones denotes a real number; so do the zero word and the
  word of the rectifier's slope.  Sums, products and the choice between `v` and `slope · v` keep real numbers real,
  hence every entry of the two products, of the pre-activation and of the rectified layer is a real number as soon
  as every entry of the features, the neighbour means, the two weight matrices and the bias is.
-/
import proofs.«146067_j47725676593247_1_alg».proof.Proof.Spec
import proofs.«146067_j47725676593247_1_alg».proof.Proof.LibRealEntries

noncomputable section

open scoped BigOperators

namespace Cert.Spec

open Idealize.ShloMosaic Idealize.ShloMosaic.ValueIdx
open Cert.RealEntries
open Cert.KernelIdeal.RegionValue (prodArr prodArr_apply)

/-- A pattern whose exponent field is not all ones (neither an infinity nor a NaN) denotes a real number. -/
theorem ieee_real (e m : ℕ) {w : ℕ} (b : BitVec w) (h : (b.extractLsb' m e).toNat ≠ 2 ^ e - 1) :
    IsR (Ideal.ieee e m b) := by
  unfold Ideal.ieee
  dsimp only
  rw [if_neg h]
  split_ifs <;> exact ⟨_, rfl⟩

/-- The slope's word denotes a real number. -/
theorem slope_real : IsR slope := by
  show IsR (Ideal.ieee 8 23 (0x3C23D70A#32))
  exact ieee_real 8 23 _ (by decide)

/-- The zero word is zero. -/
theorem zero_word : zero = 0 := Ideal.ofBits_zero_f32

/-- The rectifier of a real number is a real number. -/
theorem leaky_real (v : EReal) (hv : IsR v) : IsR (leaky v) := by
  unfold leaky Scalar.select
  split_ifs
  · exact hv
  · exact slope_real.mul hv

variable {R K N : ℕ}

/-- A product of two arrays of real numbers has real entries. -/
theorem prodArr_real (A : Mat R K) (W : Mat K N) (hA : ∀ i, IsR (A i)) (hW : ∀ i, IsR (W i)) :
    ∀ i, IsR (prodArr A W i) := fun i =>
  IsR.sum Finset.univ (fun k : Fin K => A (ix2 (i 0) k) * W (ix2 k (i 1))) fun _ _ => (hA _).mul (hW _)

/-- The pre-activation of real inputs has real entries. -/
theorem pre_real (h hn : Mat R K) (ws wn : Mat K N) (b : Row N) (hh : ∀ i, IsR (h i)) (hhn : ∀ i, IsR (hn i))
    (hws : ∀ i, IsR (ws i)) (hwn : ∀ i, IsR (wn i)) (hb : ∀ i, IsR (b i)) : ∀ i, IsR (pre h hn ws wn b i) := fun i =>
  ((prodArr_real h ws hh hws i).add (prodArr_real hn wn hhn hwn i)).add (hb _)

/-- The rectified layer of real inputs has real entries. -/
theorem rst_real (h hn : Mat R K) (ws wn : Mat K N) (b : Row N) (hh : ∀ i, IsR (h i)) (hhn : ∀ i, IsR (hn i))
    (hws : ∀ i, IsR (ws i)) (hwn : ∀ i, IsR (wn i)) (hb : ∀ i, IsR (b i)) : ∀ i, IsR (rst h hn ws wn b i) := fun i =>
  leaky_real _ (pre_real h hn ws wn b hh hhn hws hwn hb i)

end Cert.Spec

end
-- ==== Proof.NeighReal.lean ====
/-
  THE NEIGHBOUR MEANS ARE REAL NUMBERS when the node features are.

  Every operation of the chain reads its result at an index as an operand's entry, a sum of operands' entries, a maximum
  or a quotient, so the property "is a real number" is carried from the features to the neighbour means one operation at
  a time:
  • a gathered entry IS an entry of the features;
  • an entry of the accumulating scatter is the operand's entry plus a finite sum of update entries, here zero plus a
    sum of gathered entries, respectively zero plus a sum of ones;
  • the divisor is the larger of the count and one repeated along the columns: a real number that is at least one, so
    not zero;
  • a real number divided by a nonzero real number is their real quotient.
  The exact value of no entry is needed: each step is a statement about arbitrary arrays of the operation's shapes.
-/
import proofs.«146067_j47725676593247_1_alg».proof.Proof.Neigh
import proofs.«146067_j47725676593247_1_alg».proof.Proof.LibRealEntries
import proofs.«146067_j47725676593247_1_alg».proof.Proof.LibNormSum

noncomputable section

open scoped BigOperators

namespace Cert.Neigh

open Idealize.ShloMosaic Cert.ReferenceIdeal Cert.ReferenceIdeal.Facts₀ Cert.RealEntries

/-! ## The general steps -/

/-- A property every entry of the operand has, every entry of its broadcast has: a broadcast entry is an operand entry. -/
theorem broadcastInDim_all {α : Type} {s t : Shape} (P : α → Prop) (dims : Fin s.rank → Fin t.rank)
    (hb : s.BroadcastsInDim t dims) (x : s.Idx → α) (hx : ∀ k, P (x k)) (j : t.Idx) :
    P (broadcastInDim t dims hb x j) := hx _

/-- A property every entry of the operand has, every gathered entry has: a gathered entry is an operand entry. -/
theorem gather_all {α : Type} {s si t : Shape} {w : ℕ} (P : α → Prop) (d : GatherDims s si t) (x : s.Idx → α)
    (idx : IVec si w) (hx : ∀ k, P (x k)) (j : t.Idx) : P (Host.gather d x idx j) := hx _

/-- The accumulating scatter of real updates into a real operand is real: each entry is the operand's plus a finite sum
    of updates. -/
theorem scatterAdd_real {s si u : Shape} {w : ℕ} (d : ScatterDims s si u) (x : FVec Ideal s .f32) (idx : IVec si w)
    (upd : FVec Ideal u .f32) (hx : ∀ i, IsR (x i)) (hu : ∀ j, IsR (upd j)) (i : s.Idx) :
    IsR (Host.scatterAdd d x idx upd i) := by
  unfold Host.scatterAdd
  rw [Ideal.hostScatterAdd_def]
  unfold Ideal.hostScatterAdd
  exact (hx i).add (IsR.sum _ _ fun j _ => hu j)

/-- Every entry of a splat of the zero word is the real number zero. -/
theorem zero_splat_real {s : Shape} (hb : S_.BroadcastsInDim s ![]) (j : s.Idx) :
    IsR (broadcastInDim s ![] hb (constant (F := Ideal) S_ .f32 0x00000000#32) j) :=
  broadcastInDim_all IsR _ hb _ (fun _ => by
    show IsR (Ideal.ofBits .f32 0x00000000#32)
    rw [Ideal.ofBits_zero_f32]; exact IsR.zero) j

/-- Every entry of a splat of the word of one is one. -/
theorem one_splat {s : Shape} (hb : S_.BroadcastsInDim s ![]) (j : s.Idx) :
    broadcastInDim s ![] hb (constant (F := Ideal) S_ .f32 0x3F800000#32) j = 1 :=
  broadcastInDim_all (fun x => x = 1) _ hb _ (fun _ => Cert.NormSum.one_word) j

/-- The extended real is a nonzero real number. -/
def NZ (x : EReal) : Prop := ∃ r : ℝ, r ≠ 0 ∧ x = (r : EReal)

/-- The larger of a real number and one is a nonzero real number: it is real, and at least one. -/
theorem max_one_nz {x : EReal} (hx : IsR x) : NZ (max x 1) := by
  obtain ⟨r, hr⟩ := hx.max IsR.one
  refine ⟨r, ?_, hr⟩
  intro h0
  have h1 : (1 : EReal) ≤ max x 1 := le_max_right _ _
  rw [hr, h0] at h1
  exact absurd h1 (by norm_num)

/-- The entrywise maximum of a real array and the splat of one has nonzero real entries. -/
theorem maximumf_one_splat_nz {s : Shape} (hb : S_.BroadcastsInDim s ![]) (x : FVec Ideal s .f32) (hx : ∀ p, IsR (x p))
    (p : s.Idx) : NZ (maximumf x (broadcastInDim s ![] hb (constant (F := Ideal) S_ .f32 0x3F800000#32)) p) := by
  have h1 : maximumf x (broadcastInDim s ![] hb (constant (F := Ideal) S_ .f32 0x3F800000#32)) p = max (x p) 1 :=
    congrArg (max (x p)) (one_splat hb p)
  rw [h1]
  exact max_one_nz (hx p)

/-- A real array divided entrywise by an array of nonzero reals is real: the quotient is the product with the reciprocal. -/
theorem divf_real {s : Shape} (x y : FVec Ideal s .f32) (hx : ∀ i, IsR (x i)) (hy : ∀ i, NZ (y i)) (i : s.Idx) :
    IsR (Host.divf x y i) := by
  obtain ⟨r, hr0, hr⟩ := hy i
  have h1 : Host.divf x y i = Ideal.div (x i) (y i) := rfl
  rw [h1, hr, Ideal.div_coe hr0]
  exact (hx i).mul (IsR.coe _)

/-! ## The chain -/

/-- The gathered rows are real. -/
theorem gathered_real (h : FVec Ideal S50000x128 .f32) (ei : IVec S2x800000 32) (hh : ∀ i, IsR (h i)) :
    ∀ j, IsR (gathered h ei j) := by
  intro j
  unfold gathered
  exact gather_all IsR _ h (srcIdx ei) hh j

/-- The summed rows are real. -/
theorem agg_real (h : FVec Ideal S50000x128 .f32) (ei : IVec S2x800000 32) (hh : ∀ i, IsR (h i)) :
    ∀ i, IsR (agg h ei i) := by
  intro i
  unfold agg
  exact scatterAdd_real _ _ (dstIdx ei) (gathered h ei) (zero_splat_real _) (gathered_real h ei hh) i

/-- The counts are real. -/
theorem deg_real (ei : IVec S2x800000 32) : ∀ p, IsR (deg ei p) := by
  intro p
  unfold deg
  exact scatterAdd_real _ _ (dstIdx ei) _ (zero_splat_real _) (fun j => by rw [one_splat]; exact IsR.one) p

/-- Every entry of the divisor is a nonzero real number. -/
theorem divisor_nz (ei : IVec S2x800000 32) : ∀ i, NZ (divisor ei i) := by
  intro i
  unfold divisor
  exact broadcastInDim_all (s := S50000x1) (t := S50000x128) NZ ![0, 1] bcast_S50000x1_S50000x128_0_1 _
    (fun k => broadcastInDim_all (s := S50000) (t := S50000x1) NZ ![0] bcast_S50000_S50000x1_0 _
      (fun p => maximumf_one_splat_nz bcast_S_S50000 (deg ei) (deg_real ei) p) k) i

/-- THE NEIGHBOUR MEANS ARE REAL: a real sum divided by a nonzero real count. -/
theorem hneigh_real (h : FVec Ideal S50000x128 .f32) (ei : IVec S2x800000 32) (hh : ∀ i, IsR (h i)) :
    ∀ i, IsR (hneigh h ei i) := by
  intro i
  unfold hneigh
  exact divf_real _ _ (agg_real h ei hh) (divisor_nz ei) i

end Cert.Neigh

end
-- ==== Proof.LibFiniteEntry.lean ====
/-
  FROM "EVERY ENTRY IS BELOW INFINITY IN ABSOLUTE VALUE" TO "EVERY ENTRY IS A REAL NUMBER", at the ideal values.

  A precondition that an array is finite is printed as: the absolute value of the array, compared entry by entry (ordered,
  less than) with the single-precision word of `+∞` broadcast from a scalar.  At the ideal values the absolute value of
  `x` is `max x (-x)`, the word `0x7F800000` is `⊤`, and an extended real whose absolute value is below `⊤` is neither `⊤`
  nor `⊥`: it is a real number.  No program appears in this module.
-/
import Idealize.ShloMosaic.PureOps.Ideal.Laws
import Idealize.ShloMosaic.Lib.ValueIdx
import Idealize.ShloMosaic.Lib.Pipeline.Value
import proofs.«146067_j47725676593247_1_alg».proof.Proof.LibRealEntries

noncomputable section

namespace Cert.FiniteEntry

open Idealize.ShloMosaic Idealize.ShloMosaic.ValueIdx Cert.RealEntries

/-- The single-precision pattern `0x7F800000` (sign 0, exponent all ones, fraction 0) denotes `+∞`. -/
theorem inf_word : Ideal.ofBits .f32 0x7F800000#32 = (⊤ : EReal) := by simp [Ideal.ofBits, Ideal.ieee]

/-- An extended real whose absolute value is below `⊤` is a real number. -/
theorem isR_of_abs_lt_top (x : EReal) (h : max x (-x) < ⊤) : IsR x := by
  induction x using EReal.rec with
  | bot => simp at h
  | coe r => exact ⟨r, rfl⟩
  | top => simp at h

/-- The printed comparison at an index. -/
theorem isR_of_cmp {s : Shape} (x : FVec Ideal s .f32) (hb : (⟨0, ![]⟩ : Shape).BroadcastsInDim s ![]) (i : s.Idx)
    (h : cmpf .olt (Host.absf x) (broadcastInDim s ![] hb (constant (F := Ideal) ⟨0, ![]⟩ .f32 0x7F800000#32)) i = 1#1) :
    IsR (x i) := by
  have h' : FloatOps.cmpf (F := Ideal) (φ := .f32) .olt (max (x i) (-(x i)))
      (broadcastInDim s ![] hb (constant (F := Ideal) ⟨0, ![]⟩ .f32 0x7F800000#32) i) = 1#1 := h
  rw [broadcastInDim_apply _ hb _ i ix0 (fun a => a.elim0)] at h'
  have h2 : FloatOps.cmpf (F := Ideal) (φ := .f32) .olt (max (x i) (-(x i))) (Ideal.ofBits .f32 0x7F800000#32) = 1#1 := h'
  rw [inf_word] at h2
  by_cases hlt : max (x i) (-(x i)) < (⊤ : EReal)
  · exact isR_of_abs_lt_top _ hlt
  · exfalso
    have h3 : BitVec.ofBool (decide (max (x i) (-(x i)) < (⊤ : EReal))) = 1#1 := h2
    rw [decide_eq_false hlt] at h3
    exact absurd h3 (by decide)

end Cert.FiniteEntry

end
-- ==== Proof.PreReal.lean ====
/-
  THE PRECONDITION READ BACK: every float input is an array of real numbers.

  The precondition is the conjunction, over the six float inputs, of one test per input: the absolute value of the
  input, compared entry by entry (ordered, less than) with the word of +∞, and the comparison's bits joined by "and"
  over all entries from the constant 1.  If the whole conjunction is 1, each test is 1 (a conjunction of one-bit words
  is 1 exactly when both are); a test that is 1 had a 1 at every entry (a fold by "and" that ends in 1 met only 1s);
  and an entry whose absolute value is below +∞ at the ideal values is neither infinity: it is a real number.
  The edge list, the one integer input, is not tested and nothing is claimed of it.
-/
import proofs.«146067_j47725676593247_1_alg».proof.Pre_finite_inputs
import proofs.«146067_j47725676593247_1_alg».proof.Proof.Gen.Pre_finite_inputs
import proofs.«146067_j47725676593247_1_alg».proof.Proof.LibRealEntries
import proofs.«146067_j47725676593247_1_alg».proof.Proof.LibFiniteEntry
import Idealize.ShloMosaic.Lib.ReduceAll
import Idealize.ShloMosaic.Lib.ValueIdx

noncomputable section

namespace Cert.Pre_finite_inputs.RealInputs

open Idealize.ShloMosaic Idealize.ShloMosaic.ValueIdx Cert.Pre_finite_inputs Cert.Pre_finite_inputs.Facts Cert.RealEntries

/-- The scalar shape has one index. -/
instance : Subsingleton S_.Idx := ⟨fun a b => funext fun d => d.elim0⟩

/-- ONE TEST READ BACK: if the conjunction over all entries of "the absolute value is below the word of +∞" is 1, every
    entry is a real number. -/
theorem all_real {s : Shape} {axes : List (Fin s.rank)} (x : FVec Ideal s .f32) (hb : S_.BroadcastsInDim s ![])
    (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu ix0 = 1#1) : ∀ i, IsR (x i) :=
  fun i => Cert.FiniteEntry.isR_of_cmp x hb i (Host.reduce_andi_all _ _ hr hu ix0 h i)

/-- The entrywise conjunction of two one-bit scalars is 1 exactly when both are. -/
theorem andi_ix0 (x y : IVec S_ 1) (h : andi x y ix0 = 1#1) : x ix0 = 1#1 ∧ y ix0 = 1#1 :=
  IntOp.andi_eq_one.1 h

/-- THE PRECONDITION DECODED: under it every entry of every float input is a real number. -/
theorem real_of_pre (a0 : FVec Ideal S50000x128 .f32) (a1 : IVec S2x800000 32) (a2 a3 : FVec Ideal S128x128 .f32)
    (a4 a5 a6 : FVec Ideal S128 .f32)
    (hpre : Cert.Pre_finite_inputs.fn (F := Ideal) a0 a1 a2 a3 a4 a5 a6 = fun _ => 1#1) :
    (∀ i, IsR (a0 i)) ∧ (∀ i, IsR (a2 i)) ∧ (∀ i, IsR (a3 i)) ∧ (∀ i, IsR (a4 i)) ∧ (∀ i, IsR (a5 i)) ∧ (∀ i, IsR (a6 i)) := by
  have e := congrFun hpre ix0
  unfold fn fn_part1 at e
  dsimp only at e
  obtain ⟨e5, h6⟩ := andi_ix0 _ _ e
  obtain ⟨e4, h5⟩ := andi_ix0 _ _ e5
  obtain ⟨e3, h4⟩ := andi_ix0 _ _ e4
  obtain ⟨e2, h3⟩ := andi_ix0 _ _ e3
  obtain ⟨h0, h2⟩ := andi_ix0 _ _ e2
  exact ⟨all_real a0 _ _ _ h0, all_real a2 _ _ _ h2, all_real a3 _ _ _ h3, all_real a4 _ _ _ h4, all_real a5 _ _ _ h5,
    all_real a6 _ _ _ h6⟩

end Cert.Pre_finite_inputs.RealInputs

end
-- ==== Proof.Agree.lean ====
/-
  THE TWO SPELLINGS OF THE LAYER AGREE ON FINITE INPUTS.

  When every entry of the features, of the two weight matrices and of the bias is a real number, so is every entry of
  the neighbour means (a real sum divided by a nonzero real count), hence every entry of the rectified layer; and on
  real entries the mean of the squares minus the squared mean is the mean of the squared deviations.  The number of
  rows, fifty thousand, is the count the means are taken with.
-/
import proofs.«146067_j47725676593247_1_alg».proof.Proof.Variance
import proofs.«146067_j47725676593247_1_alg».proof.Proof.RstReal
import proofs.«146067_j47725676593247_1_alg».proof.Proof.NeighReal
import proofs.«146067_j47725676593247_1_alg».proof.Proof.PreReal

noncomputable section

namespace Cert.Agree

open Idealize.ShloMosaic Cert.ReferenceIdeal Cert.RealEntries

/-- With real features, weights and bias the two spellings of the layer are the same array. -/
theorem layer_agree_of_real (a0 : FVec Ideal S50000x128 .f32) (a1 : IVec S2x800000 32)
    (a2 a3 : FVec Ideal S128x128 .f32) (a4 a5 a6 : FVec Ideal S128 .f32)
    (h0 : ∀ i, IsR (a0 i)) (h2 : ∀ i, IsR (a2 i)) (h3 : ∀ i, IsR (a3 i)) (h4 : ∀ i, IsR (a4 i)) :
    Cert.Spec.outK a0 (Cert.Neigh.hneigh a0 a1) a2 a3 a4 a5 a6
      = Cert.Spec.outR a0 (Cert.Neigh.hneigh a0 a1) a2 a3 a4 a5 a6 :=
  Cert.Spec.outK_eq_outR (by norm_num) a0 (Cert.Neigh.hneigh a0 a1) a2 a3 a4 a5 a6
    (Cert.Spec.rst_real a0 (Cert.Neigh.hneigh a0 a1) a2 a3 a4 h0 (Cert.Neigh.hneigh_real a0 a1 h0) h2 h3 h4)

/-- Under the precondition (every float input finite) the two spellings of the layer are the same array. -/
theorem layer_agree (a0 : FVec Ideal S50000x128 .f32) (a1 : IVec S2x800000 32)
    (a2 a3 : FVec Ideal S128x128 .f32) (a4 a5 a6 : FVec Ideal S128 .f32)
    (hpre : Cert.Pre_finite_inputs.fn (F := Ideal) a0 a1 a2 a3 a4 a5 a6 = fun _ => 1#1) :
    Cert.Spec.outK a0 (Cert.Neigh.hneigh a0 a1) a2 a3 a4 a5 a6
      = Cert.Spec.outR a0 (Cert.Neigh.hneigh a0 a1) a2 a3 a4 a5 a6 := by
  obtain ⟨h0, h2, h3, h4, _, _⟩ := Cert.Pre_finite_inputs.RealInputs.real_of_pre a0 a1 a2 a3 a4 a5 a6 hpre
  exact layer_agree_of_real a0 a1 a2 a3 a4 a5 a6 h0 h2 h3 h4

end Cert.Agree

end
-- ==== Proof.Blocks.lean ====
/-
  THE WINDOWS' BLOCKS, read off the arrays a pass is entered with.

  Both passes walk ten blocks of 5000 rows.  The two tall operands (the features and the neighbour means) are read block
  by block: row `r` of the block at point `t` is row `5000 t + r` of the array.  Every other operand (the weights, the
  bias row, and for the second pass the mean, variance, gamma and beta rows) is one block that is the whole array, the
  same at every point.  The index maps are decided once over the ten points.
-/
import proofs.«146067_j47725676593247_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (V : (c : Dev nD) → (b : Ref sig .tc) → Buf (Elt F) ((c : Thread nD τ).loc b))

/-! ## The statistics pass -/

theorem idx0 : ∀ t : Fin cfg0.N, win0_0.index t (0 : Fin 2) = t.val ∧ win0_0.index t (1 : Fin 2) = 0
    ∧ win0_1.index t (0 : Fin 2) = t.val ∧ win0_1.index t (1 : Fin 2) = 0 ∧ True :=
  (by decide +kernel : ∀ t : Fin grid0.N, _)

theorem zidx0 : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem row_lt0 (t : Fin cfg0.N) (r : Fin 5000) : 5000 * t.val + r.val < 50000 := by
  have h : t.val < 10 := Nat.lt_of_lt_of_eq t.isLt N_0
  have := r.isLt; omega

/-- Window 0 of pass 0: row `r` of the block at point `t` is row `5000 t + r` of the array. -/
theorem blk0_0_at (c : Dev nD) (t : Fin cfg0.N) (r : Fin 5000) (k : Fin 128) :
    iblk0 V c 0 t (ix2 r k) = (V c main_arg0 : S50000x128.Idx → Elt F .f32) (ix2 ⟨5000 * t.val + r.val, row_lt0 t r⟩ k) := by
  have e0 : win0_0.index t (0 : Fin 2) = t.val := (idx0 t).1
  have e1 : win0_0.index t (1 : Fin 2) = 0 := (idx0 t).2.1
  unfold iblk0
  rw [View.read_apply]
  show V c main_arg0 (((cfg0.win 0).blk t).view.emb (ix2 r k)) = _
  refine congrArg _ ?_
  funext a; apply Fin.ext
  match a with
  | ⟨0, _⟩ => show win0_0.index t (0 : Fin 2) * 5000 + 1 * r.val = 5000 * t.val + r.val; omega
  | ⟨1, _⟩ => show win0_0.index t (1 : Fin 2) * 128 + 1 * k.val = k.val; omega

/-- Window 1 of pass 0: row `r` of the block at point `t` is row `5000 t + r` of the array. -/
theorem blk0_1_at (c : Dev nD) (t : Fin cfg0.N) (r : Fin 5000) (k : Fin 128) :
    iblk0 V c 1 t (ix2 r k) = (V c main_v23 : S50000x128.Idx → Elt F .bf16) (ix2 ⟨5000 * t.val + r.val, row_lt0 t r⟩ k) := by
  have e0 : win0_1.index t (0 : Fin 2) = t.val := (idx0 t).2.2.1
  have e1 : win0_1.index t (1 : Fin 2) = 0 := (idx0 t).2.2.2.1
  unfold iblk0
  rw [View.read_apply]
  show V c main_v23 (((cfg0.win 1).blk t).view.emb (ix2 r k)) = _
  refine congrArg _ ?_
  funext a; apply Fin.ext
  match a with
  | ⟨0, _⟩ => show win0_1.index t (0 : Fin 2) * 5000 + 1 * r.val = 5000 * t.val + r.val; omega
  | ⟨1, _⟩ => show win0_1.index t (1 : Fin 2) * 128 + 1 * k.val = k.val; omega

/-- Window 2 of pass 0 is its whole array at every point. -/
theorem blk0_2_eq (c : Dev nD) (t : Fin cfg0.N) :
    iblk0 V c 2 t = (V c main_v24 : S128x128.Idx → Elt F .bf16) := by
  have e0 : win0_2.index t (0 : Fin 2) = 0 := (zidx0 t).1
  have e1 : win0_2.index t (1 : Fin 2) = 0 := (zidx0 t).2.1
  funext y
  unfold iblk0
  rw [View.read_apply]
  show V c main_v24 (((cfg0.win 2).blk t).view.emb y) = _
  refine congrArg _ ?_
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Window 3 of pass 0 is its whole array at every point. -/
theorem blk0_3_eq (c : Dev nD) (t : Fin cfg0.N) :
    iblk0 V c 3 t = (V c main_v25 : S128x128.Idx → Elt F .bf16) := by
  have e0 : win0_3.index t (0 : Fin 2) = 0 := (zidx0 t).2.2.1
  have e1 : win0_3.index t (1 : Fin 2) = 0 := (zidx0 t).2.2.2.1
  funext y
  unfold iblk0
  rw [View.read_apply]
  show V c main_v25 (((cfg0.win 3).blk t).view.emb y) = _
  refine congrArg _ ?_
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4 of pass 0 is its whole array at every point. -/
theorem blk0_4_eq (c : Dev nD) (t : Fin cfg0.N) :
    iblk0 V c 4 t = (V c main_v26 : S1x128.Idx → Elt F .f32) := by
  have e0 : win0_4.index t (0 : Fin 2) = 0 := (zidx0 t).2.2.2.2.1
  have e1 : win0_4.index t (1 : Fin 2) = 0 := (zidx0 t).2.2.2.2.2
  funext y
  unfold iblk0
  rw [View.read_apply]
  show V c main_v26 (((cfg0.win 4).blk t).view.emb y) = _
  refine congrArg _ ?_
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-! ## The normalising pass -/

theorem idx1 : ∀ t : Fin cfg1.N, win1_0.index t (0 : Fin 2) = t.val ∧ win1_0.index t (1 : Fin 2) = 0
    ∧ win1_1.index t (0 : Fin 2) = t.val ∧ win1_1.index t (1 : Fin 2) = 0 ∧ True :=
  (by decide +kernel : ∀ t : Fin grid1.N, _)

theorem zidx1 : ∀ t : Fin cfg1.N, win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

theorem row_lt1 (t : Fin cfg1.N) (r : Fin 5000) : 5000 * t.val + r.val < 50000 := by
  have h : t.val < 10 := Nat.lt_of_lt_of_eq t.isLt N_1
  have := r.isLt; omega

/-- Window 0 of pass 1: row `r` of the block at point `t` is row `5000 t + r` of the array. -/
theorem blk1_0_at (c : Dev nD) (t : Fin cfg1.N) (r : Fin 5000) (k : Fin 128) :
    iblk1 V c 0 t (ix2 r k) = (V c main_arg0 : S50000x128.Idx → Elt F .f32) (ix2 ⟨5000 * t.val + r.val, row_lt1 t r⟩ k) := by
  have e0 : win1_0.index t (0 : Fin 2) = t.val := (idx1 t).1
  have e1 : win1_0.index t (1 : Fin 2) = 0 := (idx1 t).2.1
  unfold iblk1
  rw [View.read_apply]
  show V c main_arg0 (((cfg1.win 0).blk t).view.emb (ix2 r k)) = _
  refine congrArg _ ?_
  funext a; apply Fin.ext
  match a with
  | ⟨0, _⟩ => show win1_0.index t (0 : Fin 2) * 5000 + 1 * r.val = 5000 * t.val + r.val; omega
  | ⟨1, _⟩ => show win1_0.index t (1 : Fin 2) * 128 + 1 * k.val = k.val; omega

/-- Window 1 of pass 1: row `r` of the block at point `t` is row `5000 t + r` of the array. -/
theorem blk1_1_at (c : Dev nD) (t : Fin cfg1.N) (r : Fin 5000) (k : Fin 128) :
    iblk1 V c 1 t (ix2 r k) = (V c main_v23 : S50000x128.Idx → Elt F .bf16) (ix2 ⟨5000 * t.val + r.val, row_lt1 t r⟩ k) := by
  have e0 : win1_1.index t (0 : Fin 2) = t.val := (idx1 t).2.2.1
  have e1 : win1_1.index t (1 : Fin 2) = 0 := (idx1 t).2.2.2.1
  unfold iblk1
  rw [View.read_apply]
  show V c main_v23 (((cfg1.win 1).blk t).view.emb (ix2 r k)) = _
  refine congrArg _ ?_
  funext a; apply Fin.ext
  match a with
  | ⟨0, _⟩ => show win1_1.index t (0 : Fin 2) * 5000 + 1 * r.val = 5000 * t.val + r.val; omega
  | ⟨1, _⟩ => show win1_1.index t (1 : Fin 2) * 128 + 1 * k.val = k.val; omega

/-- Window 2 of pass 1 is its whole array at every point. -/
theorem blk1_2_eq (c : Dev nD) (t : Fin cfg1.N) :
    iblk1 V c 2 t = (V c main_v24 : S128x128.Idx → Elt F .bf16) := by
  have e0 : win1_2.index t (0 : Fin 2) = 0 := (zidx1 t).1
  have e1 : win1_2.index t (1 : Fin 2) = 0 := (zidx1 t).2.1
  funext y
  unfold iblk1
  rw [View.read_apply]
  show V c main_v24 (((cfg1.win 2).blk t).view.emb y) = _
  refine congrArg _ ?_
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Window 3 of pass 1 is its whole array at every point. -/
theorem blk1_3_eq (c : Dev nD) (t : Fin cfg1.N) :
    iblk1 V c 3 t = (V c main_v25 : S128x128.Idx → Elt F .bf16) := by
  have e0 : win1_3.index t (0 : Fin 2) = 0 := (zidx1 t).2.2.1
  have e1 : win1_3.index t (1 : Fin 2) = 0 := (zidx1 t).2.2.2.1
  funext y
  unfold iblk1
  rw [View.read_apply]
  show V c main_v25 (((cfg1.win 3).blk t).view.emb y) = _
  refine congrArg _ ?_
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- Window 4 of pass 1 is its whole array at every point. -/
theorem blk1_4_eq (c : Dev nD) (t : Fin cfg1.N) :
    iblk1 V c 4 t = (V c main_v26 : S1x128.Idx → Elt F .f32) := by
  have e0 : win1_4.index t (0 : Fin 2) = 0 := (zidx1 t).2.2.2.2.1
  have e1 : win1_4.index t (1 : Fin 2) = 0 := (zidx1 t).2.2.2.2.2.1
  funext y
  unfold iblk1
  rw [View.read_apply]
  show V c main_v26 (((cfg1.win 4).blk t).view.emb y) = _
  refine congrArg _ ?_
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Window 5 of pass 1 is its whole array at every point. -/
theorem blk1_5_eq (c : Dev nD) (t : Fin cfg1.N) :
    iblk1 V c 5 t = (V c main_v31 : S1x128.Idx → Elt F .f32) := by
  have e0 : win1_5.index t (0 : Fin 2) = 0 := (zidx1 t).2.2.2.2.2.2.1
  have e1 : win1_5.index t (1 : Fin 2) = 0 := (zidx1 t).2.2.2.2.2.2.2.1
  funext y
  unfold iblk1
  rw [View.read_apply]
  show V c main_v31 (((cfg1.win 5).blk t).view.emb y) = _
  refine congrArg _ ?_
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Window 6 of pass 1 is its whole array at every point. -/
theorem blk1_6_eq (c : Dev nD) (t : Fin cfg1.N) :
    iblk1 V c 6 t = (V c main_v35 : S1x128.Idx → Elt F .f32) := by
  have e0 : win1_6.index t (0 : Fin 2) = 0 := (zidx1 t).2.2.2.2.2.2.2.2.1
  have e1 : win1_6.index t (1 : Fin 2) = 0 := (zidx1 t).2.2.2.2.2.2.2.2.2.1
  funext y
  unfold iblk1
  rw [View.read_apply]
  show V c main_v35 (((cfg1.win 6).blk t).view.emb y) = _
  refine congrArg _ ?_
  funext a; apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Window 7 of pass 1 is its whole array at every point. -/
theorem blk1_7_eq (c : Dev nD) (t : Fin cfg1.N) :
    iblk1 V c 7 t = (V c main_v27 : S1x128.Idx → Elt F .f32) := by
  have e0 : win1_7.index t (0 : Fin 2) = 0 := (zidx1 t).2.2.2.2.2.2.2.2.2.2.1
  have e1 : win1_7.index t (1 : Fin 2) = 0 := (zidx1 t).2.2.2.2.2.2.2.2.2.2.2.1
  funext y
  unfold iblk1
  rw [View.read_apply]
  show V c main_v27 (((cfg1.win 7).blk t).view.emb y) = _
  refine congrArg _ ?_
  funext a; apply Fin.ext
  match a with
  | ⟨0, _⟩ => show win1_7.index t (0 : Fin 2) * 1 + 1 * (y 0).val = (y 0).val; omega
  | ⟨1, _⟩ => show win1_7.index t (1 : Fin 2) * 128 + 1 * (y 1).val = (y 1).val; omega

/-- Window 8 of pass 1 is its whole array at every point. -/
theorem blk1_8_eq (c : Dev nD) (t : Fin cfg1.N) :
    iblk1 V c 8 t = (V c main_v28 : S1x128.Idx → Elt F .f32) := by
  have e0 : win1_8.index t (0 : Fin 2) = 0 := (zidx1 t).2.2.2.2.2.2.2.2.2.2.2.2.1
  have e1 : win1_8.index t (1 : Fin 2) = 0 := (zidx1 t).2.2.2.2.2.2.2.2.2.2.2.2.2
  funext y
  unfold iblk1
  rw [View.read_apply]
  show V c main_v28 (((cfg1.win 8).blk t).view.emb y) = _
  refine congrArg _ ?_
  funext a; apply Fin.ext
  match a with
  | ⟨0, _⟩ => show win1_8.index t (0 : Fin 2) * 1 + 1 * (y 0).val = (y 0).val; omega
  | ⟨1, _⟩ => show win1_8.index t (1 : Fin 2) * 128 + 1 * (y 1).val = (y 1).val; omega

end Cert.KernelIdeal.Blocks

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«146067_j47725676593247_1_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.BlockRead.lean ====
/-
  THE TWO KERNEL BODIES READ AT AN INDEX, at the ideal values.

  Both bodies first compute, on a block of 5000 rows, the rectified layer of the block: the block of features times the
  self weights plus the block of neighbour means times the neighbour weights plus the bias row, through the leaky
  rectifier.  Changes of float format are the identity and a product into a zero accumulator is the plain sum, so this
  is `Spec.rst` of the block's operands.  The statistics body then adds the block's column sums (of the layer and of its
  square) to its two accumulators; the normalising body subtracts the mean row, scales by gamma and by the reciprocal
  square root of the variance row plus the guard, adds beta and the residual block: `Spec.norm` of the block's operands.
-/
import proofs.«146067_j47725676593247_1_alg».proof.Proof.Gen.KernelIdeal.Skeleton
import proofs.«146067_j47725676593247_1_alg».proof.Proof.Gen.KernelIdeal
import proofs.«146067_j47725676593247_1_alg».proof.Proof.Spec
import proofs.«146067_j47725676593247_1_alg».proof.Proof.LibRowBias
import proofs.«146067_j47725676593247_1_alg».proof.Proof.LibColumnSum
import Idealize.ShloMosaic.Lib.Pipeline.Value
import Idealize.ShloMosaic.Lib.ValueLayout
import Idealize.ShloMosaic.PureOps.Ideal.Laws

noncomputable section

open scoped BigOperators
open Idealize.ShloMosaic Idealize.ShloMosaic.ValueIdx

namespace Cert.KernelIdeal.BlockRead

open Cert.KernelIdeal Cert.KernelIdeal.Gen Cert.RowBias Cert.BlockDot

/-- The printed contraction record is the plain matrix product's. -/
theorem rec_plain : dot_S5000x128_S128x128_S5000x128_1_0_0_1_n_n = DotDims.plain 5000 128 128 := rfl

/-- The leaky rectifier's printed spelling, read at an index where its operand's value is known. -/
theorem leaky_at {s : Shape} (P : FVec Ideal s .f32) (i : s.Idx) (v : EReal) (h : P i = v) :
    select (cmpf .oge P (broadcast s (FloatOps.ofBits (F := Ideal) .f32 0x00000000#32))) P
      (mulf (broadcast s (FloatOps.ofBits (F := Ideal) .f32 0x3C23D70A#32)) P) i = Cert.Spec.leaky v := by
  subst h; rfl

/-- The two products and the bias row of a block, at `(p, j)`. -/
theorem pre_at (v3 : FVec Ideal S5000x128 .f32) (v5 : FVec Ideal S128x128 .bf16) (v8 : FVec Ideal S5000x128 .bf16)
    (v10 : FVec Ideal S128x128 .bf16) (v14 : FVec Ideal S1x128 .f32) (p : Fin 5000) (j : Fin 128)
    (hb : FTy.bf16.bits < FTy.f32.bits) (hc1 : S128x128.ShapeCasts S128x128) (hc2 : S5000x128.ShapeCasts S5000x128)
    (hc3 : S1x128.ShapeCasts S1x128) (hbc : S1x128.Broadcasts S5000x128) :
    (addf (addf
        (matmul dot_S5000x128_S128x128_S5000x128_1_0_0_1_n_n none (truncf .bf16 v3 hb) (shapeCast S128x128 v5 hc1)
          (constant S5000x128 .f32 0x00000000#32))
        (matmul dot_S5000x128_S128x128_S5000x128_1_0_0_1_n_n none (shapeCast S5000x128 v8 hc2) (shapeCast S128x128 v10 hc1)
          (constant S5000x128 .f32 0x00000000#32)))
      (broadcastTo S5000x128 (shapeCast S1x128 (shapeCast S1x128 v14 hc3) hc3) hbc) : FVec Ideal S5000x128 .f32) (ix2 p j)
      = Cert.Spec.pre (R := 5000) (K := 128) (N := 128) v3 v8 v5 v10 (unrow v14) (ix2 p j) := by
  show matmul dot_S5000x128_S128x128_S5000x128_1_0_0_1_n_n none (truncf .bf16 v3 hb) (shapeCast S128x128 v5 hc1)
          (constant S5000x128 .f32 0x00000000#32) (ix2 p j)
      + matmul dot_S5000x128_S128x128_S5000x128_1_0_0_1_n_n none (shapeCast S5000x128 v8 hc2) (shapeCast S128x128 v10 hc1)
          (constant S5000x128 .f32 0x00000000#32) (ix2 p j)
      + broadcastTo S5000x128 (shapeCast S1x128 (shapeCast S1x128 v14 hc3) hc3) hbc (ix2 p j) = _
  rw [rec_plain, kdot_apply, kdot_apply, shapeCast_self, shapeCast_self, shapeCast_self, shapeCast_self, shapeCast_self,
    broadcastTo_1b_ab_apply, Cert.Spec.pre_apply]
  rfl

/-- The statistics body's rectified block is `Spec.rst` of the block's operands. -/
theorem pay4_eq (v3 : Vec Ideal S5000x128 .f32) (v5 : Vec Ideal S128x128 .bf16) (v8 : Vec Ideal S5000x128 .bf16)
    (v10 : Vec Ideal S128x128 .bf16) (v14 : Vec Ideal S1x128 .f32) :
    k0_pay4 (F := Ideal) v3 v5 v8 v10 v14 = Cert.Spec.rst (R := 5000) (K := 128) (N := 128) v3 v8 v5 v10 (unrow v14) := by
  funext i
  obtain ⟨p, j, rfl⟩ : ∃ (p : Fin 5000) (j : Fin 128), i = ix2 p j := ⟨i 0, i 1, eq_ix2 i⟩
  unfold k0_pay4
  exact leaky_at _ _ _ (pre_at v3 v5 v8 v10 v14 p j _ _ _ _ _)

/-- The normalising body's rectified block is the same function. -/
theorem k1_pay2_eq (v0 : Vec Ideal S5000x128 .f32) (v2 : Vec Ideal S128x128 .bf16) (v5 : Vec Ideal S5000x128 .bf16)
    (v7 : Vec Ideal S128x128 .bf16) (v11 : Vec Ideal S1x128 .f32) :
    k1_pay2 (F := Ideal) v0 v2 v5 v7 v11 = Cert.Spec.rst (R := 5000) (K := 128) (N := 128) v0 v5 v2 v7 (unrow v11) := by
  funext i
  obtain ⟨p, j, rfl⟩ : ∃ (p : Fin 5000) (j : Fin 128), i = ix2 p j := ⟨i 0, i 1, eq_ix2 i⟩
  unfold k1_pay2
  exact leaky_at _ _ _ (pre_at v0 v2 v5 v7 v11 p j _ _ _ _ _)

/-- A column sum of a block appended to a one-row accumulator, at column `j`. -/
theorem rowsum_at (acc : FVec Ideal S1x128 .f32) (x : FVec Ideal S5000x128 .f32) (j : Fin 128)
    (hc : S1x128.ShapeCasts S1x128) (hr : Shape.Reduces S5000x128 [0] S128) (hacc : (0x00000000#32 : BitVec 32) = 0x00000000#32)
    (hc2 : S128.ShapeCasts S1x128) :
    (addf (shapeCast S1x128 acc hc)
      (shapeCast S1x128 (multiReduction (s := S5000x128) .add ([0] : List (Fin 2)) S128 x 0x00000000#32 hr (.inl rfl) hacc) hc2)
        : FVec Ideal S1x128 .f32) (ix2 (0 : Fin 1) j)
      = acc (ix2 (0 : Fin 1) j) + ∑ r : Fin 5000, x (ix2 r j) := by
  show shapeCast S1x128 acc hc (ix2 (0 : Fin 1) j)
    + shapeCast S1x128 (multiReduction (s := S5000x128) .add ([0] : List (Fin 2)) S128 x 0x00000000#32 hr (.inl rfl) hacc) hc2
        (ix2 (0 : Fin 1) j) = _
  rw [shapeCast_self, shapeCast_a_1a_apply, Cert.LibColumnSum.sum_ab_first]

/-- The sums' accumulator after a point: what it held plus the block's column sums of the rectified layer. -/
theorem pay5_at (v3 : Vec Ideal S5000x128 .f32) (v5 : Vec Ideal S128x128 .bf16) (v8 : Vec Ideal S5000x128 .bf16)
    (v10 : Vec Ideal S128x128 .bf16) (v14 : Vec Ideal S1x128 .f32) (v24 : Vec Ideal S1x128 .f32) (j : Fin 128) :
    k0_pay5 (F := Ideal) v3 v5 v8 v10 v14 v24 (ix2 (0 : Fin 1) j)
      = v24 (ix2 (0 : Fin 1) j)
        + ∑ r : Fin 5000, Cert.Spec.rst (R := 5000) (K := 128) (N := 128) v3 v8 v5 v10 (unrow v14) (ix2 r j) := by
  unfold k0_pay5
  refine (rowsum_at v24 _ j _ _ _ _).trans ?_
  rw [pay4_eq]

/-- The squares' accumulator after a point: what it held plus the block's column sums of the squared layer. -/
theorem pay1_at (v3 : Vec Ideal S5000x128 .f32) (v5 : Vec Ideal S128x128 .bf16) (v8 : Vec Ideal S5000x128 .bf16)
    (v10 : Vec Ideal S128x128 .bf16) (v14 : Vec Ideal S1x128 .f32) (v30 : Vec Ideal S1x128 .f32) (j : Fin 128) :
    k0_pay1 (F := Ideal) (k0_pay6 v30) (k0_pay7 v3 v5 v8 v10 v14) (ix2 (0 : Fin 1) j)
      = v30 (ix2 (0 : Fin 1) j)
        + ∑ r : Fin 5000, Cert.Spec.sq (Cert.Spec.rst (R := 5000) (K := 128) (N := 128) v3 v8 v5 v10 (unrow v14)) (ix2 r j) := by
  unfold k0_pay1 k0_pay6 k0_pay7
  refine (rowsum_at _ _ j _ _ _ _).trans ?_
  rw [pay4_eq]
  rfl

/-- The zero rows the first point stores. -/
theorem pay2_at (j : Fin 128) : k0_pay2 (F := Ideal) (ix2 (0 : Fin 1) j) = Cert.Spec.zero := rfl
theorem pay3_at (j : Fin 128) : k0_pay3 (F := Ideal) (ix2 (0 : Fin 1) j) = Cert.Spec.zero := rfl

/-- A one-row operand cast to itself twice and repeated down the rows, at `(p, j)`. -/
theorem rowcast_at (v : FVec Ideal S1x128 .f32) (p : Fin 5000) (j : Fin 128) (hc : S1x128.ShapeCasts S1x128)
    (hbc : S1x128.Broadcasts S5000x128) :
    broadcastTo S5000x128 (shapeCast S1x128 (shapeCast S1x128 v hc) hc) hbc (ix2 p j) = unrow v (ix1 j) := by
  rw [shapeCast_self, shapeCast_self, broadcastTo_1b_ab_apply]
  rfl

/-- The normalising body's stored block, at `(p, j)`: the residual plus the normalised, scaled and shifted layer. -/
theorem pay1_norm_at (x0 : Vec Ideal S5000x128 .f32) (x1 : Vec Ideal S5000x128 .bf16) (x2 x3 : Vec Ideal S128x128 .bf16)
    (x4 x5 x6 x7 x8 : Vec Ideal S1x128 .f32) (p : Fin 5000) (j : Fin 128) :
    k1_pay1 (F := Ideal) (k1_pay2 x0 x2 x1 x3 x4) (k1_pay3 x5) (k1_pay4 x6) (k1_pay5 x7) x8 x0 (ix2 p j)
      = Cert.Spec.norm (R := 5000) (N := 128) x0 (Cert.Spec.rst (R := 5000) (K := 128) (N := 128) x0 x1 x2 x3 (unrow x4))
          (unrow x5) (unrow x6) (unrow x7) (unrow x8) (ix2 p j) := by
  rw [k1_pay2_eq, Cert.Spec.norm_apply]
  unfold k1_pay1 k1_pay3 k1_pay4 k1_pay5
  show x0 (ix2 p j) + ((broadcastTo S5000x128 _ _ (ix2 p j)
      * (Cert.Spec.rst (R := 5000) (K := 128) (N := 128) x0 x1 x2 x3 (unrow x4) (ix2 p j) - broadcastTo S5000x128 _ _ (ix2 p j)))
      * broadcastTo S5000x128 _ _ (ix2 p j) + broadcastTo S5000x128 _ _ (ix2 p j)) = _
  rw [rowcast_at, rowcast_at, rowcast_at, shapeCast_self, shapeCast_self, broadcastTo_1b_ab_apply]
  rfl

end Cert.KernelIdeal.BlockRead

end
-- ==== Proof.NormValue.lean ====
/-
  THE RESULT ARRAY AFTER THE NORMALISING PASS.

  At point `t` the pass writes rows `5000 t … 5000 t + 4999` of the result: the residual block plus the normalised, scaled
  and shifted rectified layer of the block.  The rectified layer of a block of rows is that block of rows of the rectified
  layer of the whole arrays (a row of it depends on the same row of the features and of the neighbour means only), and
  the row operands are whole at every point, so what point `t` writes is block `t` of ONE function of the arrays the pass
  is entered with (`G`).  The ten blocks cover the result, row `p` by the block of point `p / 5000`.
-/
import proofs.«146067_j47725676593247_1_alg».proof.Proof.Gen.KernelIdeal.Frame
import proofs.«146067_j47725676593247_1_alg».proof.Proof.Blocks
import proofs.«146067_j47725676593247_1_alg».proof.Proof.BlockRead
import proofs.«146067_j47725676593247_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.NormValue

open Cert.KernelIdeal Cert.KernelIdeal.Gen Cert.KernelIdeal.Blocks Cert.KernelIdeal.BlockRead Cert.RowBias

variable (V : (c : Dev nD) → (b : Ref sig .tc) → Buf (Elt Ideal) ((c : Thread nD τ).loc b))

theorem hz : (![0, 0] : Fin 2 → Nat) = fun _ => 0 := funext fun a => by fin_cases a <;> rfl

/-- The normalised layer of the arrays the pass is entered with. -/
def G (c : Dev nD) : S50000x128.Idx → EReal :=
  Cert.Spec.norm (R := 50000) (N := 128) (V c main_arg0)
    (Cert.Spec.rst (R := 50000) (K := 128) (N := 128) (V c main_arg0) (V c main_v23) (V c main_v24) (V c main_v25) (unrow (V c main_v26)))
    (unrow (V c main_v31)) (unrow (V c main_v35)) (unrow (V c main_v27)) (unrow (V c main_v28))

/-- The result window's block index, decided over the ten points. -/
theorem idx9 : ∀ t : Fin cfg1.N, win1_9.index t (0 : Fin 2) = t.val ∧ win1_9.index t (1 : Fin 2) = 0 :=
  (by decide +kernel : ∀ t : Fin grid1.N, _)

/-- What point `t` writes back is block `t` of `G`. -/
theorem flushed9_eq (c : Dev nD) (t : Fin cfg1.N) :
    (dat1 V c).flushed 9 t = ((cfg1.win 9).blk t).view.read (Elt Ideal) (G V c) := by
  show (cfg1.win 9).cut (grid1.coords t) ((dat1 V c).after 9 t) = _
  rw [after1_9]
  unfold out1_9
  rw [View.canon_unit_zero hz]
  simp only [View.ld_unit_zero (S := S5000x128) hz, View.ld_unit_zero (S := S128x128) hz, View.ld_unit_zero (S := S1x128) hz]
  funext y
  obtain ⟨r, j, rfl⟩ : ∃ (r : Fin 5000) (j : Fin 128), y = ix2 r j := ⟨y 0, y 1, eq_ix2 y⟩
  rw [View.read_apply]
  show (k1_pay1 (F := Ideal) (k1_pay2 (iblk1 V c 0 t) (iblk1 V c 2 t) (iblk1 V c 1 t) (iblk1 V c 3 t) (iblk1 V c 4 t))
        (k1_pay3 (iblk1 V c 5 t)) (k1_pay4 (iblk1 V c 6 t)) (k1_pay5 (iblk1 V c 7 t)) (iblk1 V c 8 t) (iblk1 V c 0 t)) (ix2 r j)
      = G V c (((cfg1.win 9).blk t).view.emb (ix2 r j))
  refine (pay1_norm_at (iblk1 V c 0 t) (iblk1 V c 1 t) (iblk1 V c 2 t) (iblk1 V c 3 t) (iblk1 V c 4 t) (iblk1 V c 5 t)
    (iblk1 V c 6 t) (iblk1 V c 7 t) (iblk1 V c 8 t) r j).trans ?_
  have hemb : ((cfg1.win 9).blk t).view.emb (ix2 r j) = (ix2 ⟨5000 * t.val + r.val, row_lt1 t r⟩ j : S50000x128.Idx) := by
    obtain ⟨e0, e1⟩ := idx9 t
    funext a; apply Fin.ext
    match a with
    | ⟨0, _⟩ => show win1_9.index t (0 : Fin 2) * 5000 + 1 * r.val = 5000 * t.val + r.val; omega
    | ⟨1, _⟩ => show win1_9.index t (1 : Fin 2) * 128 + 1 * j.val = j.val; omega
  rw [hemb, blk1_2_eq, blk1_3_eq, blk1_4_eq, blk1_5_eq, blk1_6_eq, blk1_7_eq, blk1_8_eq]
  unfold G
  rw [Cert.Spec.norm_apply, Cert.Spec.norm_apply, blk1_0_at,
    Cert.Spec.rst_rows (iblk1 V c 0 t) (iblk1 V c 1 t) (V c main_arg0) (V c main_v23) (V c main_v24) (V c main_v25)
      (unrow (V c main_v26)) r ⟨5000 * t.val + r.val, row_lt1 t r⟩ (fun k => blk1_0_at V c t r k) (fun k => blk1_1_at V c t r k) j]

/-- An index of the result array is in point `t`'s block iff each coordinate is in the block's range on its axis. -/
theorem mem_blk9 (t : Fin cfg1.N) (i : S50000x128.Idx) :
    i ∈ ((cfg1.win 9).blk t).view.set ↔ ∀ a : Fin 2, win1_9.index t a * S5000x128.size a ≤ (i a).val ∧ (i a).val < win1_9.index t a * S5000x128.size a + S5000x128.size a := by
  show i ∈ ((View.whole main_v36).slice (win1_9.rect t)).set ↔ _
  rw [View.set_slice_whole, Rect.mem_set_unit]
  exact Iff.rfl

/-- The result array after the pass: the normalised layer, every row covered by the block of its point. -/
theorem final9 (c : Dev nD) : (dat1 V c).arrAt 9 cfg1.N = G V c :=
  (dat1 V c).arrAt_eq_of_cover 9 (G V c) (fun t _ => flushed9_eq V c t) fun i => by
    have hi0 : (i 0).val < 50000 := (i 0).isLt
    have hi1 : (i 1).val < 128 := (i 1).isLt
    refine ⟨⟨(i 0).val / 5000, by rw [show cfg1.N = 10 from N_1]; omega⟩, flush1_9 _, ?_⟩
    rw [mem_blk9]
    obtain ⟨e0, e1⟩ := idx9 ⟨(i 0).val / 5000, by rw [show cfg1.N = 10 from N_1]; omega⟩
    intro a
    match a with
    | ⟨0, _⟩ => show win1_9.index _ (0 : Fin 2) * 5000 ≤ (i 0).val ∧ (i 0).val < win1_9.index _ (0 : Fin 2) * 5000 + 5000; rw [e0]; dsimp only; omega
    | ⟨1, _⟩ => show win1_9.index _ (1 : Fin 2) * 128 ≤ (i 1).val ∧ (i 1).val < win1_9.index _ (1 : Fin 2) * 128 + 128; rw [e1]; omega

end Cert.KernelIdeal.NormValue
end
-- ==== Proof.StatsPieces.lean ====
/-
  WHAT ONE GRID POINT OF THE STATISTICS PASS LEAVES IN ITS TWO ACCUMULATORS.

  The pass keeps two one-row accumulators, the column sums of the rectified layer and of its square.  At the first
  point both are set to zero before anything is added; at every point the block's column sums are added to what the
  accumulators hold.  So a point leaves  acc + colsum (block)  and  acc' + colsum (block²),  with  acc = acc' = 0  at the
  first point.  Stated for any float values: each accumulator's contents after the body is the value of the body's one
  covering store, whose operands are the whole staging buffers.
-/
import proofs.«146067_j47725676593247_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.StatsValue

open Cert.KernelIdeal Cert.KernelIdeal.Gen

variable {F : FTy → Type} [FloatOps F]

theorem hz : (![0, 0] : Fin 2 → Nat) = fun _ => 0 := funext fun a => by fin_cases a <;> rfl

/-- A later point: the sums' accumulator holding `xo5` ends at `xo5 + colsum (rst block)`. -/
theorem out_B_5 (c : Dev nD) (i : grid0.Coords) (a1 : Memref sig .tc .vmem S5000x128 .f32) (h1 : a1.IsWhole) (a2 : Memref sig .tc .vmem S5000x128 .bf16) (h2 : a2.IsWhole) (a3 : Memref sig .tc .vmem S128x128 .bf16) (h3 : a3.IsWhole) (a4 : Memref sig .tc .vmem S128x128 .bf16) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (hc : ¬cond0_0 i) (x0 : Vec F S5000x128 .f32) (x1 : Vec F S5000x128 .bf16) (x2 : Vec F S128x128 .bf16) (x3 : Vec F S128x128 .bf16) (x4 : Vec F S1x128 .f32) (xo5 xo6 : Vec F S1x128 .f32) :
    out0_B_5 c i a1 h1 a2 h2 a3 h3 a4 h4 a5 h5 a6 h6 a7 h7 hc x0 x1 x2 x3 x4 xo5 xo6 = k0_pay5 x0 x2 x1 x3 x4 xo5 := by
  unfold out0_B_5
  rw [View.read_writes_eq_canon _ _ _ (cover0_B_5 c i a1 h1 a2 h2 a3 h3 a4 h4 a5 h5 a6 h6 a7 h7 hc x0 x1 x2 x3 x4 xo5 xo6)]
  unfold kernelRun0_B
  dsimp only
  rw [View.canon_unit_zero hz]
  simp only [View.readAt_eq_ld, h1.read_unread, h2.read_unread, h3.read_unread, h4.read_unread, h5.read_unread, h6.read_unread, h7.read_unread, View.ld_unit_zero (S := S5000x128) hz, View.ld_unit_zero (S := S128x128) hz, View.ld_unit_zero (S := S1x128) hz]

/-- A later point: the squares' accumulator holding `xo6` ends at `xo6 + colsum (rst block squared)`. -/
theorem out_B_6 (c : Dev nD) (i : grid0.Coords) (a1 : Memref sig .tc .vmem S5000x128 .f32) (h1 : a1.IsWhole) (a2 : Memref sig .tc .vmem S5000x128 .bf16) (h2 : a2.IsWhole) (a3 : Memref sig .tc .vmem S128x128 .bf16) (h3 : a3.IsWhole) (a4 : Memref sig .tc .vmem S128x128 .bf16) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (hc : ¬cond0_0 i) (x0 : Vec F S5000x128 .f32) (x1 : Vec F S5000x128 .bf16) (x2 : Vec F S128x128 .bf16) (x3 : Vec F S128x128 .bf16) (x4 : Vec F S1x128 .f32) (xo5 xo6 : Vec F S1x128 .f32) :
    out0_B_6 c i a1 h1 a2 h2 a3 h3 a4 h4 a5 h5 a6 h6 a7 h7 hc x0 x1 x2 x3 x4 xo5 xo6 = k0_pay1 (k0_pay6 xo6) (k0_pay7 x0 x2 x1 x3 x4) := by
  unfold out0_B_6
  rw [View.read_writes_eq_canon _ _ _ (cover0_B_6 c i a1 h1 a2 h2 a3 h3 a4 h4 a5 h5 a6 h6 a7 h7 hc x0 x1 x2 x3 x4 xo5 xo6)]
  unfold kernelRun0_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x128) hz, View.ld_unit_zero (S := S128x128) hz, View.ld_unit_zero (S := S1x128) hz]

/-- The first point: the sums' accumulator is zeroed, read back, and ends at `0 + colsum (rst block)`. -/
theorem out_A_5 (c : Dev nD) (i : grid0.Coords) (a1 : Memref sig .tc .vmem S5000x128 .f32) (h1 : a1.IsWhole) (a2 : Memref sig .tc .vmem S5000x128 .bf16) (h2 : a2.IsWhole) (a3 : Memref sig .tc .vmem S128x128 .bf16) (h3 : a3.IsWhole) (a4 : Memref sig .tc .vmem S128x128 .bf16) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (hc : cond0_0 i) (x0 : Vec F S5000x128 .f32) (x1 : Vec F S5000x128 .bf16) (x2 : Vec F S128x128 .bf16) (x3 : Vec F S128x128 .bf16) (x4 : Vec F S1x128 .f32) :
    out0_A_5 c i a1 h1 a2 h2 a3 h3 a4 h4 a5 h5 a6 h6 a7 h7 hc x0 x1 x2 x3 x4 = k0_pay5 x0 x2 x1 x3 x4 k0_pay2 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, View.ld_unit_zero (S := S5000x128) hz, View.ld_unit_zero (S := S128x128) hz, View.ld_unit_zero (S := S1x128) hz]

/-- The first point: the squares' accumulator is zeroed, read back, and ends at `0 + colsum (rst block squared)`. -/
theorem out_A_6 (c : Dev nD) (i : grid0.Coords) (a1 : Memref sig .tc .vmem S5000x128 .f32) (h1 : a1.IsWhole) (a2 : Memref sig .tc .vmem S5000x128 .bf16) (h2 : a2.IsWhole) (a3 : Memref sig .tc .vmem S128x128 .bf16) (h3 : a3.IsWhole) (a4 : Memref sig .tc .vmem S128x128 .bf16) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (hc : cond0_0 i) (x0 : Vec F S5000x128 .f32) (x1 : Vec F S5000x128 .bf16) (x2 : Vec F S128x128 .bf16) (x3 : Vec F S128x128 .bf16) (x4 : Vec F S1x128 .f32) :
    out0_A_6 c i a1 h1 a2 h2 a3 h3 a4 h4 a5 h5 a6 h6 a7 h7 hc x0 x1 x2 x3 x4 = k0_pay1 (k0_pay6 k0_pay3) (k0_pay7 x0 x2 x1 x3 x4) := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, View.ld_unit_zero (S := S5000x128) hz, View.ld_unit_zero (S := S128x128) hz, View.ld_unit_zero (S := S1x128) hz]

end Cert.KernelIdeal.StatsValue

end
-- ==== Proof.BlockSum.lean ====
/-
  A SUM OVER T · n CONSECUTIVE POSITIONS, BLOCK BY BLOCK.

  The sum of `g` over the first `T * n` natural numbers is the sum over the `T` consecutive blocks of length `n` of the
  block sums (block `t` holds the positions `n * t + r`, `r < n`).  An accumulator set to zero at the first step and
  given one block sum per step holds, after step `t`, the sum of the first `t + 1` block sums, that is the sum over
  the first `(t + 1) * n` positions.  Addition of extended reals is commutative and associative, so this is plain
  finite-sum algebra.  No program appears in this module.
-/
import proofs.«146067_j47725676593247_1_alg».proof.Proof.Spec
import proofs.«146067_j47725676593247_1_alg».proof.Proof.RstReal

noncomputable section

open scoped BigOperators

namespace Cert.Spec

/-- What an accumulator zeroed at the first step holds after step `t`, when step `s` adds `B s`. -/
def accum (B : ℕ → EReal) : ℕ → EReal
  | 0 => zero + B 0
  | (t + 1) => accum B t + B (t + 1)

theorem accum_zero (B : ℕ → EReal) : accum B 0 = zero + B 0 := rfl

theorem accum_succ (B : ℕ → EReal) (t : ℕ) : accum B (t + 1) = accum B t + B (t + 1) := rfl

/-- After step `t` the accumulator holds the sum of the first `t + 1` terms. -/
theorem accum_eq (B : ℕ → EReal) (t : ℕ) : accum B t = ∑ s ∈ Finset.range (t + 1), B s := by
  induction t with
  | zero => rw [accum_zero, zero_word, zero_add, Finset.sum_range_one]
  | succ t ih => rw [accum_succ, ih, Finset.sum_range_succ _ (t + 1)]

/-- Position `n * t + r` of block `t < T` lies below `T * n`. -/
theorem block_lt {T n : ℕ} (t : Fin T) (r : Fin n) : n * t.val + r.val < T * n := by
  have h1 : n * t.val + r.val < n * t.val + n := Nat.add_lt_add_left r.isLt _
  have h2 : n * t.val + n = (t.val + 1) * n := by ring
  have h3 : (t.val + 1) * n ≤ T * n := Nat.mul_le_mul_right n t.isLt
  omega

/-- The block sums add up to the sum over all `T * n` positions. -/
theorem blocks_sum (g : ℕ → EReal) (n T : ℕ) :
    ∑ t ∈ Finset.range T, ∑ r : Fin n, g (n * t + r.val) = ∑ p : Fin (T * n), g p.val := by
  rw [← Fin.sum_univ_eq_sum_range (fun t => ∑ r : Fin n, g (n * t + r.val)) T,
    ← Fintype.sum_prod_type' (f := fun (t : Fin T) (r : Fin n) => g (n * t.val + r.val))]
  refine Fintype.sum_equiv finProdFinEquiv _ _ fun x => ?_
  refine congrArg g ?_
  show n * x.1.val + x.2.val = x.2.val + n * x.1.val
  exact Nat.add_comm _ _

/-- After step `t`, each step adding one block's sum, the accumulator holds the sum over the first `(t + 1) * n`
    positions. -/
theorem accum_blocks (g : ℕ → EReal) (n t : ℕ) :
    accum (fun s => ∑ r : Fin n, g (n * s + r.val)) t = ∑ p : Fin ((t + 1) * n), g p.val := by
  rw [accum_eq, blocks_sum]

end Cert.Spec

end
-- ==== Proof.StatsFinal.lean ====
/-
  THE TWO ACCUMULATORS AFTER THE STATISTICS PASS.

  The rectified layer of a block of rows is that block of rows of the rectified layer `X` of the whole arrays.  After
  point `n` the first accumulator therefore holds, in column `j`, the zero it was reset to plus the sums of column `j` of
  `X` over the blocks `0 … n`, added in point order; the second the same for the squares.  By induction on the point
  this is the running sum `accum`, and over the extended reals the running sum of the ten block sums is the one sum down
  the 50000 rows.  The accumulators' window never moves, so they are written back once, after the last point, and the
  two result rows end holding the column sums of `X` and of its square.
-/
import proofs.«146067_j47725676593247_1_alg».proof.Proof.Gen.KernelIdeal.Frame
import proofs.«146067_j47725676593247_1_alg».proof.Proof.Blocks
import proofs.«146067_j47725676593247_1_alg».proof.Proof.BlockRead
import proofs.«146067_j47725676593247_1_alg».proof.Proof.Spec
import proofs.«146067_j47725676593247_1_alg».proof.Proof.StatsPieces
import proofs.«146067_j47725676593247_1_alg».proof.Proof.BlockSum
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

open scoped BigOperators

namespace Cert.KernelIdeal.StatsFinal

open Cert.KernelIdeal Cert.KernelIdeal.Gen Cert.KernelIdeal.Blocks Cert.KernelIdeal.BlockRead Cert.RowBias
open Cert.KernelIdeal.StatsValue (out_A_5 out_A_6 out_B_5 out_B_6)

variable (V : (c : Dev nD) → (b : Ref sig .tc) → Buf (Elt Ideal) ((c : Thread nD τ).loc b))

/-- The rectified layer of the arrays the pass is entered with. -/
def X (c : Dev nD) : Cert.Spec.Mat 50000 128 :=
  Cert.Spec.rst (R := 50000) (K := 128) (N := 128) (V c main_arg0) (V c main_v23) (V c main_v24) (V c main_v25) (unrow (V c main_v26))

/-- The rectified layer of the block at point `t` is rows `5000 t …` of `X`. -/
theorem blockrst_at (c : Dev nD) (t : Fin cfg0.N) (r : Fin 5000) (j : Fin 128) :
    Cert.Spec.rst (R := 5000) (K := 128) (N := 128) (iblk0 V c 0 t) (iblk0 V c 1 t) (iblk0 V c 2 t) (iblk0 V c 3 t)
        (unrow (iblk0 V c 4 t)) (ix2 r j)
      = X V c (ix2 ⟨5000 * t.val + r.val, row_lt0 t r⟩ j) := by
  rw [blk0_2_eq, blk0_3_eq, blk0_4_eq]
  exact Cert.Spec.rst_rows (iblk0 V c 0 t) (iblk0 V c 1 t) (V c main_arg0) (V c main_v23) (V c main_v24) (V c main_v25)
    (unrow (V c main_v26)) r ⟨5000 * t.val + r.val, row_lt0 t r⟩ (fun k => blk0_0_at V c t r k) (fun k => blk0_1_at V c t r k) j

/-- Column `j` of a 50000-row array as a sequence (zero past the end). -/
def col (x : Cert.Spec.Mat 50000 128) (j : Fin 128) : ℕ → EReal := fun p => if h : p < 50000 then x (ix2 ⟨p, h⟩ j) else 0

/-- The block's column sum of the rectified layer is the sum of column `j` of `X` over the block's rows. -/
theorem blocksum1 (c : Dev nD) (t : Fin cfg0.N) (j : Fin 128) :
    ∑ r : Fin 5000, Cert.Spec.rst (R := 5000) (K := 128) (N := 128) (iblk0 V c 0 t) (iblk0 V c 1 t) (iblk0 V c 2 t)
        (iblk0 V c 3 t) (unrow (iblk0 V c 4 t)) (ix2 r j)
      = ∑ r : Fin 5000, col (X V c) j (5000 * t.val + r.val) :=
  Finset.sum_congr rfl fun r _ => by rw [blockrst_at V c t r j]; unfold col; rw [dif_pos (row_lt0 t r)]

/-- The same for the squares. -/
theorem blocksum2 (c : Dev nD) (t : Fin cfg0.N) (j : Fin 128) :
    ∑ r : Fin 5000, Cert.Spec.sq (Cert.Spec.rst (R := 5000) (K := 128) (N := 128) (iblk0 V c 0 t) (iblk0 V c 1 t)
        (iblk0 V c 2 t) (iblk0 V c 3 t) (unrow (iblk0 V c 4 t))) (ix2 r j)
      = ∑ r : Fin 5000, col (Cert.Spec.sq (X V c)) j (5000 * t.val + r.val) :=
  Finset.sum_congr rfl fun r _ => by
    show Cert.Spec.rst (R := 5000) (K := 128) (N := 128) (iblk0 V c 0 t) (iblk0 V c 1 t) (iblk0 V c 2 t) (iblk0 V c 3 t)
          (unrow (iblk0 V c 4 t)) (ix2 r j)
        * Cert.Spec.rst (R := 5000) (K := 128) (N := 128) (iblk0 V c 0 t) (iblk0 V c 1 t) (iblk0 V c 2 t) (iblk0 V c 3 t)
          (unrow (iblk0 V c 4 t)) (ix2 r j) = _
    rw [blockrst_at V c t r j]; unfold col; rw [dif_pos (row_lt0 t r)]; rfl

/-- After point `n` the accumulators hold, column by column, the running sums of the block sums. -/
theorem outsAt_eq (c : Dev nD) : ∀ (n : ℕ) (h : n < cfg0.N) (j : Fin 128),
    (outsAt0 V c n h).1 (ix2 (0 : Fin 1) j)
        = Cert.Spec.accum (fun s => ∑ r : Fin 5000, col (X V c) j (5000 * s + r.val)) n
    ∧ (outsAt0 V c n h).2 (ix2 (0 : Fin 1) j)
        = Cert.Spec.accum (fun s => ∑ r : Fin 5000, col (Cert.Spec.sq (X V c)) j (5000 * s + r.val)) n
  | 0, h, j => by
    rw [outsAt0_A V c ⟨0, h⟩ rfl]
    dsimp only
    rw [out_A_5, out_A_6]
    refine ⟨(pay5_at _ _ _ _ _ _ j).trans ?_, (pay1_at _ _ _ _ _ _ j).trans ?_⟩
    · rw [pay2_at, blocksum1 V c ⟨0, h⟩ j]; rfl
    · rw [pay3_at, blocksum2 V c ⟨0, h⟩ j]; rfl
  | n + 1, h, j => by
    have hN : cfg0.N = 10 := N_0
    have hB : ¬(⟨n + 1, h⟩ : Fin cfg0.N).val % 10 = 0 := by dsimp only; omega
    obtain ⟨ih1, ih2⟩ := outsAt_eq c n (Nat.lt_of_succ_lt h) j
    rw [outsAt0_B V c ⟨n + 1, h⟩ hB]
    dsimp only
    rw [out_B_5, out_B_6]
    refine ⟨(pay5_at _ _ _ _ _ _ j).trans ?_, (pay1_at _ _ _ _ _ _ j).trans ?_⟩
    · rw [blocksum1 V c ⟨n + 1, h⟩ j]
      show (outsAt0 V c n _).1 (ix2 (0 : Fin 1) j) + _ = _
      rw [ih1]; rfl
    · rw [blocksum2 V c ⟨n + 1, h⟩ j]
      show (outsAt0 V c n _).2 (ix2 (0 : Fin 1) j) + _ = _
      rw [ih2]; rfl

/-- The column sums of `X` as a one-row array. -/
def S1 (c : Dev nD) : S1x128.Idx → EReal := fun i => Cert.Spec.colSum (X V c) (ix1 (i 1))
/-- The column sums of the squares of `X` as a one-row array. -/
def S2 (c : Dev nD) : S1x128.Idx → EReal := fun i => Cert.Spec.colSum (Cert.Spec.sq (X V c)) (ix1 (i 1))

/-- A running sum over all ten blocks of a column is the sum down the 50000 rows. -/
theorem accum_col (x : Cert.Spec.Mat 50000 128) (j : Fin 128) :
    Cert.Spec.accum (fun s => ∑ r : Fin 5000, col x j (5000 * s + r.val)) 9 = ∑ p : Fin 50000, x (ix2 p j) := by
  rw [Cert.Spec.accum_blocks]
  show ∑ p : Fin 50000, col x j p.val = _
  exact Finset.sum_congr rfl fun p _ => by unfold col; rw [dif_pos p.isLt]

/-- After the last point the accumulators hold the column sums. -/
theorem last_eq (c : Dev nD) (t : Fin cfg0.N) (ht : t.val = 9) :
    (outsAt0 V c t.val t.isLt).1 = S1 V c ∧ (outsAt0 V c t.val t.isLt).2 = S2 V c := by
  obtain ⟨n, hn⟩ := t
  dsimp only at ht
  subst ht
  constructor
  · funext i
    obtain ⟨u, j, rfl⟩ : ∃ (u : Fin 1) (j : Fin 128), i = ix2 u j := ⟨i 0, i 1, eq_ix2 i⟩
    obtain rfl : u = 0 := Subsingleton.elim _ _
    rw [(outsAt_eq V c 9 hn j).1, accum_col]; rfl
  · funext i
    obtain ⟨u, j, rfl⟩ : ∃ (u : Fin 1) (j : Fin 128), i = ix2 u j := ⟨i 0, i 1, eq_ix2 i⟩
    obtain rfl : u = 0 := Subsingleton.elim _ _
    rw [(outsAt_eq V c 9 hn j).2, accum_col]; rfl

/-- The accumulators' window sits at block (0, 0) at every point. -/
theorem idx56 : ∀ t : Fin cfg0.N, win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The one write-back of the sums' row, after the last point, writes the column sums. -/
theorem flushed5_eq (c : Dev nD) (t : Fin cfg0.N) (hf : (cfg0.win 5).flush t = true) :
    (dat0 V c).flushed 5 t = ((cfg0.win 5).blk t).view.read (Elt Ideal) (S1 V c) := by
  have hN : cfg0.N = 10 := N_0
  have h9 : t.val = 9 := by have := (flush0_5 t).mp hf; have := t.isLt; omega
  obtain ⟨e0, e1, -, -⟩ := idx56 t
  show (cfg0.win 5).cut (grid0.coords t) ((dat0 V c).after 5 t) = _
  rw [after0_5, (last_eq V c t h9).1]
  have hz' : (fun a => win0_5.index t a * main_v29_0.ty.shape.size a) = fun _ => 0 :=
    funext fun a => by
      match a with
      | ⟨0, _⟩ => show win0_5.index t (0 : Fin 2) * 1 = 0; omega
      | ⟨1, _⟩ => show win0_5.index t (1 : Fin 2) * 128 = 0; omega
  exact (Memref.read_access_unit_zero (Elt Ideal) main_v29_0 hz' (fun a => by rw [congrFun hz' a]; simp) (S1 V c)).symm

/-- The same for the squares' row. -/
theorem flushed6_eq (c : Dev nD) (t : Fin cfg0.N) (hf : (cfg0.win 6).flush t = true) :
    (dat0 V c).flushed 6 t = ((cfg0.win 6).blk t).view.read (Elt Ideal) (S2 V c) := by
  have hN : cfg0.N = 10 := N_0
  have h9 : t.val = 9 := by have := (flush0_6 t).mp hf; have := t.isLt; omega
  obtain ⟨-, -, e0, e1⟩ := idx56 t
  show (cfg0.win 6).cut (grid0.coords t) ((dat0 V c).after 6 t) = _
  rw [after0_6, (last_eq V c t h9).2]
  have hz' : (fun a => win0_6.index t a * main_v29_1.ty.shape.size a) = fun _ => 0 :=
    funext fun a => by
      match a with
      | ⟨0, _⟩ => show win0_6.index t (0 : Fin 2) * 1 = 0; omega
      | ⟨1, _⟩ => show win0_6.index t (1 : Fin 2) * 128 = 0; omega
  exact (Memref.read_access_unit_zero (Elt Ideal) main_v29_1 hz' (fun a => by rw [congrFun hz' a]; simp) (S2 V c)).symm

/-- The last point's block is the whole one-row array. -/
theorem cover5 (i : S1x128.Idx) : ∃ t : Fin cfg0.N, (cfg0.win 5).flush t = true ∧ i ∈ ((cfg0.win 5).blk t).view.set := by
  refine ⟨t0_9, (flush0_5 t0_9).mpr rfl, ?_⟩
  obtain ⟨e0, e1, -, -⟩ := idx56 t0_9
  show i ∈ ((View.whole main_v29_0).slice (win0_5.rect t0_9)).set
  rw [View.set_slice_whole, Rect.mem_set_unit]
  intro a
  have h0 : (i 0 : Nat) < 1 := (i 0).isLt
  have h1 : (i 1 : Nat) < 128 := (i 1).isLt
  match a with
  | ⟨0, _⟩ => show win0_5.index t0_9 (0 : Fin 2) * 1 ≤ (i 0 : Nat) ∧ (i 0 : Nat) < win0_5.index t0_9 (0 : Fin 2) * 1 + 1; omega
  | ⟨1, _⟩ => show win0_5.index t0_9 (1 : Fin 2) * 128 ≤ (i 1 : Nat) ∧ (i 1 : Nat) < win0_5.index t0_9 (1 : Fin 2) * 128 + 128; omega

theorem cover6 (i : S1x128.Idx) : ∃ t : Fin cfg0.N, (cfg0.win 6).flush t = true ∧ i ∈ ((cfg0.win 6).blk t).view.set := by
  refine ⟨t0_9, (flush0_6 t0_9).mpr rfl, ?_⟩
  obtain ⟨-, -, e0, e1⟩ := idx56 t0_9
  show i ∈ ((View.whole main_v29_1).slice (win0_6.rect t0_9)).set
  rw [View.set_slice_whole, Rect.mem_set_unit]
  intro a
  have h0 : (i 0 : Nat) < 1 := (i 0).isLt
  have h1 : (i 1 : Nat) < 128 := (i 1).isLt
  match a with
  | ⟨0, _⟩ => show win0_6.index t0_9 (0 : Fin 2) * 1 ≤ (i 0 : Nat) ∧ (i 0 : Nat) < win0_6.index t0_9 (0 : Fin 2) * 1 + 1; omega
  | ⟨1, _⟩ => show win0_6.index t0_9 (1 : Fin 2) * 128 ≤ (i 1 : Nat) ∧ (i 1 : Nat) < win0_6.index t0_9 (1 : Fin 2) * 128 + 128; omega

/-- The two result rows after the pass: the column sums of `X` and of its square. -/
theorem final5 (c : Dev nD) : (dat0 V c).arrAt 5 cfg0.N = S1 V c :=
  (dat0 V c).arrAt_eq_of_cover 5 (S1 V c) (flushed5_eq V c) (cover5)

theorem final6 (c : Dev nD) : (dat0 V c).arrAt 6 cfg0.N = S2 V c :=
  (dat0 V c).arrAt_eq_of_cover 6 (S2 V c) (flushed6_eq V c) (cover6)

end Cert.KernelIdeal.StatsFinal

end
-- ==== Proof.KRun.lean ====
/-
  THE IDEALIZED KERNEL'S RUN WITH ITS RESULT NAMED.

  The program is four stretches: host operations, the statistics pass, host operations, the normalising pass.  Every
  weakly fair execution goes through them in order and ends with every unscoped buffer at the contents the last stretch
  leaves; read at the result buffer this names the result, and read at the argument buffers it says they are unchanged.
-/
import proofs.«146067_j47725676593247_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents and
    the seven arguments as launched. -/
theorem run_main : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.RunValue

end
-- ==== Proof.HostSide.lean ====
/-
  THE HOST SIDE OF THE KERNEL PROGRAM, at the ideal values.

  Around its two regions the kernel program runs host operations: before the first region the neighbour means (the same
  chain of operations the reference runs), the conversion of three operands to the narrower format, and the lay-out of
  three vectors as one-row arrays; between the two regions the division of the two accumulated column sums by the number
  of rows and the difference "mean of squares minus square of the mean".  Read here: what each buffer a region reads
  holds when the region is entered, as a term over the launch memory, by walking the buffer back through the operations.
  At the ideal values a conversion between formats is the identity, and a vector laid out as one row, read back as a
  vector, is itself.
-/
import proofs.«146067_j47725676593247_1_alg».proof.Proof.Gen.KernelIdeal.Frame
import proofs.«146067_j47725676593247_1_alg».proof.Proof.Neigh
import proofs.«146067_j47725676593247_1_alg».proof.Proof.Spec
import proofs.«146067_j47725676593247_1_alg».proof.Proof.LibRowBias
import Idealize.ShloMosaic.Lib.StableHlo.Run
import Idealize.ShloMosaic.Lib.ValueIdx
import Idealize.ShloMosaic.Lib.Pipeline.Value

set_option maxRecDepth 16384

noncomputable section

namespace Cert.KernelIdeal.HostSide

open Idealize.ShloMosaic Idealize.ShloMosaic.TcCoe Idealize.ShloMosaic.ValueIdx Idealize.SL.Sem
open Cert.KernelIdeal Cert.KernelIdeal.Gen Cert.RowBias

variable (m : (ℓ : Loc nD τ sig) → Buf (Elt Ideal) ℓ) (ρ : Dev nD → PrngReg) (c : Dev nD)

/-! ## The contents at region 0's entry: the arguments, the cast weights, the one-row vectors -/

/-- No host operation writes the features. -/
theorem V1_arg0 : V1 m ρ c main_arg0 = m ((c : Thread nD τ).loc main_arg0) := by
  show StableHlo.after hostOps0 (W0 m ρ c) (Proc.devRef .tc main_arg0) = _
  after_results

/-- The self weights, converted: at the ideal values the conversion is the identity. -/
theorem V1_v24 : V1 m ρ c main_v24 = m ((c : Thread nD τ).loc main_arg2) := by
  show StableHlo.after hostOps0 (W0 m ρ c) (Proc.devRef .tc main_v24) = _
  after_results
  rfl

/-- The neighbour weights, converted. -/
theorem V1_v25 : V1 m ρ c main_v25 = m ((c : Thread nD τ).loc main_arg3) := by
  show StableHlo.after hostOps0 (W0 m ρ c) (Proc.devRef .tc main_v25) = _
  after_results
  rfl

/-- The bias laid out as one row, read back as a vector. -/
theorem V1_v26 : unrow (V1 m ρ c main_v26) = m ((c : Thread nD τ).loc main_arg4) := by
  have e : (V1 m ρ c main_v26 : S1x128.Idx → EReal)
      = shapeCast S1x128 (m ((c : Thread nD τ).loc main_arg4) : S128.Idx → EReal) shapeCasts_S128_S1x128 := by
    show StableHlo.after hostOps0 (W0 m ρ c) (Proc.devRef .tc main_v26) = _
    after_results
    rfl
  rw [e]
  exact unrow_cast _ _

/-- The scale laid out as one row, read back as a vector. -/
theorem V1_v27 : unrow (V1 m ρ c main_v27) = m ((c : Thread nD τ).loc main_arg5) := by
  have e : (V1 m ρ c main_v27 : S1x128.Idx → EReal)
      = shapeCast S1x128 (m ((c : Thread nD τ).loc main_arg5) : S128.Idx → EReal) shapeCasts_S128_S1x128 := by
    show StableHlo.after hostOps0 (W0 m ρ c) (Proc.devRef .tc main_v27) = _
    after_results
    rfl
  rw [e]
  exact unrow_cast _ _

/-- The shift laid out as one row, read back as a vector. -/
theorem V1_v28 : unrow (V1 m ρ c main_v28) = m ((c : Thread nD τ).loc main_arg6) := by
  have e : (V1 m ρ c main_v28 : S1x128.Idx → EReal)
      = shapeCast S1x128 (m ((c : Thread nD τ).loc main_arg6) : S128.Idx → EReal) shapeCasts_S128_S1x128 := by
    show StableHlo.after hostOps0 (W0 m ρ c) (Proc.devRef .tc main_v28) = _
    after_results
    rfl
  rw [e]
  exact unrow_cast _ _

/-! ## The neighbour means at region 0's entry

The operations' composed term is the chain of the neighbour means, one operation after another: the two rows of the edge
list, the wrapped sources, the destinations, the gathered rows, their sums, the counts, the divisor and the quotient. -/

/-- At the ideal values the conversion to the narrower format is the identity. -/
theorem truncf_ideal {s : Shape} (x : FVec Ideal s .f32) (h : FTy.bits .bf16 < FTy.bits .f32) :
    (truncf .bf16 x h : s.Idx → EReal) = x := rfl

section Fold

variable (h : FVec Ideal S50000x128 .f32) (ei : IVec S2x800000 32)

theorem fold_row0 :
    (fun i => shapeCast main_v1.ty.shape (extractStridedSlice S1x800000 ![0, 0] ei slices_S2x800000_S1x800000_0_0)
      shapeCasts_S1x800000_S800000 i) = Cert.Neigh.edgeRow0 ei := rfl

theorem fold_row1 :
    (fun i => shapeCast main_v3.ty.shape (extractStridedSlice S1x800000 ![1, 0] ei slices_S2x800000_S1x800000_1_0)
      shapeCasts_S1x800000_S800000 i) = Cert.Neigh.edgeRow1 ei := rfl

theorem fold_src :
    broadcastInDim S800000x1 ![0] bcast_S800000_S800000x1_0
      (select (cmpi .slt (Cert.Neigh.edgeRow0 ei) (broadcastInDim S800000 ![] bcast_S_S800000 (constantI S_ 32 0#32)))
        (addi (Cert.Neigh.edgeRow0 ei) (broadcastInDim S800000 ![] bcast_S_S800000 (constantI S_ 32 50000#32)))
        (Cert.Neigh.edgeRow0 ei)) = Cert.Neigh.srcIdx ei := rfl

theorem fold_dst :
    broadcastInDim S800000x1 ![0] bcast_S800000_S800000x1_0 (Cert.Neigh.edgeRow1 ei) = Cert.Neigh.dstIdx ei := rfl

theorem fold_gathered :
    Host.gather gather_S50000x128_S800000x1_S800000x128_1_0_n_n_0_1_1128 h (Cert.Neigh.srcIdx ei)
      = Cert.Neigh.gathered h ei := rfl
end Fold

section Fold2
variable (h : FVec Ideal S50000x128 .f32) (ei : IVec S2x800000 32)

theorem fold_agg :
    Host.scatterAdd scatter_S50000x128_S800000x1_S800000x128_1_0_0_1
        (broadcastInDim S50000x128 ![] bcast_S_S50000x128 (constant (F := Ideal) S_ .f32 0x00000000#32))
        (Cert.Neigh.dstIdx ei) (Cert.Neigh.gathered h ei)
      = Cert.Neigh.agg h ei := rfl

theorem fold_deg :
    Host.scatterAdd scatter_S50000_S800000x1_S800000_n_0_0_1
        (broadcastInDim S50000 ![] bcast_S_S50000 (constant (F := Ideal) S_ .f32 0x00000000#32))
        (Cert.Neigh.dstIdx ei)
        (broadcastInDim S800000 ![] bcast_S_S800000 (constant (F := Ideal) S_ .f32 0x3F800000#32))
      = Cert.Neigh.deg ei := rfl

theorem fold_divisor :
    broadcastInDim S50000x128 ![0, 1] bcast_S50000x1_S50000x128_0_1
        (broadcastInDim S50000x1 ![0] bcast_S50000_S50000x1_0
          (maximumf (Cert.Neigh.deg ei)
            (broadcastInDim S50000 ![] bcast_S_S50000 (constant (F := Ideal) S_ .f32 0x3F800000#32))))
      = Cert.Neigh.divisor ei := rfl

theorem fold_hneigh :
    Host.divf (Cert.Neigh.agg h ei) (Cert.Neigh.divisor ei) = Cert.Neigh.hneigh h ei := rfl
end Fold2

/-- THE NEIGHBOUR MEANS, from any contents: the first thirty host operations are the chain of operations of the
    neighbour means applied to the features and the edge list, and the thirty-first converts the result. -/
theorem after0_v23 (W : Valuation τ sig (Elt Ideal)) :
    (StableHlo.after hostOps0 W (Proc.devRef .tc main_v23) : S50000x128.Idx → EReal)
      = Cert.Neigh.hneigh (W (Proc.devRef .tc main_arg0)) (W (Proc.devRef .tc main_arg1)) := by
  after_results_simp
  generalize W (Proc.devRef .tc main_arg0) = h
  generalize W (Proc.devRef .tc main_arg1) = ei
  refine (truncf_ideal _ _).trans ?_
  rw [fold_row0 ei, fold_row1 ei]
  rw [fold_src ei, fold_dst ei, fold_gathered h ei, fold_agg h ei, fold_deg ei, fold_divisor ei, fold_hneigh h ei]

/-- THE NEIGHBOUR MEANS at region 0's entry, over the launch memory. -/
theorem V1_v23 : V1 m ρ c main_v23
    = Cert.Neigh.hneigh (m ((c : Thread nD τ).loc main_arg0)) (m ((c : Thread nD τ).loc main_arg1)) := by
  have e0 : W0 m ρ c (Proc.devRef .tc main_arg0) = m ((c : Thread nD τ).loc main_arg0) := rfl
  have e1 : W0 m ρ c (Proc.devRef .tc main_arg1) = m ((c : Thread nD τ).loc main_arg1) := rfl
  have e := after0_v23 (W0 m ρ c)
  rw [e0, e1] at e
  exact e

/-! ## The contents at region 1's entry: what region 0 read, and the three one-row vectors, are as at region 0's entry

The host operations between the regions write none of these buffers; region 0 leaves an input window's array as it
found it, and a buffer that is no array of region 0 as it was. -/

/-- An input window's array of region 0 is, at the region's exit, what it was at its entry. -/
theorem W2_in (w : Fin cfg0.W) (hw : (cfg0.win w).isOut = false) :
    W2 m ρ c (Proc.devRef .tc (Pipeline.arrRef spec0 w)) = V1 m ρ c (Pipeline.arrRef spec0 w) :=
  (W2_arr m ρ c w).trans (((dat0 (V1 m ρ) c).arrAt_in w hw _).trans (A_eq0 (V1 m ρ) c w))

theorem V3_main_arg0 : V3 m ρ c main_arg0 = V1 m ρ c main_arg0 := by
  show StableHlo.after hostOps1 (W2 m ρ c) (Proc.devRef .tc main_arg0) = _
  after_results
  exact W2_in m ρ c 0 rfl

theorem V3_main_v23 : V3 m ρ c main_v23 = V1 m ρ c main_v23 := by
  show StableHlo.after hostOps1 (W2 m ρ c) (Proc.devRef .tc main_v23) = _
  after_results
  exact W2_in m ρ c 1 rfl

theorem V3_main_v24 : V3 m ρ c main_v24 = V1 m ρ c main_v24 := by
  show StableHlo.after hostOps1 (W2 m ρ c) (Proc.devRef .tc main_v24) = _
  after_results
  exact W2_in m ρ c 2 rfl

theorem V3_main_v25 : V3 m ρ c main_v25 = V1 m ρ c main_v25 := by
  show StableHlo.after hostOps1 (W2 m ρ c) (Proc.devRef .tc main_v25) = _
  after_results
  exact W2_in m ρ c 3 rfl

theorem V3_main_v26 : V3 m ρ c main_v26 = V1 m ρ c main_v26 := by
  show StableHlo.after hostOps1 (W2 m ρ c) (Proc.devRef .tc main_v26) = _
  after_results
  exact W2_in m ρ c 4 rfl

theorem V3_main_v27 : V3 m ρ c main_v27 = V1 m ρ c main_v27 := by
  show StableHlo.after hostOps1 (W2 m ρ c) (Proc.devRef .tc main_v27) = _
  after_results
  exact W2_of_ne m ρ c main_v27 (by decide)

theorem V3_main_v28 : V3 m ρ c main_v28 = V1 m ρ c main_v28 := by
  show StableHlo.after hostOps1 (W2 m ρ c) (Proc.devRef .tc main_v28) = _
  after_results
  exact W2_of_ne m ρ c main_v28 (by decide)

end Cert.KernelIdeal.HostSide

end
-- ==== Proof.HostMid.lean ====
/-
  THE HOST OPERATIONS BETWEEN THE TWO REGIONS, read at an index.

  Between the region that accumulates the two column sums and the region that normalises, the host divides each sum
  by the count (the word of fifty thousand, repeated along the columns), squares the first quotient and subtracts
  the square from the second: the column means and the variance as the mean of the squares minus the squared mean.
  The operations are first read over an arbitrary valuation of the buffers, then at the contents the first region
  leaves, where the two sums are the folded write-backs of its fifth and sixth windows.
-/
import proofs.«146067_j47725676593247_1_alg».proof.Proof.Gen.KernelIdeal.Frame
import proofs.«146067_j47725676593247_1_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.HostMid

open Cert.KernelIdeal Cert.KernelIdeal.Gen Idealize.ShloMosaic Idealize.ShloMosaic.ValueIdx

/-- The count repeated along the columns. -/
abbrev cntRow : FVec Ideal S1x128 .f32 :=
  broadcastInDim S1x128 ![] Facts₀.bcast_S_S1x128 (constant (F := Ideal) S_ .f32 0x47435000#32)

/-- The first quotient over any valuation: the first sum divided by the count. -/
theorem after_v31 (W : Valuation τ sig (Elt Ideal)) :
    (StableHlo.after (hostOps1 (F := Ideal)) W (Proc.devRef .tc main_v31) : S1x128.Idx → EReal)
      = Host.divf (F := Ideal) (W (Proc.devRef .tc main_v29_0) : S1x128.Idx → EReal) cntRow := by
  after_results

/-- The second quotient minus the square of the first, over any valuation. -/
theorem after_v35 (W : Valuation τ sig (Elt Ideal)) :
    (StableHlo.after (hostOps1 (F := Ideal)) W (Proc.devRef .tc main_v35) : S1x128.Idx → EReal)
      = subf (Host.divf (F := Ideal) (W (Proc.devRef .tc main_v29_1) : S1x128.Idx → EReal) cntRow)
          (mulf (Host.divf (F := Ideal) (W (Proc.devRef .tc main_v29_0) : S1x128.Idx → EReal) cntRow)
            (Host.divf (F := Ideal) (W (Proc.devRef .tc main_v29_0) : S1x128.Idx → EReal) cntRow)) := by
  after_results

/-- The count row at an index is the count. -/
theorem cntRow_apply (i : S1x128.Idx) : cntRow i = Cert.Spec.cnt :=
  (broadcastInDim_apply _ Facts₀.bcast_S_S1x128 _ i ix0 (fun a => a.elim0)).trans rfl

variable (m : (ℓ : Loc nD τ sig) → Buf (Elt Ideal) ℓ) (ρ : Dev nD → PrngReg) (c : Dev nD)

/-- The column means the second region is entered with: the first sum over the count. -/
theorem V3_v31_at (j : Fin 128) :
    (V3 m ρ c main_v31 : S1x128.Idx → EReal) (ix2 (0 : Fin 1) j)
      = Ideal.div ((dat0 (V1 m ρ) c).arrAt 5 cfg0.N (ix2 (0 : Fin 1) j)) Cert.Spec.cnt := by
  have e := after_v31 (W2 m ρ c)
  rw [show (W2 m ρ c (Proc.devRef .tc main_v29_0)) = (dat0 (V1 m ρ) c).arrAt 5 cfg0.N from W2_arr m ρ c 5] at e
  refine (congrFun e (ix2 (0 : Fin 1) j)).trans ?_
  show Ideal.div _ (cntRow _) = _
  rw [cntRow_apply]

/-- The variance the second region is entered with: the second sum over the count, minus the squared mean. -/
theorem V3_v35_at (j : Fin 128) :
    (V3 m ρ c main_v35 : S1x128.Idx → EReal) (ix2 (0 : Fin 1) j)
      = Ideal.div ((dat0 (V1 m ρ) c).arrAt 6 cfg0.N (ix2 (0 : Fin 1) j)) Cert.Spec.cnt
        - Ideal.div ((dat0 (V1 m ρ) c).arrAt 5 cfg0.N (ix2 (0 : Fin 1) j)) Cert.Spec.cnt
          * Ideal.div ((dat0 (V1 m ρ) c).arrAt 5 cfg0.N (ix2 (0 : Fin 1) j)) Cert.Spec.cnt := by
  have e := after_v35 (W2 m ρ c)
  rw [show (W2 m ρ c (Proc.devRef .tc main_v29_0)) = (dat0 (V1 m ρ) c).arrAt 5 cfg0.N from W2_arr m ρ c 5,
    show (W2 m ρ c (Proc.devRef .tc main_v29_1)) = (dat0 (V1 m ρ) c).arrAt 6 cfg0.N from W2_arr m ρ c 6] at e
  refine (congrFun e (ix2 (0 : Fin 1) j)).trans ?_
  show Ideal.div _ (cntRow _) - Ideal.div _ (cntRow _) * Ideal.div _ (cntRow _) = _
  rw [cntRow_apply]

end Cert.KernelIdeal.HostMid

end
-- ==== Proof.KValue.lean ====
/-
  THE IDEALIZED KERNEL'S RESULT IS THE LAYER, with the variance as the mean of squares minus the squared mean.

  The result buffer is the normalising pass's output array: the normalised layer of the arrays that pass is entered
  with (NormValue).  Those arrays are the arguments themselves (features, weights; bias, gamma and beta as one-row
  arrays), the neighbour means computed by the host operations before the first pass, and the mean and variance rows the
  host computes between the passes from the statistics pass's two result rows — the column sums of the rectified layer
  and of its square (StatsFinal), divided by the number of rows.  Substituting gives `Spec.outK` of the seven arguments.
-/
import proofs.«146067_j47725676593247_1_alg».proof.Proof.Gen.KernelIdeal.Frame
import proofs.«146067_j47725676593247_1_alg».proof.Proof.Blocks
import proofs.«146067_j47725676593247_1_alg».proof.Proof.BlockRead
import proofs.«146067_j47725676593247_1_alg».proof.Proof.Spec
import proofs.«146067_j47725676593247_1_alg».proof.Proof.Neigh
import proofs.«146067_j47725676593247_1_alg».proof.Proof.NormValue
import proofs.«146067_j47725676593247_1_alg».proof.Proof.StatsFinal
import proofs.«146067_j47725676593247_1_alg».proof.Proof.KRun
import proofs.«146067_j47725676593247_1_alg».proof.Proof.HostSide
import proofs.«146067_j47725676593247_1_alg».proof.Proof.HostMid
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.RowBias

variable (m : (ℓ : Loc nD τ sig) → Buf (Elt Ideal) ℓ) (ρ : Dev nD → PrngReg)

/-- The result of the idealized kernel, as the layer's function of the seven arguments. -/
theorem result_eq (c : Dev nD) :
    W4 m ρ c (Proc.devRef .tc main_v36)
      = Cert.Spec.outK (R := 50000) (N := 128) (m ((c.tc : Thread nD τ).loc main_arg0))
          (Cert.Neigh.hneigh (m ((c.tc : Thread nD τ).loc main_arg0)) (m ((c.tc : Thread nD τ).loc main_arg1)))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  have V1_arg0 := Cert.KernelIdeal.HostSide.V1_arg0 m ρ c
  have V1_v23 := Cert.KernelIdeal.HostSide.V1_v23 m ρ c
  have V1_v24 := Cert.KernelIdeal.HostSide.V1_v24 m ρ c
  have V1_v25 := Cert.KernelIdeal.HostSide.V1_v25 m ρ c
  have V1_v26 := Cert.KernelIdeal.HostSide.V1_v26 m ρ c
  have V1_v27 := Cert.KernelIdeal.HostSide.V1_v27 m ρ c
  have V1_v28 := Cert.KernelIdeal.HostSide.V1_v28 m ρ c
  have V3_main_arg0 := Cert.KernelIdeal.HostSide.V3_main_arg0 m ρ c
  have V3_main_v23 := Cert.KernelIdeal.HostSide.V3_main_v23 m ρ c
  have V3_main_v24 := Cert.KernelIdeal.HostSide.V3_main_v24 m ρ c
  have V3_main_v25 := Cert.KernelIdeal.HostSide.V3_main_v25 m ρ c
  have V3_main_v26 := Cert.KernelIdeal.HostSide.V3_main_v26 m ρ c
  have V3_main_v27 := Cert.KernelIdeal.HostSide.V3_main_v27 m ρ c
  have V3_main_v28 := Cert.KernelIdeal.HostSide.V3_main_v28 m ρ c
  have V3_v31_at := Cert.KernelIdeal.HostMid.V3_v31_at m ρ c
  have V3_v35_at := Cert.KernelIdeal.HostMid.V3_v35_at m ρ c
  have hX : Cert.KernelIdeal.StatsFinal.X (V1 m ρ) c
      = Cert.Spec.rst (R := 50000) (K := 128) (N := 128) (m ((c.tc : Thread nD τ).loc main_arg0))
          (Cert.Neigh.hneigh (m ((c.tc : Thread nD τ).loc main_arg0)) (m ((c.tc : Thread nD τ).loc main_arg1)))
          (m ((c.tc : Thread nD τ).loc main_arg2)) (m ((c.tc : Thread nD τ).loc main_arg3))
          (m ((c.tc : Thread nD τ).loc main_arg4)) := by
    unfold Cert.KernelIdeal.StatsFinal.X
    rw [V1_arg0, V1_v23, V1_v24, V1_v25, V1_v26]
  have hmean : unrow (V3 m ρ c main_v31) = Cert.Spec.mean (Cert.KernelIdeal.StatsFinal.X (V1 m ρ) c) := by
    funext i
    obtain ⟨j, rfl⟩ : ∃ j : Fin 128, i = ix1 j := ⟨i 0, eq_ix1 i⟩
    show (V3 m ρ c main_v31 : S1x128.Idx → EReal) (ix2 (0 : Fin 1) j) = _
    rw [V3_v31_at j, Cert.KernelIdeal.StatsFinal.final5]
    rfl
  have hvar : unrow (V3 m ρ c main_v35) = Cert.Spec.varK (Cert.KernelIdeal.StatsFinal.X (V1 m ρ) c) := by
    funext i
    obtain ⟨j, rfl⟩ : ∃ j : Fin 128, i = ix1 j := ⟨i 0, eq_ix1 i⟩
    show (V3 m ρ c main_v35 : S1x128.Idx → EReal) (ix2 (0 : Fin 1) j) = _
    rw [V3_v35_at j, Cert.KernelIdeal.StatsFinal.final5, Cert.KernelIdeal.StatsFinal.final6]
    rfl
  refine (W4_arr m ρ c 9).trans ?_
  rw [Cert.KernelIdeal.NormValue.final9]
  unfold Cert.KernelIdeal.NormValue.G Cert.Spec.outK
  rw [hmean, hvar, hX, V3_main_arg0, V3_main_v23, V3_main_v24, V3_main_v25, V3_main_v26, V3_main_v27, V3_main_v28,
    V1_arg0, V1_v23, V1_v24, V1_v25, V1_v26, V1_v27, V1_v28]

/-- Every weakly fair execution of the idealized kernel terminates with the result at the layer's function of the
    arguments and the arguments unchanged. -/
theorem run : θ_run (defs (F := Ideal)) (onTc (τ := τ) (main (F := Ideal))) ⟨m, fun _ => 0, ρ⟩ (fun r => ∀ c : Dev nD,
      r.2.mem ((c.tc : Thread nD τ).loc main_v36)
        = Cert.Spec.outK (R := 50000) (N := 128) (m ((c.tc : Thread nD τ).loc main_arg0))
          (Cert.Neigh.hneigh (m ((c.tc : Thread nD τ).loc main_arg0)) (m ((c.tc : Thread nD τ).loc main_arg1)))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩)
    (Cert.KernelIdeal.RunValue.run_main (F := Ideal) m ρ)

end Cert.KernelIdeal.KValue

end
-- ==== Proof.lean ====
/- The proof of `Cert.Claim`: a mean-aggregation graph layer with a leaky rectifier, a normalisation of every column
   by its mean and variance over the 50000 rows, and a residual sum, computed by two passes over row blocks against the
   plain array program.

   At the ideal values both programs compute the neighbour means by the same host operations (Neigh), the rectified layer
   by the same products, and the column means by the same sums (the kernel as a running sum over ten blocks, the host as
   one sum: equal, since addition of extended reals is commutative and associative).  They differ in the variance: the
   kernel takes the mean of the squares minus the square of the mean, the host the mean of the squared deviations.  These
   agree when every entry of the rectified layer is a real number (Variance), which follows from the finiteness of the
   inputs (PreReal, NeighReal, RstReal); this is where the precondition is used (Agree).  The kernel's result is read off
   its run in KValue, the host's off its run in RefRead; the three frames are the runs with the results dropped, and the
   idealization rewrote nothing. -/
import proofs.«146067_j47725676593247_1_alg».proof.Defs
import proofs.«146067_j47725676593247_1_alg».proof.Proof.Gen.Kernel
import proofs.«146067_j47725676593247_1_alg».proof.Proof.Gen.Kernel.Skeleton
import proofs.«146067_j47725676593247_1_alg».proof.Proof.Gen.Kernel.Launch
import proofs.«146067_j47725676593247_1_alg».proof.Proof.Gen.Kernel.Points
import proofs.«146067_j47725676593247_1_alg».proof.Proof.Gen.Kernel.Frame
import proofs.«146067_j47725676593247_1_alg».proof.Proof.Gen.KernelIdeal
import proofs.«146067_j47725676593247_1_alg».proof.Proof.Gen.KernelIdeal.Skeleton
import proofs.«146067_j47725676593247_1_alg».proof.Proof.Gen.KernelIdeal.Launch
import proofs.«146067_j47725676593247_1_alg».proof.Proof.Gen.KernelIdeal.Points
import proofs.«146067_j47725676593247_1_alg».proof.Proof.Gen.KernelIdeal.Frame
import proofs.«146067_j47725676593247_1_alg».proof.Proof.Gen.ReferenceIdeal
import proofs.«146067_j47725676593247_1_alg».proof.Proof.Gen.Pre_finite_inputs
import proofs.«146067_j47725676593247_1_alg».proof.Proof.RefRead
import proofs.«146067_j47725676593247_1_alg».proof.Proof.Agree
import proofs.«146067_j47725676593247_1_alg».proof.Proof.KValue
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

/-- The host program's run with the result dropped. -/
theorem frame_ri : Cert.frame_ReferenceIdeal := fun m ρ _ =>
  (θ_run Cert.ReferenceIdeal.defs _ _).mono (fun _ h c => (h c).2) (Cert.ReferenceIdeal.RefValue.run m ρ)

/-- The two runs end at the layer's two spellings of arguments that agree; under the precondition the spellings agree. -/
theorem algebraic : Cert.algebraic_KernelIdeal_ReferenceIdeal := by
  intro m ρ m' ρ' hpre hagree
  refine ⟨fun c => Cert.Spec.outK (m ((c.tc : Thread Cert.KernelIdeal.nD Cert.KernelIdeal.τ).loc Cert.KernelIdeal.main_arg0))
      (Cert.Neigh.hneigh (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), Cert.KernelIdeal.KValue.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6⟩ := hagree c
  rw [e0, e1, e2, e3, e4, e5, e6]
  exact (Cert.Agree.layer_agree _ _ _ _ _ _ _ (hpre c)).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
